-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x16 : Shape := ⟨2, ![50000, 16]⟩
abbrev S2x800000 : Shape := ⟨2, ![2, 800000]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x32 : Shape := ⟨2, ![64, 32]⟩
abbrev S32x16 : Shape := ⟨2, ![32, 16]⟩
abbrev S16 : Shape := ⟨1, ![16]⟩
abbrev S_ : Shape := ⟨0, ![]⟩

class Facts : Prop where
  bcast_S_S50000x16 : S_.BroadcastsInDim S50000x16 (![] : Fin 0 → Fin S50000x16.rank)
  reducesTo_S50000x16_S_d0_1 : S50000x16.ReducesTo [0, 1] S_
  h_S_ : 0 < S_.numel
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64x32 : S_.BroadcastsInDim S64x32 (![] : Fin 0 → Fin S64x32.rank)
  reducesTo_S64x32_S_d0_1 : S64x32.ReducesTo [0, 1] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_arg12 : FVec F S32x16 .f32) (main_arg13 : FVec F S16 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x16 .f32 := Host.absf main_arg12
  let main_cst_20 : FVec F S_ .f32 := constant S_ .f32 0x7F800000#32
  let main_v55 : FVec F S32x16 .f32 := broadcastInDim S32x16 ![] bcast_S_S32x16 main_cst_20
  let main_v56 : IVec S32x16 1 := cmpf .olt main_v54 main_v55
  let main_c_21 : IVec S_ 1 := constantI S_ 1 1#1
  let main_v57 : IVec S_ 1 := (fun x v => Host.reduce IntOp.andi x v reducesTo_S32x16_S_d0_1 h_S_) main_v56 main_c_21
  let main_v58 : IVec S_ 1 := andi main_v53 main_v57
  let main_v59 : FVec F S16 .f32 := Host.absf main_arg13
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  main_v63

def fn_part2 {F : FTy → Type} [FloatOps F] (main_arg8 : FVec F S128x64 .f32) (main_arg9 : FVec F S64 .f32) (main_arg10 : FVec F S64x32 .f32) (main_arg11 : FVec F S32 .f32) (main_arg12 : FVec F S32x16 .f32) (main_arg13 : FVec F S16 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x32 .f32 := Host.absf main_arg10
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_arg12 main_arg13 main_v48 main_v49 main_v50

def fn_part1 {F : FTy → Type} [FloatOps F] (main_arg5 : FVec F S64 .f32) (main_arg6 : FVec F S64x128 .f32) (main_arg7 : FVec F S128 .f32) (main_arg8 : FVec F S128x64 .f32) (main_arg9 : FVec F S64 .f32) (main_arg10 : FVec F S64x32 .f32) (main_arg11 : FVec F S32 .f32) (main_arg12 : FVec F S32x16 .f32) (main_arg13 : FVec F S16 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x16 .f32) (main_arg1 : IVec S2x800000 32) (main_arg2 : FVec F S16x32 .f32) (main_arg3 : FVec F S32 .f32) (main_arg4 : FVec F S32x64 .f32) (main_arg5 : FVec F S64 .f32) (main_arg6 : FVec F S64x128 .f32) (main_arg7 : FVec F S128 .f32) (main_arg8 : FVec F S128x64 .f32) (main_arg9 : FVec F S64 .f32) (main_arg10 : FVec F S64x32 .f32) (main_arg11 : FVec F S32 .f32) (main_arg12 : FVec F S32x16 .f32) (main_arg13 : FVec F S16 .f32) : IVec S_ 1 :=
  let main_v0 : FVec F S50000x16 .f32 := Host.absf main_arg0
  let main_cst : FVec F S_ .f32 := constant S_ .f32 0x7F800000#32
  let main_v1 : FVec F S50000x16 .f32 := broadcastInDim S50000x16 ![] bcast_S_S50000x16 main_cst
  let main_v2 : IVec S50000x16 1 := cmpf .olt main_v0 main_v1
  let main_c : IVec S_ 1 := constantI S_ 1 1#1
  let main_v3 : IVec S_ 1 := (fun x v => Host.reduce IntOp.andi x v reducesTo_S50000x16_S_d0_1 h_S_) main_v2 main_c
  let main_v4 : FVec F S16x32 .f32 := Host.absf main_arg2
  let main_cst_0 : FVec F S_ .f32 := constant S_ .f32 0x7F800000#32
  let main_v5 : FVec F S16x32 .f32 := broadcastInDim S16x32 ![] bcast_S_S16x32 main_cst_0
  let main_v6 : IVec S16x32 1 := cmpf .olt main_v4 main_v5
  let main_c_1 : IVec S_ 1 := constantI S_ 1 1#1
  let main_v7 : IVec S_ 1 := (fun x v => Host.reduce IntOp.andi x v reducesTo_S16x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x64 .f32 := Host.absf main_arg4
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg5 main_arg6 main_arg7 main_arg8 main_arg9 main_arg10 main_arg11 main_arg12 main_arg13 main_v13 main_v16
-- ==== Kernel.lean ====
abbrev S50000x16 : Shape := ⟨2, ![50000, 16]⟩
abbrev S2x800000 : Shape := ⟨2, ![2, 800000]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x32 : Shape := ⟨2, ![64, 32]⟩
abbrev S32x16 : Shape := ⟨2, ![32, 16]⟩
abbrev S16 : Shape := ⟨1, ![16]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x32 : Shape := ⟨2, ![50000, 32]⟩
abbrev S10000x16 : Shape := ⟨2, ![10000, 16]⟩
abbrev S10000x32 : Shape := ⟨2, ![10000, 32]⟩
abbrev S850000x32 : Shape := ⟨2, ![850000, 32]⟩
abbrev S1x32 : Shape := ⟨2, ![1, 32]⟩
abbrev S50000x64 : Shape := ⟨2, ![50000, 64]⟩
abbrev S10000x64 : Shape := ⟨2, ![10000, 64]⟩
abbrev S850000x64 : Shape := ⟨2, ![850000, 64]⟩
abbrev S1x64 : Shape := ⟨2, ![1, 64]⟩
abbrev S50000x128 : Shape := ⟨2, ![50000, 128]⟩
abbrev S10000x128 : Shape := ⟨2, ![10000, 128]⟩
abbrev S850000x128 : Shape := ⟨2, ![850000, 128]⟩
abbrev S1x128 : Shape := ⟨2, ![1, 128]⟩
abbrev S1x16 : Shape := ⟨2, ![1, 16]⟩

abbrev nBuf : Space → Nat
  | .hbm => 112
  | .vmem => 28
  | .smem => 0
  | _ => 0

abbrev bufTy : (tb : Table) → Fin (tcTables nBuf tb) → BufTy
  | .hbm, ⟨0, _⟩ => ⟨S50000x16, .f32⟩
  | .hbm, ⟨1, _⟩ => ⟨S2x800000, .i32⟩
  | .hbm, ⟨2, _⟩ => ⟨S16x32, .f32⟩
  | .hbm, ⟨3, _⟩ => ⟨S32, .f32⟩
  | .hbm, ⟨4, _⟩ => ⟨S32x64, .f32⟩
  | .hbm, ⟨5, _⟩ => ⟨S64, .f32⟩
  | .hbm, ⟨6, _⟩ => ⟨S64x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S64x32, .f32⟩
  | .hbm, ⟨11, _⟩ => ⟨S32, .f32⟩
  | .hbm, ⟨12, _⟩ => ⟨S32x16, .f32⟩
  | .hbm, ⟨13, _⟩ => ⟨S16, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S50000, .i32⟩
  | .hbm, ⟨19, _⟩ => ⟨S850000, .i32⟩
  | .hbm, ⟨20, _⟩ => ⟨S850000, .i32⟩
  | .hbm, ⟨21, _⟩ => ⟨S_, .f32⟩
  | .hbm, ⟨22, _⟩ => ⟨S850000, .f32⟩
  | .hbm, ⟨23, _⟩ => ⟨S_, .f32⟩
  | .hbm, ⟨24, _⟩ => ⟨S50000, .f32⟩
  | .hbm, ⟨25, _⟩ => ⟨S850000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .i1⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000, .f32⟩
  | .hbm, ⟨53, _⟩ => ⟨S850000, .f32⟩
  | .hbm, ⟨54, _⟩ => ⟨S50000x32, .f32⟩
  | .hbm, ⟨55, _⟩ => ⟨S_, .i32⟩
  | .hbm, ⟨56, _⟩ => ⟨S850000, .i32⟩
  | .hbm, ⟨57, _⟩ => ⟨S850000, .i1⟩
  | .hbm, ⟨58, _⟩ => ⟨S_, .i32⟩
  | .hbm, ⟨59, _⟩ => ⟨S850000, .i32⟩
  | .hbm, ⟨60, _⟩ => ⟨S850000, .i32⟩
  | .hbm, ⟨61, _⟩ => ⟨S850000, .i32⟩
  | .hbm, ⟨62, _⟩ => ⟨S850000x1, .i32⟩
  | .hbm, ⟨63, _⟩ => ⟨S850000x32, .f32⟩
  | .hbm, ⟨64, _⟩ => ⟨S850000x1, .f32⟩
  | .hbm, ⟨65, _⟩ => ⟨S850000x32, .f32⟩
  | .hbm, ⟨66, _⟩ => ⟨S850000x32, .f32⟩
  | .hbm, ⟨67, _⟩ => ⟨S_, .f32⟩
  | .hbm, ⟨68, _⟩ => ⟨S50000x32, .f32⟩
  | .hbm, ⟨69, _⟩ => ⟨S850000x1, .i32⟩
  | .hbm, ⟨70, _⟩ => ⟨S50000x32, .f32⟩
  | .hbm, ⟨71, _⟩ => ⟨S1x32, .f32⟩
  | .hbm, ⟨72, _⟩ => ⟨S50000x64, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x64, .f32⟩
  | .hbm, ⟨82, _⟩ => ⟨S850000x1, .f32⟩
  | .hbm, ⟨83, _⟩ => ⟨S850000x64, .f32⟩
  | .hbm, ⟨84, _⟩ => ⟨S850000x64, .f32⟩
  | .hbm, ⟨85, _⟩ => ⟨S_, .f32⟩
  | .hbm, ⟨86, _⟩ => ⟨S50000x64, .f32⟩
  | .hbm, ⟨87, _⟩ => ⟨S850000x1, .i32⟩
  | .hbm, ⟨88, _⟩ => ⟨S50000x64, .f32⟩
  | .hbm, ⟨89, _⟩ => ⟨S1x64, .f32⟩
  | .hbm, ⟨90, _⟩ => ⟨S50000x128, .f32⟩
  | .hbm, ⟨91, _⟩ => ⟨S_, .i32⟩
  | .hbm, ⟨92, _⟩ => ⟨S850000, .i32⟩
  | .hbm, ⟨93, _⟩ => ⟨S850000, .i1⟩
  | .hbm, ⟨94, _⟩ => ⟨S_, .i32⟩
  | .hbm, ⟨95, _⟩ => ⟨S850000, .i32⟩
  | .hbm, ⟨96, _⟩ => ⟨S850000, .i32⟩
  | .hbm, ⟨97, _⟩ => ⟨S850000, .i32⟩
  | .hbm, ⟨98, _⟩ => ⟨S850000x1, .i32⟩
  | .hbm, ⟨99, _⟩ => ⟨S850000x128, .f32⟩
  | .hbm, ⟨100, _⟩ => ⟨S850000x1, .f32⟩
  | .hbm, ⟨101, _⟩ => ⟨S850000x128, .f32⟩
  | .hbm, ⟨102, _⟩ => ⟨S850000x128, .f32⟩
  | .hbm, ⟨103, _⟩ => ⟨S_, .f32⟩
  | .hbm, ⟨104, _⟩ => ⟨S50000x128, .f32⟩
  | .hbm, ⟨105, _⟩ => ⟨S850000x1, .i32⟩
  | .hbm, ⟨106, _⟩ => ⟨S50000x128, .f32⟩
  | .hbm, ⟨107, _⟩ => ⟨S1x128, .f32⟩
  | .hbm, ⟨108, _⟩ => ⟨S1x64, .f32⟩
  | .hbm, ⟨109, _⟩ => ⟨S1x32, .f32⟩
  | .hbm, ⟨110, _⟩ => ⟨S1x16, .f32⟩
  | .hbm, ⟨111, _⟩ => ⟨S50000x16, .f32⟩
  | .local _ .vmem, ⟨0, _⟩ => ⟨S10000x16, .f32⟩
  | .local _ .vmem, ⟨1, _⟩ => ⟨S10000x16, .f32⟩
  | .local _ .vmem, ⟨2, _⟩ => ⟨S16x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S1x32, .f32⟩
  | .local _ .vmem, ⟨8, _⟩ => ⟨S32x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S1x128, .f32⟩
  | .local _ .vmem, ⟨20, _⟩ => ⟨S128x64, .f32⟩
  | .local _ .vmem, ⟨21, _⟩ => ⟨S1x64, .f32⟩
  | .local _ .vmem, ⟨22, _⟩ => ⟨S64x32, .f32⟩
  | .local _ .vmem, ⟨23, _⟩ => ⟨S1x32, .f32⟩
  | .local _ .vmem, ⟨24, _⟩ => ⟨S32x16, .f32⟩
  | .local _ .vmem, ⟨25, _⟩ => ⟨S1x16, .f32⟩
  | .local _ .vmem, ⟨26, _⟩ => ⟨S10000x16, .f32⟩
  | .local _ .vmem, ⟨27, _⟩ => ⟨S10000x16, .f32⟩
  | _, _ => ⟨S50000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_c_9 : Ref sig .tc := ⟨.hbm, 73, rfl⟩
abbrev main_v46 : Ref sig .tc := ⟨.hbm, 74, rfl⟩
abbrev main_v47 : Ref sig .tc := ⟨.hbm, 75, rfl⟩
abbrev main_c_10 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_11 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_c_12 : Ref sig .tc := ⟨.hbm, 91, rfl⟩
abbrev main_v61 : Ref sig .tc := ⟨.hbm, 92, rfl⟩
abbrev main_v62 : Ref sig .tc := ⟨.hbm, 93, rfl⟩
abbrev main_c_13 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_14 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg5_0 : Ref sig .tc := ⟨.vmem, 23, rfl⟩
abbrev cc3_stg6_0 : Ref sig .tc := ⟨.vmem, 24, rfl⟩
abbrev cc3_stg7_0 : Ref sig .tc := ⟨.vmem, 25, rfl⟩
abbrev cc3_stg8_0 : Ref sig .tc := ⟨.vmem, 26, rfl⟩
abbrev cc3_stg8_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem5_0 : DmaSem sig := 23
abbrev cc3_sem6_0 : DmaSem sig := 24
abbrev cc3_sem7_0 : DmaSem sig := 25
abbrev cc3_sem8_0 : DmaSem sig := 26
abbrev cc3_sem8_1 : DmaSem sig := 27

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x32 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S32x16 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x16 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S10000x16 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S10000x16_S10000x16_0_0 : ∀ a, (![0, 0] : Fin 2 → Nat) a + S10000x16.size a ≤ S10000x16.size a
  h_S10000x16 : 0 < S10000x16.numel
  bitsLt_bf16_f32 : FTy.bits .bf16 < FTy.bits .f32
  inb_S16x32_S16x32_0_0 : ∀ a, (![0, 0] : Fin 2 → Nat) a + S16x32.size a ≤ S16x32.size a
  h_S16x32 : 0 < S16x32.numel
  inb_S10000x32_S10000x32_0_0 : ∀ a, (![0, 0] : Fin 2 → Nat) a + S10000x32.size a ≤ S10000x32.size a
  h_S10000x32 : 0 < S10000x32.numel
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x64_S32x64_0_0 : ∀ a, (![0, 0] : Fin 2 → Nat) a + S32x64.size a ≤ S32x64.size a
  h_S32x64 : 0 < S32x64.numel
  inb_S10000x64_S10000x64_0_0 : ∀ a, (![0, 0] : Fin 2 → Nat) a + S10000x64.size a ≤ S10000x64.size a
  h_S10000x64 : 0 < S10000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x128_S64x128_0_0 : ∀ a, (![0, 0] : Fin 2 → Nat) a + S64x128.size a ≤ S64x128.size a
  h_S64x128 : 0 < S64x128.numel
  inb_S10000x128_S10000x128_0_0 : ∀ a, (![0, 0] : Fin 2 → Nat) a + S10000x128.size a ≤ S10000x128.size a
  h_S10000x128 : 0 < S10000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S16_S1x16 : S16.ShapeCasts S1x16
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S64x32_S64x32_0_0 : ∀ a, (![0, 0] : Fin 2 → Nat) a + S64x32.size a ≤ S64x32.size a
  h_S64x32 : 0 < S64x32.numel
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x16_S16x32_S10000x32_1_0_0_1_n_n_wf : DotDims.WF S10000x16 S16x32 S10000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  dot_S10000x32_S32x64_S10000x64_1_0_0_1_n_n_wf : DotDims.WF S10000x32 S32x64 S10000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S10000x64_S64x128_S10000x128_1_0_0_1_n_n_wf : DotDims.WF S10000x64 S64x128 S10000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S10000x128_S128x64_S10000x64_1_0_0_1_n_n_wf : DotDims.WF S10000x128 S128x64 S10000x64 [1] [0] [0] [1] [] []
  dot_S10000x64_S64x32_S10000x32_1_0_0_1_n_n_wf : DotDims.WF S10000x64 S64x32 S10000x32 [1] [0] [0] [1] [] []
  dot_S10000x32_S32x16_S10000x16_1_0_0_1_n_n_wf : DotDims.WF S10000x32 S32x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S50000x16.size a
  hwx0_0 : ∀ i : grid0.Coords, EltTy.bits .f32 = 32 ∨ (Rect.block (s := S50000x16) S10000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x32.size a ≤ S16x32.size a
  hwx0_1 : ∀ i : grid0.Coords, EltTy.bits .f32 = 32 ∨ (Rect.block (s := S16x32) S16x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S50000x32.size a
  hwx0_2 : ∀ i : grid0.Coords, EltTy.bits .f32 = 32 ∨ (Rect.block (s := S50000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S50000x32.size a
  hwx1_0 : ∀ i : grid1.Coords, EltTy.bits .f32 = 32 ∨ (Rect.block (s := S50000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x64.size a ≤ S32x64.size a
  hwx1_2 : ∀ i : grid1.Coords, EltTy.bits .f32 = 32 ∨ (Rect.block (s := S32x64) S32x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S50000x64.size a
  hwx1_3 : ∀ i : grid1.Coords, EltTy.bits .f32 = 32 ∨ (Rect.block (s := S50000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S50000x128.size a
  hwx2_3 : ∀ i : grid2.Coords, EltTy.bits .f32 = 32 ∨ (Rect.block (s := S50000x128) S10000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x64.size a ≤ S128x64.size a
  hwx3_2 : ∀ i : grid3.Coords, EltTy.bits .f32 = 32 ∨ (Rect.block (s := S128x64) S128x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x32.size a ≤ S64x32.size a
  hwx3_4 : ∀ i : grid3.Coords, EltTy.bits .f32 = 32 ∨ (Rect.block (s := S64x32) S64x32.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x32.size a ≤ S1x32.size a
  hwx3_5 : ∀ i : grid3.Coords, EltTy.bits .f32 = 32 ∨ (Rect.block (s := S1x32) S1x32.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S32x16.size a ≤ S32x16.size a
  hwx3_6 : ∀ i : grid3.Coords, EltTy.bits .f32 = 32 ∨ (Rect.block (s := S32x16) S32x16.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x16.size a ≤ S1x16.size a
  hwx3_7 : ∀ i : grid3.Coords, EltTy.bits .f32 = 32 ∨ (Rect.block (s := S1x16) S1x16.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S10000x16.size a ≤ S50000x16.size a
  hwx3_8 : ∀ i : grid3.Coords, EltTy.bits .f32 = 32 ∨ (Rect.block (s := S50000x16) S10000x16.size (cc3_transform_8 i) (hinb3_8 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x16_S16x32_S10000x32_1_0_0_1_n_n : DotDims S10000x16 S16x32 S10000x32 where
  lhsContracting := [1]
  rhsContracting := [0]
  lhsNonContracting := [0]
  rhsNonContracting := [1]
  lhsBatch := []
  rhsBatch := []
  wf := dot_S10000x16_S16x32_S10000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf

abbrev win0_0 : Pipeline.Window sig grid0 :=
  Pipeline.Window.ofSpec (Memref.whole main_arg0) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S32x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v73) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S128x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v75) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg10) S64x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v76) S1x32.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg12) S32x16.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v77) S1x16.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v78) S10000x16.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S50000x16 : Shape := ⟨2, ![50000, 16]⟩
abbrev S2x800000 : Shape := ⟨2, ![2, 800000]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x32 : Shape := ⟨2, ![64, 32]⟩
abbrev S32x16 : Shape := ⟨2, ![32, 16]⟩
abbrev S16 : Shape := ⟨1, ![16]⟩
abbrev S50000x32 : Shape := ⟨2, ![50000, 32]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x32 : Shape := ⟨2, ![850000, 32]⟩
abbrev S1x32 : Shape := ⟨2, ![1, 32]⟩
abbrev S50000x64 : Shape := ⟨2, ![50000, 64]⟩
abbrev S850000x64 : Shape := ⟨2, ![850000, 64]⟩
abbrev S1x64 : Shape := ⟨2, ![1, 64]⟩
abbrev S50000x128 : Shape := ⟨2, ![50000, 128]⟩
abbrev S850000x128 : Shape := ⟨2, ![850000, 128]⟩
abbrev S1x128 : Shape := ⟨2, ![1, 128]⟩
abbrev S1x16 : Shape := ⟨2, ![1, 16]⟩

abbrev nBuf : Space → Nat
  | .hbm => 227
  | .vmem => 0
  | .smem => 0
  | _ => 0

abbrev hbmTy0_0 (i : Nat) : BufTy := match i % 128 with
  | 0 => ⟨S50000x16, .f32⟩
  | 1 => ⟨S2x800000, .i32⟩
  | 2 => ⟨S16x32, .f32⟩
  | 3 => ⟨S32, .f32⟩
  | 4 => ⟨S32x64, .f32⟩
  | 5 => ⟨S64, .f32⟩
  | 6 => ⟨S64x128, .f32⟩
  | 7 => ⟨S128, .f32⟩
  | 8 => ⟨S128x64, .f32⟩
  | 9 => ⟨S64, .f32⟩
  | 10 => ⟨S64x32, .f32⟩
  | 11 => ⟨S32, .f32⟩
  | 12 => ⟨S32x16, .f32⟩
  | 13 => ⟨S16, .f32⟩
  | 14 => ⟨S50000x32, .f32⟩
  | 15 => ⟨S1x800000, .i32⟩
  | 16 => ⟨S800000, .i32⟩
  | 17 => ⟨S50000, .i32⟩
  | 18 => ⟨S850000, .i32⟩
  | 19 => ⟨S1x800000, .i32⟩
  | 20 => ⟨S800000, .i32⟩
  | 21 => ⟨S50000, .i32⟩
  | 22 => ⟨S850000, .i32⟩
  | 23 => ⟨S_, .f32⟩
  | 24 => ⟨S850000, .f32⟩
  | 25 => ⟨S_, .f32⟩
  | 26 => ⟨S50000, .f32⟩
  | 27 => ⟨S850000x1, .i32⟩
  | 28 => ⟨S50000, .f32⟩
  | 29 => ⟨S_, .f32⟩
  | 30 => ⟨S50000, .f32⟩
  | 31 => ⟨S50000, .i1⟩
  | 32 => ⟨S50000, .f32⟩
  | 33 => ⟨S_, .f32⟩
  | 34 => ⟨S_, .f32⟩
  | 35 => ⟨S50000, .f32⟩
  | 36 => ⟨S50000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000, .f32⟩
  | 55 => ⟨S850000, .f32⟩
  | 56 => ⟨S_, .i32⟩
  | 57 => ⟨S850000, .i32⟩
  | 58 => ⟨S850000, .i1⟩
  | 59 => ⟨S_, .i32⟩
  | 60 => ⟨S850000, .i32⟩
  | 61 => ⟨S850000, .i32⟩
  | 62 => ⟨S850000, .i32⟩
  | 63 => ⟨S850000x1, .i32⟩
  | 64 => ⟨S850000x32, .f32⟩
  | 65 => ⟨S850000x1, .f32⟩
  | 66 => ⟨S850000x32, .f32⟩
  | 67 => ⟨S850000x32, .f32⟩
  | 68 => ⟨S_, .f32⟩
  | 69 => ⟨S50000x32, .f32⟩
  | 70 => ⟨S850000x1, .i32⟩
  | 71 => ⟨S50000x32, .f32⟩
  | 72 => ⟨S1x32, .f32⟩
  | 73 => ⟨S50000x32, .f32⟩
  | 74 => ⟨S50000x32, .f32⟩
  | 75 => ⟨S_, .f32⟩
  | 76 => ⟨S50000x32, .f32⟩
  | 77 => ⟨S50000x32, .f32⟩
  | 78 => ⟨S50000x64, .f32⟩
  | 79 => ⟨S1x800000, .i32⟩
  | 80 => ⟨S800000, .i32⟩
  | 81 => ⟨S50000, .i32⟩
  | 82 => ⟨S850000, .i32⟩
  | 83 => ⟨S1x800000, .i32⟩
  | 84 => ⟨S800000, .i32⟩
  | 85 => ⟨S50000, .i32⟩
  | 86 => ⟨S850000, .i32⟩
  | 87 => ⟨S_, .f32⟩
  | 88 => ⟨S850000, .f32⟩
  | 89 => ⟨S_, .f32⟩
  | 90 => ⟨S50000, .f32⟩
  | 91 => ⟨S850000x1, .i32⟩
  | 92 => ⟨S50000, .f32⟩
  | 93 => ⟨S_, .f32⟩
  | 94 => ⟨S50000, .f32⟩
  | 95 => ⟨S50000, .i1⟩
  | 96 => ⟨S50000, .f32⟩
  | 97 => ⟨S_, .f32⟩
  | 98 => ⟨S_, .f32⟩
  | 99 => ⟨S50000, .f32⟩
  | 100 => ⟨S50000, .f32⟩
  | 101 => ⟨S_, .i32⟩
  | 102 => ⟨S850000, .i32⟩
  | 103 => ⟨S850000, .i1⟩
  | 104 => ⟨S_, .i32⟩
  | 105 => ⟨S850000, .i32⟩
  | 106 => ⟨S850000, .i32⟩
  | 107 => ⟨S850000, .i32⟩
  | 108 => ⟨S850000x1, .i32⟩
  | 109 => ⟨S850000, .f32⟩
  | 110 => ⟨S_, .i32⟩
  | 111 => ⟨S850000, .i32⟩
  | 112 => ⟨S850000, .i1⟩
  | 113 => ⟨S_, .i32⟩
  | 114 => ⟨S850000, .i32⟩
  | 115 => ⟨S850000, .i32⟩
  | 116 => ⟨S850000, .i32⟩
  | 117 => ⟨S850000x1, .i32⟩
  | 118 => ⟨S850000, .f32⟩
  | 119 => ⟨S850000, .f32⟩
  | 120 => ⟨S_, .i32⟩
  | 121 => ⟨S850000, .i32⟩
  | 122 => ⟨S850000, .i1⟩
  | 123 => ⟨S_, .i32⟩
  | 124 => ⟨S850000, .i32⟩
  | 125 => ⟨S850000, .i32⟩
  | 126 => ⟨S850000, .i32⟩
  | 127 => ⟨S850000x1, .i32⟩
  | _ => ⟨S50000x16, .f32⟩

abbrev hbmTy0_1 (i : Nat) : BufTy := match i % 128 with
  | 0 => ⟨S850000x64, .f32⟩
  | 1 => ⟨S850000x1, .f32⟩
  | 2 => ⟨S850000x64, .f32⟩
  | 3 => ⟨S850000x64, .f32⟩
  | 4 => ⟨S_, .f32⟩
  | 5 => ⟨S50000x64, .f32⟩
  | 6 => ⟨S850000x1, .i32⟩
  | 7 => ⟨S50000x64, .f32⟩
  | 8 => ⟨S1x64, .f32⟩
  | 9 => ⟨S50000x64, .f32⟩
  | 10 => ⟨S50000x64, .f32⟩
  | 11 => ⟨S_, .f32⟩
  | 12 => ⟨S50000x64, .f32⟩
  | 13 => ⟨S50000x64, .f32⟩
  | 14 => ⟨S50000x128, .f32⟩
  | 15 => ⟨S1x800000, .i32⟩
  | 16 => ⟨S800000, .i32⟩
  | 17 => ⟨S50000, .i32⟩
  | 18 => ⟨S850000, .i32⟩
  | 19 => ⟨S1x800000, .i32⟩
  | 20 => ⟨S800000, .i32⟩
  | 21 => ⟨S50000, .i32⟩
  | 22 => ⟨S850000, .i32⟩
  | 23 => ⟨S_, .f32⟩
  | 24 => ⟨S850000, .f32⟩
  | 25 => ⟨S_, .f32⟩
  | 26 => ⟨S50000, .f32⟩
  | 27 => ⟨S850000x1, .i32⟩
  | 28 => ⟨S50000, .f32⟩
  | 29 => ⟨S_, .f32⟩
  | 30 => ⟨S50000, .f32⟩
  | 31 => ⟨S50000, .i1⟩
  | 32 => ⟨S50000, .f32⟩
  | 33 => ⟨S_, .f32⟩
  | 34 => ⟨S_, .f32⟩
  | 35 => ⟨S50000, .f32⟩
  | 36 => ⟨S50000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000, .f32⟩
  | 55 => ⟨S850000, .f32⟩
  | 56 => ⟨S_, .i32⟩
  | 57 => ⟨S850000, .i32⟩
  | 58 => ⟨S850000, .i1⟩
  | 59 => ⟨S_, .i32⟩
  | 60 => ⟨S850000, .i32⟩
  | 61 => ⟨S850000, .i32⟩
  | 62 => ⟨S850000, .i32⟩
  | 63 => ⟨S850000x1, .i32⟩
  | 64 => ⟨S850000x128, .f32⟩
  | 65 => ⟨S850000x1, .f32⟩
  | 66 => ⟨S850000x128, .f32⟩
  | 67 => ⟨S850000x128, .f32⟩
  | 68 => ⟨S_, .f32⟩
  | 69 => ⟨S50000x128, .f32⟩
  | 70 => ⟨S850000x1, .i32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S50000x128, .f32⟩
  | 77 => ⟨S50000x128, .f32⟩
  | 78 => ⟨S50000x64, .f32⟩
  | 79 => ⟨S1x64, .f32⟩
  | 80 => ⟨S50000x64, .f32⟩
  | 81 => ⟨S50000x64, .f32⟩
  | 82 => ⟨S_, .f32⟩
  | 83 => ⟨S50000x64, .f32⟩
  | 84 => ⟨S50000x64, .f32⟩
  | 85 => ⟨S50000x32, .f32⟩
  | 86 => ⟨S1x32, .f32⟩
  | 87 => ⟨S50000x32, .f32⟩
  | 88 => ⟨S50000x32, .f32⟩
  | 89 => ⟨S_, .f32⟩
  | 90 => ⟨S50000x32, .f32⟩
  | 91 => ⟨S50000x32, .f32⟩
  | 92 => ⟨S50000x16, .f32⟩
  | 93 => ⟨S1x16, .f32⟩
  | 94 => ⟨S50000x16, .f32⟩
  | 95 => ⟨S50000x16, .f32⟩
  | 96 => ⟨S_, .f32⟩
  | 97 => ⟨S50000x16, .f32⟩
  | 98 => ⟨S50000x16, .f32⟩
  | _ => ⟨S50000x16, .f32⟩

abbrev hbmTy (i : Nat) : BufTy := match i / 128 with
  | 0 => hbmTy0_0 i
  | 1 => hbmTy0_1 i
  | _ => ⟨S50000x16, .f32⟩

abbrev bufTy : (tb : Table) → Fin (tcTables nBuf tb) → BufTy
  | .hbm, ⟨i, _⟩ => hbmTy i
  | _, _ => ⟨S50000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_3 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_4 : Ref sig .tc := ⟨.hbm, 46, rfl⟩
abbrev main_v24 : Ref sig .tc := ⟨.hbm, 47, rfl⟩
abbrev main_v25 : Ref sig .tc := ⟨.hbm, 48, rfl⟩
abbrev main_c_5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_6 : Ref sig .tc := ⟨.hbm, 56, rfl⟩
abbrev main_v32 : Ref sig .tc := ⟨.hbm, 57, rfl⟩
abbrev main_v33 : Ref sig .tc := ⟨.hbm, 58, rfl⟩
abbrev main_c_7 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_8 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_call1_cst : Ref sig .tc := ⟨.hbm, 75, rfl⟩
abbrev main_call1_v0 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_9 : Ref sig .tc := ⟨.hbm, 87, rfl⟩
abbrev main_v58 : Ref sig .tc := ⟨.hbm, 88, rfl⟩
abbrev main_cst_10 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_11 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_12 : Ref sig .tc := ⟨.hbm, 97, rfl⟩
abbrev main_call2_v0 : Ref sig .tc := ⟨.hbm, 98, rfl⟩
abbrev main_call2_v1 : Ref sig .tc := ⟨.hbm, 99, rfl⟩
abbrev main_v65 : Ref sig .tc := ⟨.hbm, 100, rfl⟩
abbrev main_c_13 : Ref sig .tc := ⟨.hbm, 101, rfl⟩
abbrev main_v66 : Ref sig .tc := ⟨.hbm, 102, rfl⟩
abbrev main_v67 : Ref sig .tc := ⟨.hbm, 103, rfl⟩
abbrev main_c_14 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_c_15 : Ref sig .tc := ⟨.hbm, 110, rfl⟩
abbrev main_v73 : Ref sig .tc := ⟨.hbm, 111, rfl⟩
abbrev main_v74 : Ref sig .tc := ⟨.hbm, 112, rfl⟩
abbrev main_c_16 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_c_17 : Ref sig .tc := ⟨.hbm, 120, rfl⟩
abbrev main_v81 : Ref sig .tc := ⟨.hbm, 121, rfl⟩
abbrev main_v82 : Ref sig .tc := ⟨.hbm, 122, rfl⟩
abbrev main_c_18 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_19 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_call3_cst : Ref sig .tc := ⟨.hbm, 139, rfl⟩
abbrev main_call3_v0 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_20 : Ref sig .tc := ⟨.hbm, 151, rfl⟩
abbrev main_v107 : Ref sig .tc := ⟨.hbm, 152, rfl⟩
abbrev main_cst_21 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_cst_22 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_cst_23 : Ref sig .tc := ⟨.hbm, 161, rfl⟩
abbrev main_call4_v0 : Ref sig .tc := ⟨.hbm, 162, rfl⟩
abbrev main_call4_v1 : Ref sig .tc := ⟨.hbm, 163, rfl⟩
abbrev main_v114 : Ref sig .tc := ⟨.hbm, 164, rfl⟩
abbrev main_c_24 : Ref sig .tc := ⟨.hbm, 165, rfl⟩
abbrev main_v115 : Ref sig .tc := ⟨.hbm, 166, rfl⟩
abbrev main_v116 : Ref sig .tc := ⟨.hbm, 167, rfl⟩
abbrev main_c_25 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_c_26 : Ref sig .tc := ⟨.hbm, 174, rfl⟩
abbrev main_v122 : Ref sig .tc := ⟨.hbm, 175, rfl⟩
abbrev main_v123 : Ref sig .tc := ⟨.hbm, 176, rfl⟩
abbrev main_c_27 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_c_28 : Ref sig .tc := ⟨.hbm, 184, rfl⟩
abbrev main_v130 : Ref sig .tc := ⟨.hbm, 185, rfl⟩
abbrev main_v131 : Ref sig .tc := ⟨.hbm, 186, rfl⟩
abbrev main_c_29 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_cst_30 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_call5_cst : Ref sig .tc := ⟨.hbm, 203, rfl⟩
abbrev main_call5_v0 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_call6_cst : Ref sig .tc := ⟨.hbm, 210, rfl⟩
abbrev main_call6_v0 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_call7_cst : Ref sig .tc := ⟨.hbm, 217, rfl⟩
abbrev main_call7_v0 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_call8_cst : Ref sig .tc := ⟨.hbm, 224, rfl⟩
abbrev main_call8_v0 : Ref sig .tc := ⟨.hbm, 225, rfl⟩
abbrev main_v161 : Ref sig .tc := ⟨.hbm, 226, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S_S50000x16 : S_.BroadcastsInDim S50000x16 (![] : Fin 0 → Fin S50000x16.rank)
  dot_S50000x16_S16x32_S50000x32_1_0_0_1_n_n_wf : DotDims.WF S50000x16 S16x32 S50000x32 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  dot_S50000x32_S32x64_S50000x64_1_0_0_1_n_n_wf : DotDims.WF S50000x32 S32x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x128_S50000x128_1_0_0_1_n_n_wf : DotDims.WF S50000x64 S64x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  dot_S50000x64_S64x32_S50000x32_1_0_0_1_n_n_wf : DotDims.WF S50000x64 S64x32 S50000x32 [1] [0] [0] [1] [] []
  dot_S50000x32_S32x16_S50000x16_1_0_0_1_n_n_wf : DotDims.WF S50000x32 S32x16 S50000x16 [1] [0] [0] [1] [] []

variable [Facts₀]

def dot_S50000x16_S16x32_S50000x32_1_0_0_1_n_n : DotDims S50000x16 S16x32 S50000x32 where
  lhsContracting := [1]
  rhsContracting := [0]
  lhsNonContracting := [0]
  rhsNonContracting := [1]
  lhsBatch := []
  rhsBatch := []
  wf := dot_S50000x16_S16x32_S50000x32_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf
def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def dot_S50000x32_S32x16_S50000x16_1_0_0_1_n_n : DotDims S50000x32 S32x16 S50000x16 where
  lhsContracting := [1]
  rhsContracting := [0]
  lhsNonContracting := [0]
  rhsNonContracting := [1]
  lhsBatch := []
  rhsBatch := []
  wf := dot_S50000x32_S32x16_S50000x16_1_0_0_1_n_n_wf

class Facts : Prop extends Facts₀ where

variable [Facts]
-- ==== Proof.KernelRun.lean ====
/-
  The idealized kernel's run with its result named.  The program is four row-tiled kernels among stretches of host
  operations; its memory at each boundary is a fold from the launch memory (a host stretch applies its operations, a
  kernel region replaces its arrays by what its write-backs leave).  Every weakly fair execution ends with each
  unscoped buffer at the last boundary's contents, so the result buffer holds the last boundary's contents at the
  result and every argument holds what it was launched with.
-/
import proofs.«118536_j17815524344480_1_alg».proof.Proof.Gen.KernelIdeal.Frame

set_option maxRecDepth 16384

noncomputable section

namespace Cert.KernelIdeal.Bridge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the last boundary's contents
    and the fourteen arguments end as launched. -/
theorem run_result : θ_run defs (onTc (τ := τ) (main (F := F))) ⟨m, fun _ => 0, ρ⟩ (fun r => ∀ c : Dev nD,
      r.2.mem ((c.tc : Thread nD τ).loc main_v78) = W10 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v78 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c)⟩)

end Cert.KernelIdeal.Bridge

end
-- ==== Proof.Boundaries.lean ====
/-
  What the later stretches read is what the earlier ones left.  Between the place a buffer is produced (an argument:
  the launch; the two edge-index vectors: the first host stretch; the edge normalisation: the third) and the place it
  is read, no host operation writes it and no kernel has it among its arrays, so at every boundary in between it
  holds the same contents.  One step per boundary (`keepK`), chained down to the producing boundary (`atK`).
-/
import proofs.«118536_j17815524344480_1_alg».proof.Proof.Gen.KernelIdeal.Frame

set_option maxRecDepth 16384

noncomputable section

namespace Cert.KernelIdeal.Bridge

open Cert.KernelIdeal Cert.KernelIdeal.Gen
open Idealize.ShloMosaic Idealize.ShloMosaic.TcCoe Idealize.SL.Sem

/-- A host stretch leaves a buffer none of its operations writes as it found it. -/
macro "unwritten " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

variable {F : FTy → Type} [FloatOps F]
variable (m : (ℓ : Loc nD τ sig) → Buf (Elt F) ℓ) (ρ : Dev nD → PrngReg)

/-! ### `main_v5` -/
theorem keep2_v5 (c : Dev nD) : W2 m ρ c (Proc.devRef .tc main_v5) = W1 m ρ c (Proc.devRef .tc main_v5) := by unwritten hostOps0_1
theorem keep3_v5 (c : Dev nD) : W3 m ρ c (Proc.devRef .tc main_v5) = W2 m ρ c (Proc.devRef .tc main_v5) := by unwritten hostOps0_2
theorem keep4_v5 (c : Dev nD) : W4 m ρ c (Proc.devRef .tc main_v5) = W3 m ρ c (Proc.devRef .tc main_v5) := W4_of_ne m ρ c main_v5 (by decide)
theorem keep5_v5 (c : Dev nD) : W5 m ρ c (Proc.devRef .tc main_v5) = W4 m ρ c (Proc.devRef .tc main_v5) := by unwritten hostOps1
theorem keep6_v5 (c : Dev nD) : W6 m ρ c (Proc.devRef .tc main_v5) = W5 m ρ c (Proc.devRef .tc main_v5) := W6_of_ne m ρ c main_v5 (by decide)
theorem keep7_v5 (c : Dev nD) : W7 m ρ c (Proc.devRef .tc main_v5) = W6 m ρ c (Proc.devRef .tc main_v5) := by unwritten hostOps2
theorem keep8_v5 (c : Dev nD) : W8 m ρ c (Proc.devRef .tc main_v5) = W7 m ρ c (Proc.devRef .tc main_v5) := W8_of_ne m ρ c main_v5 (by decide)
theorem at2_v5 (c : Dev nD) : W2 m ρ c (Proc.devRef .tc main_v5) = W1 m ρ c (Proc.devRef .tc main_v5) := (keep2_v5 m ρ c)
theorem at3_v5 (c : Dev nD) : W3 m ρ c (Proc.devRef .tc main_v5) = W1 m ρ c (Proc.devRef .tc main_v5) := (keep3_v5 m ρ c).trans (at2_v5 m ρ c)
theorem at4_v5 (c : Dev nD) : W4 m ρ c (Proc.devRef .tc main_v5) = W1 m ρ c (Proc.devRef .tc main_v5) := (keep4_v5 m ρ c).trans (at3_v5 m ρ c)
theorem at5_v5 (c : Dev nD) : W5 m ρ c (Proc.devRef .tc main_v5) = W1 m ρ c (Proc.devRef .tc main_v5) := (keep5_v5 m ρ c).trans (at4_v5 m ρ c)
theorem at6_v5 (c : Dev nD) : W6 m ρ c (Proc.devRef .tc main_v5) = W1 m ρ c (Proc.devRef .tc main_v5) := (keep6_v5 m ρ c).trans (at5_v5 m ρ c)
theorem at7_v5 (c : Dev nD) : W7 m ρ c (Proc.devRef .tc main_v5) = W1 m ρ c (Proc.devRef .tc main_v5) := (keep7_v5 m ρ c).trans (at6_v5 m ρ c)
theorem at8_v5 (c : Dev nD) : W8 m ρ c (Proc.devRef .tc main_v5) = W1 m ρ c (Proc.devRef .tc main_v5) := (keep8_v5 m ρ c).trans (at7_v5 m ρ c)

/-! ### `main_v6` -/
theorem keep2_v6 (c : Dev nD) : W2 m ρ c (Proc.devRef .tc main_v6) = W1 m ρ c (Proc.devRef .tc main_v6) := by unwritten hostOps0_1
theorem keep3_v6 (c : Dev nD) : W3 m ρ c (Proc.devRef .tc main_v6) = W2 m ρ c (Proc.devRef .tc main_v6) := by unwritten hostOps0_2
theorem keep4_v6 (c : Dev nD) : W4 m ρ c (Proc.devRef .tc main_v6) = W3 m ρ c (Proc.devRef .tc main_v6) := W4_of_ne m ρ c main_v6 (by decide)
theorem keep5_v6 (c : Dev nD) : W5 m ρ c (Proc.devRef .tc main_v6) = W4 m ρ c (Proc.devRef .tc main_v6) := by unwritten hostOps1
theorem keep6_v6 (c : Dev nD) : W6 m ρ c (Proc.devRef .tc main_v6) = W5 m ρ c (Proc.devRef .tc main_v6) := W6_of_ne m ρ c main_v6 (by decide)
theorem keep7_v6 (c : Dev nD) : W7 m ρ c (Proc.devRef .tc main_v6) = W6 m ρ c (Proc.devRef .tc main_v6) := by unwritten hostOps2
theorem keep8_v6 (c : Dev nD) : W8 m ρ c (Proc.devRef .tc main_v6) = W7 m ρ c (Proc.devRef .tc main_v6) := W8_of_ne m ρ c main_v6 (by decide)
theorem at2_v6 (c : Dev nD) : W2 m ρ c (Proc.devRef .tc main_v6) = W1 m ρ c (Proc.devRef .tc main_v6) := (keep2_v6 m ρ c)
theorem at3_v6 (c : Dev nD) : W3 m ρ c (Proc.devRef .tc main_v6) = W1 m ρ c (Proc.devRef .tc main_v6) := (keep3_v6 m ρ c).trans (at2_v6 m ρ c)
theorem at4_v6 (c : Dev nD) : W4 m ρ c (Proc.devRef .tc main_v6) = W1 m ρ c (Proc.devRef .tc main_v6) := (keep4_v6 m ρ c).trans (at3_v6 m ρ c)
theorem at5_v6 (c : Dev nD) : W5 m ρ c (Proc.devRef .tc main_v6) = W1 m ρ c (Proc.devRef .tc main_v6) := (keep5_v6 m ρ c).trans (at4_v6 m ρ c)
theorem at6_v6 (c : Dev nD) : W6 m ρ c (Proc.devRef .tc main_v6) = W1 m ρ c (Proc.devRef .tc main_v6) := (keep6_v6 m ρ c).trans (at5_v6 m ρ c)
theorem at7_v6 (c : Dev nD) : W7 m ρ c (Proc.devRef .tc main_v6) = W1 m ρ c (Proc.devRef .tc main_v6) := (keep7_v6 m ρ c).trans (at6_v6 m ρ c)
theorem at8_v6 (c : Dev nD) : W8 m ρ c (Proc.devRef .tc main_v6) = W1 m ρ c (Proc.devRef .tc main_v6) := (keep8_v6 m ρ c).trans (at7_v6 m ρ c)

/-! ### `main_v29` -/
theorem keep4_v29 (c : Dev nD) : W4 m ρ c (Proc.devRef .tc main_v29) = W3 m ρ c (Proc.devRef .tc main_v29) := W4_of_ne m ρ c main_v29 (by decide)
theorem keep5_v29 (c : Dev nD) : W5 m ρ c (Proc.devRef .tc main_v29) = W4 m ρ c (Proc.devRef .tc main_v29) := by unwritten hostOps1
theorem keep6_v29 (c : Dev nD) : W6 m ρ c (Proc.devRef .tc main_v29) = W5 m ρ c (Proc.devRef .tc main_v29) := W6_of_ne m ρ c main_v29 (by decide)
theorem keep7_v29 (c : Dev nD) : W7 m ρ c (Proc.devRef .tc main_v29) = W6 m ρ c (Proc.devRef .tc main_v29) := by unwritten hostOps2
theorem keep8_v29 (c : Dev nD) : W8 m ρ c (Proc.devRef .tc main_v29) = W7 m ρ c (Proc.devRef .tc main_v29) := W8_of_ne m ρ c main_v29 (by decide)
theorem at4_v29 (c : Dev nD) : W4 m ρ c (Proc.devRef .tc main_v29) = W3 m ρ c (Proc.devRef .tc main_v29) := (keep4_v29 m ρ c)
theorem at5_v29 (c : Dev nD) : W5 m ρ c (Proc.devRef .tc main_v29) = W3 m ρ c (Proc.devRef .tc main_v29) := (keep5_v29 m ρ c).trans (at4_v29 m ρ c)
theorem at6_v29 (c : Dev nD) : W6 m ρ c (Proc.devRef .tc main_v29) = W3 m ρ c (Proc.devRef .tc main_v29) := (keep6_v29 m ρ c).trans (at5_v29 m ρ c)
theorem at7_v29 (c : Dev nD) : W7 m ρ c (Proc.devRef .tc main_v29) = W3 m ρ c (Proc.devRef .tc main_v29) := (keep7_v29 m ρ c).trans (at6_v29 m ρ c)
theorem at8_v29 (c : Dev nD) : W8 m ρ c (Proc.devRef .tc main_v29) = W3 m ρ c (Proc.devRef .tc main_v29) := (keep8_v29 m ρ c).trans (at7_v29 m ρ c)

/-! ### `main_arg0` -/
theorem keep1_arg0 (c : Dev nD) : W1 m ρ c (Proc.devRef .tc main_arg0) = W0 m ρ c (Proc.devRef .tc main_arg0) := by unwritten hostOps0
theorem keep2_arg0 (c : Dev nD) : W2 m ρ c (Proc.devRef .tc main_arg0) = W1 m ρ c (Proc.devRef .tc main_arg0) := by unwritten hostOps0_1
theorem keep3_arg0 (c : Dev nD) : W3 m ρ c (Proc.devRef .tc main_arg0) = W2 m ρ c (Proc.devRef .tc main_arg0) := by unwritten hostOps0_2
theorem at1_arg0 (c : Dev nD) : W1 m ρ c (Proc.devRef .tc main_arg0) = m ((c : Thread nD τ).loc main_arg0) := (keep1_arg0 m ρ c).trans rfl
theorem at2_arg0 (c : Dev nD) : W2 m ρ c (Proc.devRef .tc main_arg0) = m ((c : Thread nD τ).loc main_arg0) := (keep2_arg0 m ρ c).trans (at1_arg0 m ρ c)
theorem at3_arg0 (c : Dev nD) : W3 m ρ c (Proc.devRef .tc main_arg0) = m ((c : Thread nD τ).loc main_arg0) := (keep3_arg0 m ρ c).trans (at2_arg0 m ρ c)

/-! ### `main_arg2` -/
theorem keep1_arg2 (c : Dev nD) : W1 m ρ c (Proc.devRef .tc main_arg2) = W0 m ρ c (Proc.devRef .tc main_arg2) := by unwritten hostOps0
theorem keep2_arg2 (c : Dev nD) : W2 m ρ c (Proc.devRef .tc main_arg2) = W1 m ρ c (Proc.devRef .tc main_arg2) := by unwritten hostOps0_1
theorem keep3_arg2 (c : Dev nD) : W3 m ρ c (Proc.devRef .tc main_arg2) = W2 m ρ c (Proc.devRef .tc main_arg2) := by unwritten hostOps0_2
theorem at1_arg2 (c : Dev nD) : W1 m ρ c (Proc.devRef .tc main_arg2) = m ((c : Thread nD τ).loc main_arg2) := (keep1_arg2 m ρ c).trans rfl
theorem at2_arg2 (c : Dev nD) : W2 m ρ c (Proc.devRef .tc main_arg2) = m ((c : Thread nD τ).loc main_arg2) := (keep2_arg2 m ρ c).trans (at1_arg2 m ρ c)
theorem at3_arg2 (c : Dev nD) : W3 m ρ c (Proc.devRef .tc main_arg2) = m ((c : Thread nD τ).loc main_arg2) := (keep3_arg2 m ρ c).trans (at2_arg2 m ρ c)

/-! ### `main_arg3` -/
theorem keep1_arg3 (c : Dev nD) : W1 m ρ c (Proc.devRef .tc main_arg3) = W0 m ρ c (Proc.devRef .tc main_arg3) := by unwritten hostOps0
theorem keep2_arg3 (c : Dev nD) : W2 m ρ c (Proc.devRef .tc main_arg3) = W1 m ρ c (Proc.devRef .tc main_arg3) := by unwritten hostOps0_1
theorem keep3_arg3 (c : Dev nD) : W3 m ρ c (Proc.devRef .tc main_arg3) = W2 m ρ c (Proc.devRef .tc main_arg3) := by unwritten hostOps0_2
theorem keep4_arg3 (c : Dev nD) : W4 m ρ c (Proc.devRef .tc main_arg3) = W3 m ρ c (Proc.devRef .tc main_arg3) := W4_of_ne m ρ c main_arg3 (by decide)
theorem at1_arg3 (c : Dev nD) : W1 m ρ c (Proc.devRef .tc main_arg3) = m ((c : Thread nD τ).loc main_arg3) := (keep1_arg3 m ρ c).trans rfl
theorem at2_arg3 (c : Dev nD) : W2 m ρ c (Proc.devRef .tc main_arg3) = m ((c : Thread nD τ).loc main_arg3) := (keep2_arg3 m ρ c).trans (at1_arg3 m ρ c)
theorem at3_arg3 (c : Dev nD) : W3 m ρ c (Proc.devRef .tc main_arg3) = m ((c : Thread nD τ).loc main_arg3) := (keep3_arg3 m ρ c).trans (at2_arg3 m ρ c)
theorem at4_arg3 (c : Dev nD) : W4 m ρ c (Proc.devRef .tc main_arg3) = m ((c : Thread nD τ).loc main_arg3) := (keep4_arg3 m ρ c).trans (at3_arg3 m ρ c)

/-! ### `main_arg4` -/
theorem keep1_arg4 (c : Dev nD) : W1 m ρ c (Proc.devRef .tc main_arg4) = W0 m ρ c (Proc.devRef .tc main_arg4) := by unwritten hostOps0
theorem keep2_arg4 (c : Dev nD) : W2 m ρ c (Proc.devRef .tc main_arg4) = W1 m ρ c (Proc.devRef .tc main_arg4) := by unwritten hostOps0_1
theorem keep3_arg4 (c : Dev nD) : W3 m ρ c (Proc.devRef .tc main_arg4) = W2 m ρ c (Proc.devRef .tc main_arg4) := by unwritten hostOps0_2
theorem keep4_arg4 (c : Dev nD) : W4 m ρ c (Proc.devRef .tc main_arg4) = W3 m ρ c (Proc.devRef .tc main_arg4) := W4_of_ne m ρ c main_arg4 (by decide)
theorem keep5_arg4 (c : Dev nD) : W5 m ρ c (Proc.devRef .tc main_arg4) = W4 m ρ c (Proc.devRef .tc main_arg4) := by unwritten hostOps1
theorem at1_arg4 (c : Dev nD) : W1 m ρ c (Proc.devRef .tc main_arg4) = m ((c : Thread nD τ).loc main_arg4) := (keep1_arg4 m ρ c).trans rfl
theorem at2_arg4 (c : Dev nD) : W2 m ρ c (Proc.devRef .tc main_arg4) = m ((c : Thread nD τ).loc main_arg4) := (keep2_arg4 m ρ c).trans (at1_arg4 m ρ c)
theorem at3_arg4 (c : Dev nD) : W3 m ρ c (Proc.devRef .tc main_arg4) = m ((c : Thread nD τ).loc main_arg4) := (keep3_arg4 m ρ c).trans (at2_arg4 m ρ c)
theorem at4_arg4 (c : Dev nD) : W4 m ρ c (Proc.devRef .tc main_arg4) = m ((c : Thread nD τ).loc main_arg4) := (keep4_arg4 m ρ c).trans (at3_arg4 m ρ c)
theorem at5_arg4 (c : Dev nD) : W5 m ρ c (Proc.devRef .tc main_arg4) = m ((c : Thread nD τ).loc main_arg4) := (keep5_arg4 m ρ c).trans (at4_arg4 m ρ c)

/-! ### `main_arg5` -/
theorem keep1_arg5 (c : Dev nD) : W1 m ρ c (Proc.devRef .tc main_arg5) = W0 m ρ c (Proc.devRef .tc main_arg5) := by unwritten hostOps0
theorem keep2_arg5 (c : Dev nD) : W2 m ρ c (Proc.devRef .tc main_arg5) = W1 m ρ c (Proc.devRef .tc main_arg5) := by unwritten hostOps0_1
theorem keep3_arg5 (c : Dev nD) : W3 m ρ c (Proc.devRef .tc main_arg5) = W2 m ρ c (Proc.devRef .tc main_arg5) := by unwritten hostOps0_2
theorem keep4_arg5 (c : Dev nD) : W4 m ρ c (Proc.devRef .tc main_arg5) = W3 m ρ c (Proc.devRef .tc main_arg5) := W4_of_ne m ρ c main_arg5 (by decide)
theorem keep5_arg5 (c : Dev nD) : W5 m ρ c (Proc.devRef .tc main_arg5) = W4 m ρ c (Proc.devRef .tc main_arg5) := by unwritten hostOps1
theorem keep6_arg5 (c : Dev nD) : W6 m ρ c (Proc.devRef .tc main_arg5) = W5 m ρ c (Proc.devRef .tc main_arg5) := W6_of_ne m ρ c main_arg5 (by decide)
theorem at1_arg5 (c : Dev nD) : W1 m ρ c (Proc.devRef .tc main_arg5) = m ((c : Thread nD τ).loc main_arg5) := (keep1_arg5 m ρ c).trans rfl
theorem at2_arg5 (c : Dev nD) : W2 m ρ c (Proc.devRef .tc main_arg5) = m ((c : Thread nD τ).loc main_arg5) := (keep2_arg5 m ρ c).trans (at1_arg5 m ρ c)
theorem at3_arg5 (c : Dev nD) : W3 m ρ c (Proc.devRef .tc main_arg5) = m ((c : Thread nD τ).loc main_arg5) := (keep3_arg5 m ρ c).trans (at2_arg5 m ρ c)
theorem at4_arg5 (c : Dev nD) : W4 m ρ c (Proc.devRef .tc main_arg5) = m ((c : Thread nD τ).loc main_arg5) := (keep4_arg5 m ρ c).trans (at3_arg5 m ρ c)
theorem at5_arg5 (c : Dev nD) : W5 m ρ c (Proc.devRef .tc main_arg5) = m ((c : Thread nD τ).loc main_arg5) := (keep5_arg5 m ρ c).trans (at4_arg5 m ρ c)
theorem at6_arg5 (c : Dev nD) : W6 m ρ c (Proc.devRef .tc main_arg5) = m ((c : Thread nD τ).loc main_arg5) := (keep6_arg5 m ρ c).trans (at5_arg5 m ρ c)

/-! ### `main_arg6` -/
theorem keep1_arg6 (c : Dev nD) : W1 m ρ c (Proc.devRef .tc main_arg6) = W0 m ρ c (Proc.devRef .tc main_arg6) := by unwritten hostOps0
theorem keep2_arg6 (c : Dev nD) : W2 m ρ c (Proc.devRef .tc main_arg6) = W1 m ρ c (Proc.devRef .tc main_arg6) := by unwritten hostOps0_1
theorem keep3_arg6 (c : Dev nD) : W3 m ρ c (Proc.devRef .tc main_arg6) = W2 m ρ c (Proc.devRef .tc main_arg6) := by unwritten hostOps0_2
theorem keep4_arg6 (c : Dev nD) : W4 m ρ c (Proc.devRef .tc main_arg6) = W3 m ρ c (Proc.devRef .tc main_arg6) := W4_of_ne m ρ c main_arg6 (by decide)
theorem keep5_arg6 (c : Dev nD) : W5 m ρ c (Proc.devRef .tc main_arg6) = W4 m ρ c (Proc.devRef .tc main_arg6) := by unwritten hostOps1
theorem keep6_arg6 (c : Dev nD) : W6 m ρ c (Proc.devRef .tc main_arg6) = W5 m ρ c (Proc.devRef .tc main_arg6) := W6_of_ne m ρ c main_arg6 (by decide)
theorem keep7_arg6 (c : Dev nD) : W7 m ρ c (Proc.devRef .tc main_arg6) = W6 m ρ c (Proc.devRef .tc main_arg6) := by unwritten hostOps2
theorem at1_arg6 (c : Dev nD) : W1 m ρ c (Proc.devRef .tc main_arg6) = m ((c : Thread nD τ).loc main_arg6) := (keep1_arg6 m ρ c).trans rfl
theorem at2_arg6 (c : Dev nD) : W2 m ρ c (Proc.devRef .tc main_arg6) = m ((c : Thread nD τ).loc main_arg6) := (keep2_arg6 m ρ c).trans (at1_arg6 m ρ c)
theorem at3_arg6 (c : Dev nD) : W3 m ρ c (Proc.devRef .tc main_arg6) = m ((c : Thread nD τ).loc main_arg6) := (keep3_arg6 m ρ c).trans (at2_arg6 m ρ c)
theorem at4_arg6 (c : Dev nD) : W4 m ρ c (Proc.devRef .tc main_arg6) = m ((c : Thread nD τ).loc main_arg6) := (keep4_arg6 m ρ c).trans (at3_arg6 m ρ c)
theorem at5_arg6 (c : Dev nD) : W5 m ρ c (Proc.devRef .tc main_arg6) = m ((c : Thread nD τ).loc main_arg6) := (keep5_arg6 m ρ c).trans (at4_arg6 m ρ c)
theorem at6_arg6 (c : Dev nD) : W6 m ρ c (Proc.devRef .tc main_arg6) = m ((c : Thread nD τ).loc main_arg6) := (keep6_arg6 m ρ c).trans (at5_arg6 m ρ c)
theorem at7_arg6 (c : Dev nD) : W7 m ρ c (Proc.devRef .tc main_arg6) = m ((c : Thread nD τ).loc main_arg6) := (keep7_arg6 m ρ c).trans (at6_arg6 m ρ c)

/-! ### `main_arg7` -/
theorem keep1_arg7 (c : Dev nD) : W1 m ρ c (Proc.devRef .tc main_arg7) = W0 m ρ c (Proc.devRef .tc main_arg7) := by unwritten hostOps0
theorem keep2_arg7 (c : Dev nD) : W2 m ρ c (Proc.devRef .tc main_arg7) = W1 m ρ c (Proc.devRef .tc main_arg7) := by unwritten hostOps0_1
theorem keep3_arg7 (c : Dev nD) : W3 m ρ c (Proc.devRef .tc main_arg7) = W2 m ρ c (Proc.devRef .tc main_arg7) := by unwritten hostOps0_2
theorem keep4_arg7 (c : Dev nD) : W4 m ρ c (Proc.devRef .tc main_arg7) = W3 m ρ c (Proc.devRef .tc main_arg7) := W4_of_ne m ρ c main_arg7 (by decide)
theorem keep5_arg7 (c : Dev nD) : W5 m ρ c (Proc.devRef .tc main_arg7) = W4 m ρ c (Proc.devRef .tc main_arg7) := by unwritten hostOps1
theorem keep6_arg7 (c : Dev nD) : W6 m ρ c (Proc.devRef .tc main_arg7) = W5 m ρ c (Proc.devRef .tc main_arg7) := W6_of_ne m ρ c main_arg7 (by decide)
theorem keep7_arg7 (c : Dev nD) : W7 m ρ c (Proc.devRef .tc main_arg7) = W6 m ρ c (Proc.devRef .tc main_arg7) := by unwritten hostOps2
theorem keep8_arg7 (c : Dev nD) : W8 m ρ c (Proc.devRef .tc main_arg7) = W7 m ρ c (Proc.devRef .tc main_arg7) := W8_of_ne m ρ c main_arg7 (by decide)
theorem at1_arg7 (c : Dev nD) : W1 m ρ c (Proc.devRef .tc main_arg7) = m ((c : Thread nD τ).loc main_arg7) := (keep1_arg7 m ρ c).trans rfl
theorem at2_arg7 (c : Dev nD) : W2 m ρ c (Proc.devRef .tc main_arg7) = m ((c : Thread nD τ).loc main_arg7) := (keep2_arg7 m ρ c).trans (at1_arg7 m ρ c)
theorem at3_arg7 (c : Dev nD) : W3 m ρ c (Proc.devRef .tc main_arg7) = m ((c : Thread nD τ).loc main_arg7) := (keep3_arg7 m ρ c).trans (at2_arg7 m ρ c)
theorem at4_arg7 (c : Dev nD) : W4 m ρ c (Proc.devRef .tc main_arg7) = m ((c : Thread nD τ).loc main_arg7) := (keep4_arg7 m ρ c).trans (at3_arg7 m ρ c)
theorem at5_arg7 (c : Dev nD) : W5 m ρ c (Proc.devRef .tc main_arg7) = m ((c : Thread nD τ).loc main_arg7) := (keep5_arg7 m ρ c).trans (at4_arg7 m ρ c)
theorem at6_arg7 (c : Dev nD) : W6 m ρ c (Proc.devRef .tc main_arg7) = m ((c : Thread nD τ).loc main_arg7) := (keep6_arg7 m ρ c).trans (at5_arg7 m ρ c)
theorem at7_arg7 (c : Dev nD) : W7 m ρ c (Proc.devRef .tc main_arg7) = m ((c : Thread nD τ).loc main_arg7) := (keep7_arg7 m ρ c).trans (at6_arg7 m ρ c)
theorem at8_arg7 (c : Dev nD) : W8 m ρ c (Proc.devRef .tc main_arg7) = m ((c : Thread nD τ).loc main_arg7) := (keep8_arg7 m ρ c).trans (at7_arg7 m ρ c)

/-! ### `main_arg9` -/
theorem keep1_arg9 (c : Dev nD) : W1 m ρ c (Proc.devRef .tc main_arg9) = W0 m ρ c (Proc.devRef .tc main_arg9) := by unwritten hostOps0
theorem keep2_arg9 (c : Dev nD) : W2 m ρ c (Proc.devRef .tc main_arg9) = W1 m ρ c (Proc.devRef .tc main_arg9) := by unwritten hostOps0_1
theorem keep3_arg9 (c : Dev nD) : W3 m ρ c (Proc.devRef .tc main_arg9) = W2 m ρ c (Proc.devRef .tc main_arg9) := by unwritten hostOps0_2
theorem keep4_arg9 (c : Dev nD) : W4 m ρ c (Proc.devRef .tc main_arg9) = W3 m ρ c (Proc.devRef .tc main_arg9) := W4_of_ne m ρ c main_arg9 (by decide)
theorem keep5_arg9 (c : Dev nD) : W5 m ρ c (Proc.devRef .tc main_arg9) = W4 m ρ c (Proc.devRef .tc main_arg9) := by unwritten hostOps1
theorem keep6_arg9 (c : Dev nD) : W6 m ρ c (Proc.devRef .tc main_arg9) = W5 m ρ c (Proc.devRef .tc main_arg9) := W6_of_ne m ρ c main_arg9 (by decide)
theorem keep7_arg9 (c : Dev nD) : W7 m ρ c (Proc.devRef .tc main_arg9) = W6 m ρ c (Proc.devRef .tc main_arg9) := by unwritten hostOps2
theorem keep8_arg9 (c : Dev nD) : W8 m ρ c (Proc.devRef .tc main_arg9) = W7 m ρ c (Proc.devRef .tc main_arg9) := W8_of_ne m ρ c main_arg9 (by decide)
theorem at1_arg9 (c : Dev nD) : W1 m ρ c (Proc.devRef .tc main_arg9) = m ((c : Thread nD τ).loc main_arg9) := (keep1_arg9 m ρ c).trans rfl
theorem at2_arg9 (c : Dev nD) : W2 m ρ c (Proc.devRef .tc main_arg9) = m ((c : Thread nD τ).loc main_arg9) := (keep2_arg9 m ρ c).trans (at1_arg9 m ρ c)
theorem at3_arg9 (c : Dev nD) : W3 m ρ c (Proc.devRef .tc main_arg9) = m ((c : Thread nD τ).loc main_arg9) := (keep3_arg9 m ρ c).trans (at2_arg9 m ρ c)
theorem at4_arg9 (c : Dev nD) : W4 m ρ c (Proc.devRef .tc main_arg9) = m ((c : Thread nD τ).loc main_arg9) := (keep4_arg9 m ρ c).trans (at3_arg9 m ρ c)
theorem at5_arg9 (c : Dev nD) : W5 m ρ c (Proc.devRef .tc main_arg9) = m ((c : Thread nD τ).loc main_arg9) := (keep5_arg9 m ρ c).trans (at4_arg9 m ρ c)
theorem at6_arg9 (c : Dev nD) : W6 m ρ c (Proc.devRef .tc main_arg9) = m ((c : Thread nD τ).loc main_arg9) := (keep6_arg9 m ρ c).trans (at5_arg9 m ρ c)
theorem at7_arg9 (c : Dev nD) : W7 m ρ c (Proc.devRef .tc main_arg9) = m ((c : Thread nD τ).loc main_arg9) := (keep7_arg9 m ρ c).trans (at6_arg9 m ρ c)
theorem at8_arg9 (c : Dev nD) : W8 m ρ c (Proc.devRef .tc main_arg9) = m ((c : Thread nD τ).loc main_arg9) := (keep8_arg9 m ρ c).trans (at7_arg9 m ρ c)

/-! ### `main_arg11` -/
theorem keep1_arg11 (c : Dev nD) : W1 m ρ c (Proc.devRef .tc main_arg11) = W0 m ρ c (Proc.devRef .tc main_arg11) := by unwritten hostOps0
theorem keep2_arg11 (c : Dev nD) : W2 m ρ c (Proc.devRef .tc main_arg11) = W1 m ρ c (Proc.devRef .tc main_arg11) := by unwritten hostOps0_1
theorem keep3_arg11 (c : Dev nD) : W3 m ρ c (Proc.devRef .tc main_arg11) = W2 m ρ c (Proc.devRef .tc main_arg11) := by unwritten hostOps0_2
theorem keep4_arg11 (c : Dev nD) : W4 m ρ c (Proc.devRef .tc main_arg11) = W3 m ρ c (Proc.devRef .tc main_arg11) := W4_of_ne m ρ c main_arg11 (by decide)
theorem keep5_arg11 (c : Dev nD) : W5 m ρ c (Proc.devRef .tc main_arg11) = W4 m ρ c (Proc.devRef .tc main_arg11) := by unwritten hostOps1
theorem keep6_arg11 (c : Dev nD) : W6 m ρ c (Proc.devRef .tc main_arg11) = W5 m ρ c (Proc.devRef .tc main_arg11) := W6_of_ne m ρ c main_arg11 (by decide)
theorem keep7_arg11 (c : Dev nD) : W7 m ρ c (Proc.devRef .tc main_arg11) = W6 m ρ c (Proc.devRef .tc main_arg11) := by unwritten hostOps2
theorem keep8_arg11 (c : Dev nD) : W8 m ρ c (Proc.devRef .tc main_arg11) = W7 m ρ c (Proc.devRef .tc main_arg11) := W8_of_ne m ρ c main_arg11 (by decide)
theorem at1_arg11 (c : Dev nD) : W1 m ρ c (Proc.devRef .tc main_arg11) = m ((c : Thread nD τ).loc main_arg11) := (keep1_arg11 m ρ c).trans rfl
theorem at2_arg11 (c : Dev nD) : W2 m ρ c (Proc.devRef .tc main_arg11) = m ((c : Thread nD τ).loc main_arg11) := (keep2_arg11 m ρ c).trans (at1_arg11 m ρ c)
theorem at3_arg11 (c : Dev nD) : W3 m ρ c (Proc.devRef .tc main_arg11) = m ((c : Thread nD τ).loc main_arg11) := (keep3_arg11 m ρ c).trans (at2_arg11 m ρ c)
theorem at4_arg11 (c : Dev nD) : W4 m ρ c (Proc.devRef .tc main_arg11) = m ((c : Thread nD τ).loc main_arg11) := (keep4_arg11 m ρ c).trans (at3_arg11 m ρ c)
theorem at5_arg11 (c : Dev nD) : W5 m ρ c (Proc.devRef .tc main_arg11) = m ((c : Thread nD τ).loc main_arg11) := (keep5_arg11 m ρ c).trans (at4_arg11 m ρ c)
theorem at6_arg11 (c : Dev nD) : W6 m ρ c (Proc.devRef .tc main_arg11) = m ((c : Thread nD τ).loc main_arg11) := (keep6_arg11 m ρ c).trans (at5_arg11 m ρ c)
theorem at7_arg11 (c : Dev nD) : W7 m ρ c (Proc.devRef .tc main_arg11) = m ((c : Thread nD τ).loc main_arg11) := (keep7_arg11 m ρ c).trans (at6_arg11 m ρ c)
theorem at8_arg11 (c : Dev nD) : W8 m ρ c (Proc.devRef .tc main_arg11) = m ((c : Thread nD τ).loc main_arg11) := (keep8_arg11 m ρ c).trans (at7_arg11 m ρ c)

/-! ### `main_arg13` -/
theorem keep1_arg13 (c : Dev nD) : W1 m ρ c (Proc.devRef .tc main_arg13) = W0 m ρ c (Proc.devRef .tc main_arg13) := by unwritten hostOps0
theorem keep2_arg13 (c : Dev nD) : W2 m ρ c (Proc.devRef .tc main_arg13) = W1 m ρ c (Proc.devRef .tc main_arg13) := by unwritten hostOps0_1
theorem keep3_arg13 (c : Dev nD) : W3 m ρ c (Proc.devRef .tc main_arg13) = W2 m ρ c (Proc.devRef .tc main_arg13) := by unwritten hostOps0_2
theorem keep4_arg13 (c : Dev nD) : W4 m ρ c (Proc.devRef .tc main_arg13) = W3 m ρ c (Proc.devRef .tc main_arg13) := W4_of_ne m ρ c main_arg13 (by decide)
theorem keep5_arg13 (c : Dev nD) : W5 m ρ c (Proc.devRef .tc main_arg13) = W4 m ρ c (Proc.devRef .tc main_arg13) := by unwritten hostOps1
theorem keep6_arg13 (c : Dev nD) : W6 m ρ c (Proc.devRef .tc main_arg13) = W5 m ρ c (Proc.devRef .tc main_arg13) := W6_of_ne m ρ c main_arg13 (by decide)
theorem keep7_arg13 (c : Dev nD) : W7 m ρ c (Proc.devRef .tc main_arg13) = W6 m ρ c (Proc.devRef .tc main_arg13) := by unwritten hostOps2
theorem keep8_arg13 (c : Dev nD) : W8 m ρ c (Proc.devRef .tc main_arg13) = W7 m ρ c (Proc.devRef .tc main_arg13) := W8_of_ne m ρ c main_arg13 (by decide)
theorem at1_arg13 (c : Dev nD) : W1 m ρ c (Proc.devRef .tc main_arg13) = m ((c : Thread nD τ).loc main_arg13) := (keep1_arg13 m ρ c).trans rfl
theorem at2_arg13 (c : Dev nD) : W2 m ρ c (Proc.devRef .tc main_arg13) = m ((c : Thread nD τ).loc main_arg13) := (keep2_arg13 m ρ c).trans (at1_arg13 m ρ c)
theorem at3_arg13 (c : Dev nD) : W3 m ρ c (Proc.devRef .tc main_arg13) = m ((c : Thread nD τ).loc main_arg13) := (keep3_arg13 m ρ c).trans (at2_arg13 m ρ c)
theorem at4_arg13 (c : Dev nD) : W4 m ρ c (Proc.devRef .tc main_arg13) = m ((c : Thread nD τ).loc main_arg13) := (keep4_arg13 m ρ c).trans (at3_arg13 m ρ c)
theorem at5_arg13 (c : Dev nD) : W5 m ρ c (Proc.devRef .tc main_arg13) = m ((c : Thread nD τ).loc main_arg13) := (keep5_arg13 m ρ c).trans (at4_arg13 m ρ c)
theorem at6_arg13 (c : Dev nD) : W6 m ρ c (Proc.devRef .tc main_arg13) = m ((c : Thread nD τ).loc main_arg13) := (keep6_arg13 m ρ c).trans (at5_arg13 m ρ c)
theorem at7_arg13 (c : Dev nD) : W7 m ρ c (Proc.devRef .tc main_arg13) = m ((c : Thread nD τ).loc main_arg13) := (keep7_arg13 m ρ c).trans (at6_arg13 m ρ c)
theorem at8_arg13 (c : Dev nD) : W8 m ρ c (Proc.devRef .tc main_arg13) = m ((c : Thread nD τ).loc main_arg13) := (keep8_arg13 m ρ c).trans (at7_arg13 m ρ c)

/-! ### `main_arg8` -/
theorem keep1_arg8 (c : Dev nD) : W1 m ρ c (Proc.devRef .tc main_arg8) = W0 m ρ c (Proc.devRef .tc main_arg8) := by unwritten hostOps0
theorem keep2_arg8 (c : Dev nD) : W2 m ρ c (Proc.devRef .tc main_arg8) = W1 m ρ c (Proc.devRef .tc main_arg8) := by unwritten hostOps0_1
theorem keep3_arg8 (c : Dev nD) : W3 m ρ c (Proc.devRef .tc main_arg8) = W2 m ρ c (Proc.devRef .tc main_arg8) := by unwritten hostOps0_2
theorem keep4_arg8 (c : Dev nD) : W4 m ρ c (Proc.devRef .tc main_arg8) = W3 m ρ c (Proc.devRef .tc main_arg8) := W4_of_ne m ρ c main_arg8 (by decide)
theorem keep5_arg8 (c : Dev nD) : W5 m ρ c (Proc.devRef .tc main_arg8) = W4 m ρ c (Proc.devRef .tc main_arg8) := by unwritten hostOps1
theorem keep6_arg8 (c : Dev nD) : W6 m ρ c (Proc.devRef .tc main_arg8) = W5 m ρ c (Proc.devRef .tc main_arg8) := W6_of_ne m ρ c main_arg8 (by decide)
theorem keep7_arg8 (c : Dev nD) : W7 m ρ c (Proc.devRef .tc main_arg8) = W6 m ρ c (Proc.devRef .tc main_arg8) := by unwritten hostOps2
theorem keep8_arg8 (c : Dev nD) : W8 m ρ c (Proc.devRef .tc main_arg8) = W7 m ρ c (Proc.devRef .tc main_arg8) := W8_of_ne m ρ c main_arg8 (by decide)
theorem keep9_arg8 (c : Dev nD) : W9 m ρ c (Proc.devRef .tc main_arg8) = W8 m ρ c (Proc.devRef .tc main_arg8) := by unwritten hostOps3
theorem at1_arg8 (c : Dev nD) : W1 m ρ c (Proc.devRef .tc main_arg8) = m ((c : Thread nD τ).loc main_arg8) := (keep1_arg8 m ρ c).trans rfl
theorem at2_arg8 (c : Dev nD) : W2 m ρ c (Proc.devRef .tc main_arg8) = m ((c : Thread nD τ).loc main_arg8) := (keep2_arg8 m ρ c).trans (at1_arg8 m ρ c)
theorem at3_arg8 (c : Dev nD) : W3 m ρ c (Proc.devRef .tc main_arg8) = m ((c : Thread nD τ).loc main_arg8) := (keep3_arg8 m ρ c).trans (at2_arg8 m ρ c)
theorem at4_arg8 (c : Dev nD) : W4 m ρ c (Proc.devRef .tc main_arg8) = m ((c : Thread nD τ).loc main_arg8) := (keep4_arg8 m ρ c).trans (at3_arg8 m ρ c)
theorem at5_arg8 (c : Dev nD) : W5 m ρ c (Proc.devRef .tc main_arg8) = m ((c : Thread nD τ).loc main_arg8) := (keep5_arg8 m ρ c).trans (at4_arg8 m ρ c)
theorem at6_arg8 (c : Dev nD) : W6 m ρ c (Proc.devRef .tc main_arg8) = m ((c : Thread nD τ).loc main_arg8) := (keep6_arg8 m ρ c).trans (at5_arg8 m ρ c)
theorem at7_arg8 (c : Dev nD) : W7 m ρ c (Proc.devRef .tc main_arg8) = m ((c : Thread nD τ).loc main_arg8) := (keep7_arg8 m ρ c).trans (at6_arg8 m ρ c)
theorem at8_arg8 (c : Dev nD) : W8 m ρ c (Proc.devRef .tc main_arg8) = m ((c : Thread nD τ).loc main_arg8) := (keep8_arg8 m ρ c).trans (at7_arg8 m ρ c)
theorem at9_arg8 (c : Dev nD) : W9 m ρ c (Proc.devRef .tc main_arg8) = m ((c : Thread nD τ).loc main_arg8) := (keep9_arg8 m ρ c).trans (at8_arg8 m ρ c)

/-! ### `main_arg10` -/
theorem keep1_arg10 (c : Dev nD) : W1 m ρ c (Proc.devRef .tc main_arg10) = W0 m ρ c (Proc.devRef .tc main_arg10) := by unwritten hostOps0
theorem keep2_arg10 (c : Dev nD) : W2 m ρ c (Proc.devRef .tc main_arg10) = W1 m ρ c (Proc.devRef .tc main_arg10) := by unwritten hostOps0_1
theorem keep3_arg10 (c : Dev nD) : W3 m ρ c (Proc.devRef .tc main_arg10) = W2 m ρ c (Proc.devRef .tc main_arg10) := by unwritten hostOps0_2
theorem keep4_arg10 (c : Dev nD) : W4 m ρ c (Proc.devRef .tc main_arg10) = W3 m ρ c (Proc.devRef .tc main_arg10) := W4_of_ne m ρ c main_arg10 (by decide)
theorem keep5_arg10 (c : Dev nD) : W5 m ρ c (Proc.devRef .tc main_arg10) = W4 m ρ c (Proc.devRef .tc main_arg10) := by unwritten hostOps1
theorem keep6_arg10 (c : Dev nD) : W6 m ρ c (Proc.devRef .tc main_arg10) = W5 m ρ c (Proc.devRef .tc main_arg10) := W6_of_ne m ρ c main_arg10 (by decide)
theorem keep7_arg10 (c : Dev nD) : W7 m ρ c (Proc.devRef .tc main_arg10) = W6 m ρ c (Proc.devRef .tc main_arg10) := by unwritten hostOps2
theorem keep8_arg10 (c : Dev nD) : W8 m ρ c (Proc.devRef .tc main_arg10) = W7 m ρ c (Proc.devRef .tc main_arg10) := W8_of_ne m ρ c main_arg10 (by decide)
theorem keep9_arg10 (c : Dev nD) : W9 m ρ c (Proc.devRef .tc main_arg10) = W8 m ρ c (Proc.devRef .tc main_arg10) := by unwritten hostOps3
theorem at1_arg10 (c : Dev nD) : W1 m ρ c (Proc.devRef .tc main_arg10) = m ((c : Thread nD τ).loc main_arg10) := (keep1_arg10 m ρ c).trans rfl
theorem at2_arg10 (c : Dev nD) : W2 m ρ c (Proc.devRef .tc main_arg10) = m ((c : Thread nD τ).loc main_arg10) := (keep2_arg10 m ρ c).trans (at1_arg10 m ρ c)
theorem at3_arg10 (c : Dev nD) : W3 m ρ c (Proc.devRef .tc main_arg10) = m ((c : Thread nD τ).loc main_arg10) := (keep3_arg10 m ρ c).trans (at2_arg10 m ρ c)
theorem at4_arg10 (c : Dev nD) : W4 m ρ c (Proc.devRef .tc main_arg10) = m ((c : Thread nD τ).loc main_arg10) := (keep4_arg10 m ρ c).trans (at3_arg10 m ρ c)
theorem at5_arg10 (c : Dev nD) : W5 m ρ c (Proc.devRef .tc main_arg10) = m ((c : Thread nD τ).loc main_arg10) := (keep5_arg10 m ρ c).trans (at4_arg10 m ρ c)
theorem at6_arg10 (c : Dev nD) : W6 m ρ c (Proc.devRef .tc main_arg10) = m ((c : Thread nD τ).loc main_arg10) := (keep6_arg10 m ρ c).trans (at5_arg10 m ρ c)
theorem at7_arg10 (c : Dev nD) : W7 m ρ c (Proc.devRef .tc main_arg10) = m ((c : Thread nD τ).loc main_arg10) := (keep7_arg10 m ρ c).trans (at6_arg10 m ρ c)
theorem at8_arg10 (c : Dev nD) : W8 m ρ c (Proc.devRef .tc main_arg10) = m ((c : Thread nD τ).loc main_arg10) := (keep8_arg10 m ρ c).trans (at7_arg10 m ρ c)
theorem at9_arg10 (c : Dev nD) : W9 m ρ c (Proc.devRef .tc main_arg10) = m ((c : Thread nD τ).loc main_arg10) := (keep9_arg10 m ρ c).trans (at8_arg10 m ρ c)

/-! ### `main_arg12` -/
theorem keep1_arg12 (c : Dev nD) : W1 m ρ c (Proc.devRef .tc main_arg12) = W0 m ρ c (Proc.devRef .tc main_arg12) := by unwritten hostOps0
theorem keep2_arg12 (c : Dev nD) : W2 m ρ c (Proc.devRef .tc main_arg12) = W1 m ρ c (Proc.devRef .tc main_arg12) := by unwritten hostOps0_1
theorem keep3_arg12 (c : Dev nD) : W3 m ρ c (Proc.devRef .tc main_arg12) = W2 m ρ c (Proc.devRef .tc main_arg12) := by unwritten hostOps0_2
theorem keep4_arg12 (c : Dev nD) : W4 m ρ c (Proc.devRef .tc main_arg12) = W3 m ρ c (Proc.devRef .tc main_arg12) := W4_of_ne m ρ c main_arg12 (by decide)
theorem keep5_arg12 (c : Dev nD) : W5 m ρ c (Proc.devRef .tc main_arg12) = W4 m ρ c (Proc.devRef .tc main_arg12) := by unwritten hostOps1
theorem keep6_arg12 (c : Dev nD) : W6 m ρ c (Proc.devRef .tc main_arg12) = W5 m ρ c (Proc.devRef .tc main_arg12) := W6_of_ne m ρ c main_arg12 (by decide)
theorem keep7_arg12 (c : Dev nD) : W7 m ρ c (Proc.devRef .tc main_arg12) = W6 m ρ c (Proc.devRef .tc main_arg12) := by unwritten hostOps2
theorem keep8_arg12 (c : Dev nD) : W8 m ρ c (Proc.devRef .tc main_arg12) = W7 m ρ c (Proc.devRef .tc main_arg12) := W8_of_ne m ρ c main_arg12 (by decide)
theorem keep9_arg12 (c : Dev nD) : W9 m ρ c (Proc.devRef .tc main_arg12) = W8 m ρ c (Proc.devRef .tc main_arg12) := by unwritten hostOps3
theorem at1_arg12 (c : Dev nD) : W1 m ρ c (Proc.devRef .tc main_arg12) = m ((c : Thread nD τ).loc main_arg12) := (keep1_arg12 m ρ c).trans rfl
theorem at2_arg12 (c : Dev nD) : W2 m ρ c (Proc.devRef .tc main_arg12) = m ((c : Thread nD τ).loc main_arg12) := (keep2_arg12 m ρ c).trans (at1_arg12 m ρ c)
theorem at3_arg12 (c : Dev nD) : W3 m ρ c (Proc.devRef .tc main_arg12) = m ((c : Thread nD τ).loc main_arg12) := (keep3_arg12 m ρ c).trans (at2_arg12 m ρ c)
theorem at4_arg12 (c : Dev nD) : W4 m ρ c (Proc.devRef .tc main_arg12) = m ((c : Thread nD τ).loc main_arg12) := (keep4_arg12 m ρ c).trans (at3_arg12 m ρ c)
theorem at5_arg12 (c : Dev nD) : W5 m ρ c (Proc.devRef .tc main_arg12) = m ((c : Thread nD τ).loc main_arg12) := (keep5_arg12 m ρ c).trans (at4_arg12 m ρ c)
theorem at6_arg12 (c : Dev nD) : W6 m ρ c (Proc.devRef .tc main_arg12) = m ((c : Thread nD τ).loc main_arg12) := (keep6_arg12 m ρ c).trans (at5_arg12 m ρ c)
theorem at7_arg12 (c : Dev nD) : W7 m ρ c (Proc.devRef .tc main_arg12) = m ((c : Thread nD τ).loc main_arg12) := (keep7_arg12 m ρ c).trans (at6_arg12 m ρ c)
theorem at8_arg12 (c : Dev nD) : W8 m ρ c (Proc.devRef .tc main_arg12) = m ((c : Thread nD τ).loc main_arg12) := (keep8_arg12 m ρ c).trans (at7_arg12 m ρ c)
theorem at9_arg12 (c : Dev nD) : W9 m ρ c (Proc.devRef .tc main_arg12) = m ((c : Thread nD τ).loc main_arg12) := (keep9_arg12 m ρ c).trans (at8_arg12 m ρ c)

end Cert.KernelIdeal.Bridge

end
-- ==== Proof.BlockProducts.lean ====
/-
  The kernels' block products, entry by entry.  Each kernel body multiplies a block of 10000 rows by a whole weight
  matrix into a zero accumulator; on the extended reals that product's entry (r, j) is the plain sum over the
  contracted axis of (row r of the block) times (column j of the matrix).  One statement per pair of widths the four
  bodies use: 16×32, 32×64, 64×128, 128×64, 64×32, 32×16.
-/
import proofs.«118536_j17815524344480_1_alg».proof.Proof.Gen.KernelIdeal
import Idealize.ShloMosaic.Lib.ValueIdx
import Idealize.ShloMosaic.PureOps.Ideal.Laws

noncomputable section

namespace Cert.KernelIdeal.Bridge

open Cert.KernelIdeal Idealize.ShloMosaic

/-! ### A 10000×16 block times a 16×32 matrix -/

theorem mm16x32_lhs0 (i : S10000x32.Idx) (q : dot_S10000x16_S16x32_S10000x32_1_0_0_1_n_n.contr.Idx) :
    (dot_S10000x16_S16x32_S10000x32_1_0_0_1_n_n.lhsIdx i q 0).val = (i 0).val := by
  unfold DotDims.lhsIdx
  rw [dif_neg (show ¬(0 : Fin S10000x16.rank) ∈ dot_S10000x16_S16x32_S10000x32_1_0_0_1_n_n.lhsBatch by decide), dif_pos (show (0 : Fin S10000x16.rank) ∈ dot_S10000x16_S16x32_S10000x32_1_0_0_1_n_n.lhsNonContracting by decide)]
  rfl
theorem mm16x32_lhs1 (i : S10000x32.Idx) (q : dot_S10000x16_S16x32_S10000x32_1_0_0_1_n_n.contr.Idx) :
    (dot_S10000x16_S16x32_S10000x32_1_0_0_1_n_n.lhsIdx i q 1).val = (q ⟨0, by decide⟩).val :=
  dot_S10000x16_S16x32_S10000x32_1_0_0_1_n_n.lhsIdx_val_of_single rfl i q
theorem mm16x32_rhs0 (i : S10000x32.Idx) (q : dot_S10000x16_S16x32_S10000x32_1_0_0_1_n_n.contr.Idx) :
    (dot_S10000x16_S16x32_S10000x32_1_0_0_1_n_n.rhsIdx i q 0).val = (q ⟨0, by decide⟩).val :=
  dot_S10000x16_S16x32_S10000x32_1_0_0_1_n_n.rhsIdx_val_of_single rfl i q
theorem mm16x32_rhs1 (i : S10000x32.Idx) (q : dot_S10000x16_S16x32_S10000x32_1_0_0_1_n_n.contr.Idx) :
    (dot_S10000x16_S16x32_S10000x32_1_0_0_1_n_n.rhsIdx i q 1).val = (i 1).val := by
  unfold DotDims.rhsIdx
  rw [dif_neg (show ¬(1 : Fin S16x32.rank) ∈ dot_S10000x16_S16x32_S10000x32_1_0_0_1_n_n.rhsBatch by decide), dif_pos (show (1 : Fin S16x32.rank) ∈ dot_S10000x16_S16x32_S10000x32_1_0_0_1_n_n.rhsNonContracting by decide)]
  rfl
/-- Entry `k` of row `i 0` of the left block. -/
abbrev rowAt16x32 (i : S10000x32.Idx) (k : Fin 16) : S10000x16.Idx := fun a => match a with
  | ⟨0, _⟩ => ⟨(i 0).val, (i 0).isLt⟩
  | ⟨1, _⟩ => ⟨k.val, k.isLt⟩
/-- Entry `k` of column `i 1` of the right matrix. -/
abbrev colAt16x32 (i : S10000x32.Idx) (k : Fin 16) : S16x32.Idx := fun a => match a with
  | ⟨0, _⟩ => ⟨k.val, k.isLt⟩
  | ⟨1, _⟩ => ⟨(i 1).val, (i 1).isLt⟩
/-- On the extended reals the block product into a zero accumulator is, entry by entry, the sum over the 16
    contracted positions of row entry times column entry. -/
theorem matmul16x32_apply {φ₁ φ₂ : FTy} (l : FVec Ideal S10000x16 φ₁) (r : FVec Ideal S16x32 φ₂) (i : S10000x32.Idx) :
    matmul dot_S10000x16_S16x32_S10000x32_1_0_0_1_n_n none l r (constant S10000x32 .f32 0x00000000#32) i
      = ∑ k : Fin 16, l (rowAt16x32 i k) * r (colAt16x32 i k) := by
  refine (Ideal.matmul_constant_zero_apply dot_S10000x16_S16x32_S10000x32_1_0_0_1_n_n none l r i).trans ?_
  rw [← Equiv.sum_comp (ValueIdx.contrEquiv1 dot_S10000x16_S16x32_S10000x32_1_0_0_1_n_n 16 rfl rfl).symm]
  refine Finset.sum_congr rfl fun k _ => ?_
  have hk := ValueIdx.contrEquiv1_symm_val dot_S10000x16_S16x32_S10000x32_1_0_0_1_n_n 16 rfl rfl k
  have el : dot_S10000x16_S16x32_S10000x32_1_0_0_1_n_n.lhsIdx i ((ValueIdx.contrEquiv1 dot_S10000x16_S16x32_S10000x32_1_0_0_1_n_n 16 rfl rfl).symm k) = rowAt16x32 i k := funext fun a => Fin.ext (by
    match a with
    | ⟨0, _⟩ => exact mm16x32_lhs0 _ _
    | ⟨1, _⟩ => exact (mm16x32_lhs1 _ _).trans hk)
  have er : dot_S10000x16_S16x32_S10000x32_1_0_0_1_n_n.rhsIdx i ((ValueIdx.contrEquiv1 dot_S10000x16_S16x32_S10000x32_1_0_0_1_n_n 16 rfl rfl).symm k) = colAt16x32 i k := funext fun a => Fin.ext (by
    match a with
    | ⟨0, _⟩ => exact (mm16x32_rhs0 _ _).trans hk
    | ⟨1, _⟩ => exact mm16x32_rhs1 _ _)
  rw [el, er]

/-! ### A 10000×32 block times a 32×64 matrix -/

theorem mm32x64_lhs0 (i : S10000x64.Idx) (q : dot_S10000x32_S32x64_S10000x64_1_0_0_1_n_n.contr.Idx) :
    (dot_S10000x32_S32x64_S10000x64_1_0_0_1_n_n.lhsIdx i q 0).val = (i 0).val := by
  unfold DotDims.lhsIdx
  rw [dif_neg (show ¬(0 : Fin S10000x32.rank) ∈ dot_S10000x32_S32x64_S10000x64_1_0_0_1_n_n.lhsBatch by decide), dif_pos (show (0 : Fin S10000x32.rank) ∈ dot_S10000x32_S32x64_S10000x64_1_0_0_1_n_n.lhsNonContracting by decide)]
  rfl
theorem mm32x64_lhs1 (i : S10000x64.Idx) (q : dot_S10000x32_S32x64_S10000x64_1_0_0_1_n_n.contr.Idx) :
    (dot_S10000x32_S32x64_S10000x64_1_0_0_1_n_n.lhsIdx i q 1).val = (q ⟨0, by decide⟩).val :=
  dot_S10000x32_S32x64_S10000x64_1_0_0_1_n_n.lhsIdx_val_of_single rfl i q
theorem mm32x64_rhs0 (i : S10000x64.Idx) (q : dot_S10000x32_S32x64_S10000x64_1_0_0_1_n_n.contr.Idx) :
    (dot_S10000x32_S32x64_S10000x64_1_0_0_1_n_n.rhsIdx i q 0).val = (q ⟨0, by decide⟩).val :=
  dot_S10000x32_S32x64_S10000x64_1_0_0_1_n_n.rhsIdx_val_of_single rfl i q
theorem mm32x64_rhs1 (i : S10000x64.Idx) (q : dot_S10000x32_S32x64_S10000x64_1_0_0_1_n_n.contr.Idx) :
    (dot_S10000x32_S32x64_S10000x64_1_0_0_1_n_n.rhsIdx i q 1).val = (i 1).val := by
  unfold DotDims.rhsIdx
  rw [dif_neg (show ¬(1 : Fin S32x64.rank) ∈ dot_S10000x32_S32x64_S10000x64_1_0_0_1_n_n.rhsBatch by decide), dif_pos (show (1 : Fin S32x64.rank) ∈ dot_S10000x32_S32x64_S10000x64_1_0_0_1_n_n.rhsNonContracting by decide)]
  rfl
/-- Entry `k` of row `i 0` of the left block. -/
abbrev rowAt32x64 (i : S10000x64.Idx) (k : Fin 32) : S10000x32.Idx := fun a => match a with
  | ⟨0, _⟩ => ⟨(i 0).val, (i 0).isLt⟩
  | ⟨1, _⟩ => ⟨k.val, k.isLt⟩
/-- Entry `k` of column `i 1` of the right matrix. -/
abbrev colAt32x64 (i : S10000x64.Idx) (k : Fin 32) : S32x64.Idx := fun a => match a with
  | ⟨0, _⟩ => ⟨k.val, k.isLt⟩
  | ⟨1, _⟩ => ⟨(i 1).val, (i 1).isLt⟩
/-- On the extended reals the block product into a zero accumulator is, entry by entry, the sum over the 32
    contracted positions of row entry times column entry. -/
theorem matmul32x64_apply {φ₁ φ₂ : FTy} (l : FVec Ideal S10000x32 φ₁) (r : FVec Ideal S32x64 φ₂) (i : S10000x64.Idx) :
    matmul dot_S10000x32_S32x64_S10000x64_1_0_0_1_n_n none l r (constant S10000x64 .f32 0x00000000#32) i
      = ∑ k : Fin 32, l (rowAt32x64 i k) * r (colAt32x64 i k) := by
  refine (Ideal.matmul_constant_zero_apply dot_S10000x32_S32x64_S10000x64_1_0_0_1_n_n none l r i).trans ?_
  rw [← Equiv.sum_comp (ValueIdx.contrEquiv1 dot_S10000x32_S32x64_S10000x64_1_0_0_1_n_n 32 rfl rfl).symm]
  refine Finset.sum_congr rfl fun k _ => ?_
  have hk := ValueIdx.contrEquiv1_symm_val dot_S10000x32_S32x64_S10000x64_1_0_0_1_n_n 32 rfl rfl k
  have el : dot_S10000x32_S32x64_S10000x64_1_0_0_1_n_n.lhsIdx i ((ValueIdx.contrEquiv1 dot_S10000x32_S32x64_S10000x64_1_0_0_1_n_n 32 rfl rfl).symm k) = rowAt32x64 i k := funext fun a => Fin.ext (by
    match a with
    | ⟨0, _⟩ => exact mm32x64_lhs0 _ _
    | ⟨1, _⟩ => exact (mm32x64_lhs1 _ _).trans hk)
  have er : dot_S10000x32_S32x64_S10000x64_1_0_0_1_n_n.rhsIdx i ((ValueIdx.contrEquiv1 dot_S10000x32_S32x64_S10000x64_1_0_0_1_n_n 32 rfl rfl).symm k) = colAt32x64 i k := funext fun a => Fin.ext (by
    match a with
    | ⟨0, _⟩ => exact (mm32x64_rhs0 _ _).trans hk
    | ⟨1, _⟩ => exact mm32x64_rhs1 _ _)
  rw [el, er]

/-! ### A 10000×64 block times a 64×128 matrix -/

theorem mm64x128_lhs0 (i : S10000x128.Idx) (q : dot_S10000x64_S64x128_S10000x128_1_0_0_1_n_n.contr.Idx) :
    (dot_S10000x64_S64x128_S10000x128_1_0_0_1_n_n.lhsIdx i q 0).val = (i 0).val := by
  unfold DotDims.lhsIdx
  rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
  rfl
theorem mm64x128_lhs1 (i : S10000x128.Idx) (q : dot_S10000x64_S64x128_S10000x128_1_0_0_1_n_n.contr.Idx) :
    (dot_S10000x64_S64x128_S10000x128_1_0_0_1_n_n.lhsIdx i q 1).val = (q ⟨0, by decide⟩).val :=
  dot_S10000x64_S64x128_S10000x128_1_0_0_1_n_n.lhsIdx_val_of_single rfl i q
theorem mm64x128_rhs0 (i : S10000x128.Idx) (q : dot_S10000x64_S64x128_S10000x128_1_0_0_1_n_n.contr.Idx) :
    (dot_S10000x64_S64x128_S10000x128_1_0_0_1_n_n.rhsIdx i q 0).val = (q ⟨0, by decide⟩).val :=
  dot_S10000x64_S64x128_S10000x128_1_0_0_1_n_n.rhsIdx_val_of_single rfl i q
theorem mm64x128_rhs1 (i : S10000x128.Idx) (q : dot_S10000x64_S64x128_S10000x128_1_0_0_1_n_n.contr.Idx) :
    (dot_S10000x64_S64x128_S10000x128_1_0_0_1_n_n.rhsIdx i q 1).val = (i 1).val := by
  unfold DotDims.rhsIdx
  rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
  rfl
/-- Entry `k` of row `i 0` of the left block. -/
abbrev rowAt64x128 (i : S10000x128.Idx) (k : Fin 64) : S10000x64.Idx := fun a => match a with
  | ⟨0, _⟩ => ⟨(i 0).val, (i 0).isLt⟩
  | ⟨1, _⟩ => ⟨k.val, k.isLt⟩
/-- Entry `k` of column `i 1` of the right matrix. -/
abbrev colAt64x128 (i : S10000x128.Idx) (k : Fin 64) : S64x128.Idx := fun a => match a with
  | ⟨0, _⟩ => ⟨k.val, k.isLt⟩
  | ⟨1, _⟩ => ⟨(i 1).val, (i 1).isLt⟩
/-- On the extended reals the block product into a zero accumulator is, entry by entry, the sum over the 64
    contracted positions of row entry times column entry. -/
theorem matmul64x128_apply {φ₁ φ₂ : FTy} (l : FVec Ideal S10000x64 φ₁) (r : FVec Ideal S64x128 φ₂) (i : S10000x128.Idx) :
    matmul dot_S10000x64_S64x128_S10000x128_1_0_0_1_n_n none l r (constant S10000x128 .f32 0x00000000#32) i
      = ∑ k : Fin 64, l (rowAt64x128 i k) * r (colAt64x128 i k) := by
  refine (Ideal.matmul_constant_zero_apply dot_S10000x64_S64x128_S10000x128_1_0_0_1_n_n none l r i).trans ?_
  rw [← Equiv.sum_comp (ValueIdx.contrEquiv1 dot_S10000x64_S64x128_S10000x128_1_0_0_1_n_n 64 rfl rfl).symm]
  refine Finset.sum_congr rfl fun k _ => ?_
  have hk := ValueIdx.contrEquiv1_symm_val dot_S10000x64_S64x128_S10000x128_1_0_0_1_n_n 64 rfl rfl k
  have el : dot_S10000x64_S64x128_S10000x128_1_0_0_1_n_n.lhsIdx i ((ValueIdx.contrEquiv1 dot_S10000x64_S64x128_S10000x128_1_0_0_1_n_n 64 rfl rfl).symm k) = rowAt64x128 i k := funext fun a => Fin.ext (by
    match a with
    | ⟨0, _⟩ => exact mm64x128_lhs0 _ _
    | ⟨1, _⟩ => exact (mm64x128_lhs1 _ _).trans hk)
  have er : dot_S10000x64_S64x128_S10000x128_1_0_0_1_n_n.rhsIdx i ((ValueIdx.contrEquiv1 dot_S10000x64_S64x128_S10000x128_1_0_0_1_n_n 64 rfl rfl).symm k) = colAt64x128 i k := funext fun a => Fin.ext (by
    match a with
    | ⟨0, _⟩ => exact (mm64x128_rhs0 _ _).trans hk
    | ⟨1, _⟩ => exact mm64x128_rhs1 _ _)
  rw [el, er]

/-! ### A 10000×128 block times a 128×64 matrix -/

theorem mm128x64_lhs0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem mm128x64_lhs1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem mm128x64_rhs0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem mm128x64_rhs1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl
/-- Entry `k` of row `i 0` of the left block. -/
abbrev rowAt128x64 (i : S10000x64.Idx) (k : Fin 128) : S10000x128.Idx := fun a => match a with
  | ⟨0, _⟩ => ⟨(i 0).val, (i 0).isLt⟩
  | ⟨1, _⟩ => ⟨k.val, k.isLt⟩
/-- Entry `k` of column `i 1` of the right matrix. -/
abbrev colAt128x64 (i : S10000x64.Idx) (k : Fin 128) : S128x64.Idx := fun a => match a with
  | ⟨0, _⟩ => ⟨k.val, k.isLt⟩
  | ⟨1, _⟩ => ⟨(i 1).val, (i 1).isLt⟩
/-- On the extended reals the block product into a zero accumulator is, entry by entry, the sum over the 128
    contracted positions of row entry times column entry. -/
theorem matmul128x64_apply {φ₁ φ₂ : FTy} (l : FVec Ideal S10000x128 φ₁) (r : FVec Ideal S128x64 φ₂) (i : S10000x64.Idx) :
    matmul dot_S10000x128_S128x64_S10000x64_1_0_0_1_n_n none l r (constant S10000x64 .f32 0x00000000#32) i
      = ∑ k : Fin 128, l (rowAt128x64 i k) * r (colAt128x64 i k) := by
  refine (Ideal.matmul_constant_zero_apply dot_S10000x128_S128x64_S10000x64_1_0_0_1_n_n none l r i).trans ?_
  rw [← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx i ((ValueIdx.contrEquiv1 dot_S10000x128_S128x64_S10000x64_1_0_0_1_n_n 128 rfl rfl).symm k) = rowAt128x64 i k := funext fun a => Fin.ext (by
    match a with
    | ⟨0, _⟩ => exact mm128x64_lhs0 _ _
    | ⟨1, _⟩ => exact (mm128x64_lhs1 _ _).trans hk)
  have er : dot_S10000x128_S128x64_S10000x64_1_0_0_1_n_n.rhsIdx i ((ValueIdx.contrEquiv1 dot_S10000x128_S128x64_S10000x64_1_0_0_1_n_n 128 rfl rfl).symm k) = colAt128x64 i k := funext fun a => Fin.ext (by
    match a with
    | ⟨0, _⟩ => exact (mm128x64_rhs0 _ _).trans hk
    | ⟨1, _⟩ => exact mm128x64_rhs1 _ _)
  rw [el, er]

/-! ### A 10000×64 block times a 64×32 matrix -/

theorem mm64x32_lhs0 (i : S10000x32.Idx) (q : dot_S10000x64_S64x32_S10000x32_1_0_0_1_n_n.contr.Idx) :
    (dot_S10000x64_S64x32_S10000x32_1_0_0_1_n_n.lhsIdx i q 0).val = (i 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl
theorem mm64x32_lhs1 (i : S10000x32.Idx) (q : dot_S10000x64_S64x32_S10000x32_1_0_0_1_n_n.contr.Idx) :
    (dot_S10000x64_S64x32_S10000x32_1_0_0_1_n_n.lhsIdx i q 1).val = (q ⟨0, by decide⟩).val :=
  dot_S10000x64_S64x32_S10000x32_1_0_0_1_n_n.lhsIdx_val_of_single rfl i q
theorem mm64x32_rhs0 (i : S10000x32.Idx) (q : dot_S10000x64_S64x32_S10000x32_1_0_0_1_n_n.contr.Idx) :
    (dot_S10000x64_S64x32_S10000x32_1_0_0_1_n_n.rhsIdx i q 0).val = (q ⟨0, by decide⟩).val :=
  dot_S10000x64_S64x32_S10000x32_1_0_0_1_n_n.rhsIdx_val_of_single rfl i q
theorem mm64x32_rhs1 (i : S10000x32.Idx) (q : dot_S10000x64_S64x32_S10000x32_1_0_0_1_n_n.contr.Idx) :
    (dot_S10000x64_S64x32_S10000x32_1_0_0_1_n_n.rhsIdx i q 1).val = (i 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl
/-- Entry `k` of row `i 0` of the left block. -/
abbrev rowAt64x32 (i : S10000x32.Idx) (k : Fin 64) : S10000x64.Idx := fun a => match a with
  | ⟨0, _⟩ => ⟨(i 0).val, (i 0).isLt⟩
  | ⟨1, _⟩ => ⟨k.val, k.isLt⟩
/-- Entry `k` of column `i 1` of the right matrix. -/
abbrev colAt64x32 (i : S10000x32.Idx) (k : Fin 64) : S64x32.Idx := fun a => match a with
  | ⟨0, _⟩ => ⟨k.val, k.isLt⟩
  | ⟨1, _⟩ => ⟨(i 1).val, (i 1).isLt⟩
/-- On the extended reals the block product into a zero accumulator is, entry by entry, the sum over the 64
    contracted positions of row entry times column entry. -/
theorem matmul64x32_apply {φ₁ φ₂ : FTy} (l : FVec Ideal S10000x64 φ₁) (r : FVec Ideal S64x32 φ₂) (i : S10000x32.Idx) :
    matmul dot_S10000x64_S64x32_S10000x32_1_0_0_1_n_n none l r (constant S10000x32 .f32 0x00000000#32) i
      = ∑ k : Fin 64, l (rowAt64x32 i k) * r (colAt64x32 i k) := by
  refine (Ideal.matmul_constant_zero_apply dot_S10000x64_S64x32_S10000x32_1_0_0_1_n_n none l r i).trans ?_
  rw [← Equiv.sum_comp (ValueIdx.contrEquiv1 dot_S10000x64_S64x32_S10000x32_1_0_0_1_n_n 64 rfl rfl).symm]
  refine Finset.sum_congr rfl fun k _ => ?_
  have hk := ValueIdx.contrEquiv1_symm_val dot_S10000x64_S64x32_S10000x32_1_0_0_1_n_n 64 rfl rfl k
  have el : dot_S10000x64_S64x32_S10000x32_1_0_0_1_n_n.lhsIdx i ((ValueIdx.contrEquiv1 dot_S10000x64_S64x32_S10000x32_1_0_0_1_n_n 64 rfl rfl).symm k) = rowAt64x32 i k := funext fun a => Fin.ext (by
    match a with
    | ⟨0, _⟩ => exact mm64x32_lhs0 _ _
    | ⟨1, _⟩ => exact (mm64x32_lhs1 _ _).trans hk)
  have er : dot_S10000x64_S64x32_S10000x32_1_0_0_1_n_n.rhsIdx i ((ValueIdx.contrEquiv1 dot_S10000x64_S64x32_S10000x32_1_0_0_1_n_n 64 rfl rfl).symm k) = colAt64x32 i k := funext fun a => Fin.ext (by
    match a with
    | ⟨0, _⟩ => exact (mm64x32_rhs0 _ _).trans hk
    | ⟨1, _⟩ => exact mm64x32_rhs1 _ _)
  rw [el, er]

/-! ### A 10000×32 block times a 32×16 matrix -/

theorem mm32x16_lhs0 (i : S10000x16.Idx) (q : dot_S10000x32_S32x16_S10000x16_1_0_0_1_n_n.contr.Idx) :
    (dot_S10000x32_S32x16_S10000x16_1_0_0_1_n_n.lhsIdx i q 0).val = (i 0).val := by
  unfold DotDims.lhsIdx
  rw [dif_neg (show ¬(0 : Fin S10000x32.rank) ∈ dot_S10000x32_S32x16_S10000x16_1_0_0_1_n_n.lhsBatch by decide), dif_pos (show (0 : Fin S10000x32.rank) ∈ dot_S10000x32_S32x16_S10000x16_1_0_0_1_n_n.lhsNonContracting by decide)]
  rfl
theorem mm32x16_lhs1 (i : S10000x16.Idx) (q : dot_S10000x32_S32x16_S10000x16_1_0_0_1_n_n.contr.Idx) :
    (dot_S10000x32_S32x16_S10000x16_1_0_0_1_n_n.lhsIdx i q 1).val = (q ⟨0, by decide⟩).val :=
  dot_S10000x32_S32x16_S10000x16_1_0_0_1_n_n.lhsIdx_val_of_single rfl i q
theorem mm32x16_rhs0 (i : S10000x16.Idx) (q : dot_S10000x32_S32x16_S10000x16_1_0_0_1_n_n.contr.Idx) :
    (dot_S10000x32_S32x16_S10000x16_1_0_0_1_n_n.rhsIdx i q 0).val = (q ⟨0, by decide⟩).val :=
  dot_S10000x32_S32x16_S10000x16_1_0_0_1_n_n.rhsIdx_val_of_single rfl i q
theorem mm32x16_rhs1 (i : S10000x16.Idx) (q : dot_S10000x32_S32x16_S10000x16_1_0_0_1_n_n.contr.Idx) :
    (dot_S10000x32_S32x16_S10000x16_1_0_0_1_n_n.rhsIdx i q 1).val = (i 1).val := by
  unfold DotDims.rhsIdx
  rw [dif_neg (show ¬(1 : Fin S32x16.rank) ∈ dot_S10000x32_S32x16_S10000x16_1_0_0_1_n_n.rhsBatch by decide), dif_pos (show (1 : Fin S32x16.rank) ∈ dot_S10000x32_S32x16_S10000x16_1_0_0_1_n_n.rhsNonContracting by decide)]
  rfl
/-- Entry `k` of row `i 0` of the left block. -/
abbrev rowAt32x16 (i : S10000x16.Idx) (k : Fin 32) : S10000x32.Idx := fun a => match a with
  | ⟨0, _⟩ => ⟨(i 0).val, (i 0).isLt⟩
  | ⟨1, _⟩ => ⟨k.val, k.isLt⟩
/-- Entry `k` of column `i 1` of the right matrix. -/
abbrev colAt32x16 (i : S10000x16.Idx) (k : Fin 32) : S32x16.Idx := fun a => match a with
  | ⟨0, _⟩ => ⟨k.val, k.isLt⟩
  | ⟨1, _⟩ => ⟨(i 1).val, (i 1).isLt⟩
/-- On the extended reals the block product into a zero accumulator is, entry by entry, the sum over the 32
    contracted positions of row entry times column entry. -/
theorem matmul32x16_apply {φ₁ φ₂ : FTy} (l : FVec Ideal S10000x32 φ₁) (r : FVec Ideal S32x16 φ₂) (i : S10000x16.Idx) :
    matmul dot_S10000x32_S32x16_S10000x16_1_0_0_1_n_n none l r (constant S10000x16 .f32 0x00000000#32) i
      = ∑ k : Fin 32, l (rowAt32x16 i k) * r (colAt32x16 i k) := by
  refine (Ideal.matmul_constant_zero_apply dot_S10000x32_S32x16_S10000x16_1_0_0_1_n_n none l r i).trans ?_
  rw [← Equiv.sum_comp (ValueIdx.contrEquiv1 dot_S10000x32_S32x16_S10000x16_1_0_0_1_n_n 32 rfl rfl).symm]
  refine Finset.sum_congr rfl fun k _ => ?_
  have hk := ValueIdx.contrEquiv1_symm_val dot_S10000x32_S32x16_S10000x16_1_0_0_1_n_n 32 rfl rfl k
  have el : dot_S10000x32_S32x16_S10000x16_1_0_0_1_n_n.lhsIdx i ((ValueIdx.contrEquiv1 dot_S10000x32_S32x16_S10000x16_1_0_0_1_n_n 32 rfl rfl).symm k) = rowAt32x16 i k := funext fun a => Fin.ext (by
    match a with
    | ⟨0, _⟩ => exact mm32x16_lhs0 _ _
    | ⟨1, _⟩ => exact (mm32x16_lhs1 _ _).trans hk)
  have er : dot_S10000x32_S32x16_S10000x16_1_0_0_1_n_n.rhsIdx i ((ValueIdx.contrEquiv1 dot_S10000x32_S32x16_S10000x16_1_0_0_1_n_n 32 rfl rfl).symm k) = colAt32x16 i k := funext fun a => Fin.ext (by
    match a with
    | ⟨0, _⟩ => exact (mm32x16_rhs0 _ _).trans hk
    | ⟨1, _⟩ => exact mm32x16_rhs1 _ _)
  rw [el, er]

end Cert.KernelIdeal.Bridge

end
-- ==== Proof.Region0.lean ====
/-
  The first kernel: h = x · W1, tiled by rows.  Grid point t multiplies rows 10000·t … 10000·t + 9999 of x by the whole
  of W1 and writes back the same rows of the result, so the five write-backs cover the 50000 rows and the array after
  the region is, entry by entry, the sum over the 16 contracted positions of x's row times W1's column: the
  reference's first matrix product read at an index.
-/
import proofs.«118536_j17815524344480_1_alg».proof.Proof.Gen.KernelIdeal.Frame
import proofs.«118536_j17815524344480_1_alg».proof.Proof.RefRead
import proofs.«118536_j17815524344480_1_alg».proof.Proof.BlockProducts
import Idealize.ShloMosaic.Lib.Pipeline.Value

set_option maxRecDepth 16384

noncomputable section

namespace Cert.KernelIdeal.Bridge

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The body's one stored value, entry by entry: a format change is the identity on the extended reals, so it is the
    block product of the two loaded blocks. -/
theorem body0_apply (x : Vec Ideal S10000x16 .f32) (w : Vec Ideal S16x32 .f32) (y : S10000x32.Idx) :
    k0_pay1 x w y = ∑ k : Fin 16, x (rowAt16x32 y k) * w (colAt16x32 y k) := by
  unfold k0_pay1
  exact matmul16x32_apply (truncf .bf16 x bitsLt_bf16_f32) (truncf .bf16 w bitsLt_bf16_f32) y

/-- Where the three windows sit at grid point `t`: the row block of x moves with the row block of the result, W1 is
    whole at every point, and there are five row blocks. -/
theorem blocks0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 4 :=
  (by decide +kernel : ∀ t : Fin grid0.N, _)

/-- Every one of the five row blocks is some grid point's. -/
theorem blocks0_onto : ∀ q0 : Fin 5, ∃ t : Fin cfg0.N, win0_2.index t = ![q0.val, 0] :=
  (by decide +kernel : ∀ q0 : Fin 5, ∃ t : Fin grid0.N, win0_2.index t = ![q0.val, 0])

/-- What grid point `t` writes back is block `t` of the whole product x · W1. -/
theorem written0 (c : Dev nD) (x0 : (⟨Cert.ReferenceIdeal.S50000x16, .f32⟩ : BufTy).Contents (Elt Ideal))
    (x2 : (⟨Cert.ReferenceIdeal.S16x32, .f32⟩ : BufTy).Contents (Elt Ideal))
    (h0 : V c main_arg0 = x0) (h2 : V c main_arg2 = x2) (t : Fin cfg0.N) :
    (dat0 V c).flushed 2 t = ((cfg0.win 2).blk t).view.read (Elt Ideal) (Cert.ReferenceIdeal.ReadP.val_main_v0 (F := Ideal) x0 x2) := by
  show (cfg0.win 2).cut (grid0.coords t) ((dat0 V c).after 2 t) = _
  rw [after0_2]
  unfold out0_2
  rw [View.canon_unit_zero zero_offsets]
  simp only [View.ld_unit_zero (S := S10000x16) zero_offsets, View.ld_unit_zero (S := S16x32) zero_offsets]
  obtain ⟨e0, e1, e2, e3, e4, e5⟩ := blocks0 t
  funext j
  show k0_pay1 (iblk0 V c 0 t) (iblk0 V c 1 t) j = Cert.ReferenceIdeal.ReadP.val_main_v0 (F := Ideal) x0 x2 (((cfg0.win 2).blk t).view.emb j)
  rw [Cert.ReferenceIdeal.ReadP.val_main_v0_apply]
  refine (body0_apply _ _ j).trans (Finset.sum_congr rfl fun k _ => ?_)
  have hl : iblk0 V c 0 t (rowAt16x32 j k) = x0 (Cert.ReferenceIdeal.ReadP.lidx_main_v0 (((cfg0.win 2).blk t).view.emb j) k) := by
    show V c main_arg0 (((cfg0.win 0).blk t).view.emb (rowAt16x32 j k)) = _
    rw [h0]
    refine congrArg x0 (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 16 + 1 * k.val = k.val; omega
  have hr : iblk0 V c 1 t (colAt16x32 j k) = x2 (Cert.ReferenceIdeal.ReadP.ridx_main_v0 (((cfg0.win 2).blk t).view.emb j) k) := by
    show V c main_arg2 (((cfg0.win 1).blk t).view.emb (colAt16x32 j k)) = _
    rw [h2]
    refine congrArg x2 (funext fun a => Fin.ext ?_)
    match a with
    | ⟨0, _⟩ => show win0_1.index t (0 : Fin 2) * 16 + 1 * k.val = k.val; omega
    | ⟨1, _⟩ => show win0_1.index t (1 : Fin 2) * 32 + 1 * (j 1).val = win0_2.index t (1 : Fin 2) * 32 + 1 * (j 1).val; omega
  rw [hl, hr]

/-- An index of the result array is in grid point `t`'s block iff each coordinate is in the block's range. -/
theorem in_block0 (t : Fin cfg0.N) (i : S50000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v30).slice (win0_2.rect t)).set ↔ _
  rw [View.set_slice_whole, Rect.mem_set_unit]
  exact Iff.rfl

/-- Row r lies in the block of grid point r / 10000: the five write-backs cover the array. -/
theorem covered0 (i : S50000x32.Idx) : ∃ t : Fin cfg0.N, (cfg0.win 2).flush t = true ∧ i ∈ ((cfg0.win 2).blk t).view.set := by
  have hi0 : (i 0).val < 50000 := (i 0).isLt
  have hi1 : (i 1).val < 32 := (i 1).isLt
  obtain ⟨t, ht⟩ := blocks0_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [in_block0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 32 ≤ (i 1).val ∧ (i 1).val < win0_2.index t (1 : Fin 2) * 32 + 32; omega

/-- THE ARRAY after the first kernel: the whole product x · W1, the reference's first stage. -/
theorem region0_value (c : Dev nD) (x0 : (⟨Cert.ReferenceIdeal.S50000x16, .f32⟩ : BufTy).Contents (Elt Ideal))
    (x2 : (⟨Cert.ReferenceIdeal.S16x32, .f32⟩ : BufTy).Contents (Elt Ideal))
    (h0 : V c main_arg0 = x0) (h2 : V c main_arg2 = x2) :
    (dat0 V c).arrAt 2 cfg0.N = Cert.ReferenceIdeal.ReadP.val_main_v0 (F := Ideal) x0 x2 :=
  (dat0 V c).arrAt_eq_of_cover 2 _ (fun t _ => written0 V c x0 x2 h0 h2 t) (fun i => covered0 i)

end Cert.KernelIdeal.Bridge

end
-- ==== Proof.Region1.lean ====
/-
  The second kernel: h' = relu(s + b) · W, tiled by rows (s the 32-wide scatter-sum of the layer before, b its bias
  as a 1×32 row, W the next 32×64 weight).  Grid point t takes rows 10000·t … 10000·t + 9999 of s with the whole of
  b and W and writes back the same rows of the result.  Entry (i, j) of the array after the region is therefore
  the sum over k of max(s(i,k) + b(k), 0) · W(k,j), which is the reference's bias add, relu and matrix product
  read at the same index.
-/
import proofs.«118536_j17815524344480_1_alg».proof.Proof.Gen.KernelIdeal.Frame
import proofs.«118536_j17815524344480_1_alg».proof.Proof.RefRead
import proofs.«118536_j17815524344480_1_alg».proof.Proof.BlockProducts
import Idealize.ShloMosaic.Lib.Pipeline.Value

set_option maxRecDepth 16384

noncomputable section

namespace Cert.KernelIdeal.Bridge

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero_offsets1 : (![0, 0] : Fin 2 → Nat) = fun _ => 0 := funext fun a => by fin_cases a <;> rfl

/-- Entry `k` of the bias row. -/
abbrev biasRow1 (k : Fin 32) : S1x32.Idx := fun a => match a with
  | ⟨0, _⟩ => ⟨0, Nat.one_pos⟩
  | ⟨1, _⟩ => ⟨k.val, k.isLt⟩
/-- Entry `k` of the bias vector. -/
abbrev biasVec1 (k : Fin 32) : Cert.ReferenceIdeal.S32.Idx := fun a => match a with
  | ⟨0, _⟩ => ⟨k.val, k.isLt⟩

/-- The body's stored value, entry by entry: the sum over k of max(s(r,k) + b(0,k), 0) · w(k,j). -/
theorem body1_apply (s : Vec Ideal S10000x32 .f32) (b : Vec Ideal S1x32 .f32) (w : Vec Ideal S32x64 .f32) (y : S10000x64.Idx) :
    k1_pay1 s b w y = ∑ k : Fin 32, max (s (rowAt32x64 y k) + b (biasRow1 k)) (Ideal.ofBits .f32 0x00000000#32) * w (colAt32x64 y k) := by
  unfold k1_pay1
  refine (matmul32x64_apply _ _ y).trans (Finset.sum_congr rfl fun k _ => ?_)
  refine congrArg (· * w (colAt32x64 y k)) ?_
  show max ((shapeCast S10000x32 s shapeCasts_S10000x32_S10000x32) (rowAt32x64 y k)
      + (broadcastTo S10000x32 (shapeCast S1x32 b shapeCasts_S1x32_S1x32) broadcasts_S1x32_S10000x32) (rowAt32x64 y k))
    (Ideal.ofBits .f32 0x00000000#32) = _
  rw [shapeCast_self, shapeCast_self,
    broadcastTo_apply b broadcasts_S1x32_S10000x32 (rowAt32x64 y k) (biasRow1 k) (fun a => match a with
      | ⟨0, _⟩ => by show 0 = if (1 : Nat) = 1 then 0 else (y 0).val; rw [if_pos rfl]
      | ⟨1, _⟩ => by show k.val = if (32 : Nat) = 1 then 0 else k.val; rw [if_neg (by decide)])]

/-- The reference's bias add, relu and product, entry by entry, in the same form. -/
theorem layer1_apply (x0 : (⟨Cert.ReferenceIdeal.S50000x16, .f32⟩ : BufTy).Contents (Elt Ideal)) (x1 : (⟨Cert.ReferenceIdeal.S2x800000, .i32⟩ : BufTy).Contents (Elt Ideal)) (x2 : (⟨Cert.ReferenceIdeal.S16x32, .f32⟩ : BufTy).Contents (Elt Ideal)) (x3 : (⟨Cert.ReferenceIdeal.S32, .f32⟩ : BufTy).Contents (Elt Ideal)) (x4 : (⟨Cert.ReferenceIdeal.S32x64, .f32⟩ : BufTy).Contents (Elt Ideal)) (i : Cert.ReferenceIdeal.S50000x64.Idx) :
    Cert.ReferenceIdeal.ReadP.val_main_v49 (F := Ideal) x0 x1 x2 x3 x4 i = ∑ k : Fin 32, max (Cert.ReferenceIdeal.ReadP.val_main_v44 (F := Ideal) x0 x1 x2 (Cert.ReferenceIdeal.ReadP.lidx_main_v49 i k) + x3 (biasVec1 k)) (Ideal.ofBits .f32 0x00000000#32) * x4 (Cert.ReferenceIdeal.ReadP.ridx_main_v49 i k) := by
  rw [Cert.ReferenceIdeal.ReadP.val_main_v49_apply]
  refine Finset.sum_congr rfl fun k _ => ?_
  refine congrArg (· * x4 (Cert.ReferenceIdeal.ReadP.ridx_main_v49 i k)) ?_
  have e : Cert.ReferenceIdeal.ReadP.idx_main_v45 (Cert.ReferenceIdeal.ReadP.idx_main_v46 (Cert.ReferenceIdeal.ReadP.lidx_main_v49 i k)) = biasVec1 k :=
    funext fun a => Fin.ext (by match a with | ⟨0, _⟩ => rfl)
  rw [Cert.ReferenceIdeal.ReadP.val_main_v48_apply, Cert.ReferenceIdeal.ReadP.val_main_v47_apply, Cert.ReferenceIdeal.ReadP.val_main_v46_apply, Cert.ReferenceIdeal.ReadP.val_main_v45_apply, Cert.ReferenceIdeal.ReadP.val_main_call1_v0_apply, Cert.ReferenceIdeal.ReadP.val_main_call1_cst_apply, e]
  rfl

/-- Where the four windows sit at grid point `t`: the row block of s moves with the row block of the result, b and W
    are whole at every point, and there are five row blocks. -/
theorem blocks1 : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) ≤ 4 :=
  (by decide +kernel : ∀ t : Fin grid1.N, _)

/-- Every one of the five row blocks is some grid point's. -/
theorem blocks1_onto : ∀ q0 : Fin 5, ∃ t : Fin cfg1.N, win1_3.index t = ![q0.val, 0] :=
  (by decide +kernel : ∀ q0 : Fin 5, ∃ t : Fin grid1.N, win1_3.index t = ![q0.val, 0])

/-- What grid point `t` writes back is block `t` of the reference's stage.  (Shown for any input array `S` and any
    result array `G` that is, entry by entry, the sum over k of max(S(i,k) + b(k), 0) · W(k,j); the reference's two
    stages are such a pair.) -/
theorem written1 (c : Dev nD) (x0 : (⟨Cert.ReferenceIdeal.S50000x16, .f32⟩ : BufTy).Contents (Elt Ideal)) (x1 : (⟨Cert.ReferenceIdeal.S2x800000, .i32⟩ : BufTy).Contents (Elt Ideal)) (x2 : (⟨Cert.ReferenceIdeal.S16x32, .f32⟩ : BufTy).Contents (Elt Ideal)) (x3 : (⟨Cert.ReferenceIdeal.S32, .f32⟩ : BufTy).Contents (Elt Ideal)) (x4 : (⟨Cert.ReferenceIdeal.S32x64, .f32⟩ : BufTy).Contents (Elt Ideal))
    (hs : V c main_v43 = Cert.ReferenceIdeal.ReadP.val_main_v44 (F := Ideal) x0 x1 x2) (hb : V c main_v44 = shapeCast _ x3 shapeCasts_S32_S1x32) (hw : V c main_arg4 = x4) (t : Fin cfg1.N) :
    (dat1 V c).flushed 3 t = ((cfg1.win 3).blk t).view.read (Elt Ideal) (Cert.ReferenceIdeal.ReadP.val_main_v49 (F := Ideal) x0 x1 x2 x3 x4) := by
  have key : ∀ (S : (⟨Cert.ReferenceIdeal.S50000x32, .f32⟩ : BufTy).Contents (Elt Ideal)) (G : (⟨Cert.ReferenceIdeal.S50000x64, .f32⟩ : BufTy).Contents (Elt Ideal)),
      V c main_v43 = S →
      (∀ i, G i = ∑ k : Fin 32, max (S (Cert.ReferenceIdeal.ReadP.lidx_main_v49 i k) + x3 (biasVec1 k)) (Ideal.ofBits .f32 0x00000000#32) * x4 (Cert.ReferenceIdeal.ReadP.ridx_main_v49 i k)) →
      (dat1 V c).flushed 3 t = ((cfg1.win 3).blk t).view.read (Elt Ideal) G := by
    intro S G hS hG
    show (cfg1.win 3).cut (grid1.coords t) ((dat1 V c).after 3 t) = _
    rw [after1_3]
    unfold out1_3
    rw [View.canon_unit_zero zero_offsets1]
    simp only [View.ld_unit_zero (S := S10000x32) zero_offsets1, View.ld_unit_zero (S := S1x32) zero_offsets1, View.ld_unit_zero (S := S32x64) zero_offsets1]
    obtain ⟨e0, e1, e2, e3, e4, e5, e6, e7⟩ := blocks1 t
    refine funext fun (j : S10000x64.Idx) => ?_
    show k1_pay1 (iblk1 V c 0 t) (iblk1 V c 1 t) (iblk1 V c 2 t) j = G (((cfg1.win 3).blk t).view.emb j)
    rw [hG]
    refine (body1_apply (iblk1 V c 0 t) (iblk1 V c 1 t) (iblk1 V c 2 t) j).trans (Finset.sum_congr rfl fun k _ => ?_)
    have h1 : iblk1 V c 0 t (rowAt32x64 j k) = S (Cert.ReferenceIdeal.ReadP.lidx_main_v49 (((cfg1.win 3).blk t).view.emb j) k) := by
      show V c main_v43 (((cfg1.win 0).blk t).view.emb (rowAt32x64 j k)) = _
      rw [hS]
      refine congrArg S (funext fun a => Fin.ext ?_)
      match a with
      | ⟨0, _⟩ => show win1_0.index t (0 : Fin 2) * 10000 + 1 * (j 0).val = win1_3.index t (0 : Fin 2) * 10000 + 1 * (j 0).val; omega
      | ⟨1, _⟩ => show win1_0.index t (1 : Fin 2) * 32 + 1 * k.val = k.val; omega
    have h2 : iblk1 V c 1 t (biasRow1 k) = x3 (biasVec1 k) := by
      show V c main_v44 (((cfg1.win 1).blk t).view.emb (biasRow1 k)) = _
      rw [hb]
      refine shapeCast_apply x3 shapeCasts_S32_S1x32 _ (biasVec1 k) ?_
      rewrite [Shape.rowMajor_val_one, Shape.rowMajor_val_two]
      show k.val = (win1_1.index t (0 : Fin 2) * 1 + 1 * 0) * 32 + (win1_1.index t (1 : Fin 2) * 32 + 1 * k.val)
      omega
    have h3 : iblk1 V c 2 t (colAt32x64 j k) = x4 (Cert.ReferenceIdeal.ReadP.ridx_main_v49 (((cfg1.win 3).blk t).view.emb j) k) := by
      show V c main_arg4 (((cfg1.win 2).blk t).view.emb (colAt32x64 j k)) = _
      rw [hw]
      refine congrArg x4 (funext fun a => Fin.ext ?_)
      match a with
      | ⟨0, _⟩ => show win1_2.index t (0 : Fin 2) * 32 + 1 * k.val = k.val; omega
      | ⟨1, _⟩ => show win1_2.index t (1 : Fin 2) * 64 + 1 * (j 1).val = win1_3.index t (1 : Fin 2) * 64 + 1 * (j 1).val; omega
    rw [h1, h2, h3]
  exact key _ _ hs (fun i => layer1_apply x0 x1 x2 x3 x4 i)

/-- An index of the result array is in grid point `t`'s block iff each coordinate is in the block's range. -/
theorem in_block1 (t : Fin cfg1.N) (i : S50000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v45).slice (win1_3.rect t)).set ↔ _
  rw [View.set_slice_whole, Rect.mem_set_unit]
  exact Iff.rfl

/-- Row r lies in the block of grid point r / 10000: the five write-backs cover the array. -/
theorem covered1 (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  obtain ⟨t, ht⟩ := blocks1_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [in_block1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- THE ARRAY after the second kernel: the reference's stage relu(s + b) · W. -/
theorem region1_value (c : Dev nD) (x0 : (⟨Cert.ReferenceIdeal.S50000x16, .f32⟩ : BufTy).Contents (Elt Ideal)) (x1 : (⟨Cert.ReferenceIdeal.S2x800000, .i32⟩ : BufTy).Contents (Elt Ideal)) (x2 : (⟨Cert.ReferenceIdeal.S16x32, .f32⟩ : BufTy).Contents (Elt Ideal)) (x3 : (⟨Cert.ReferenceIdeal.S32, .f32⟩ : BufTy).Contents (Elt Ideal)) (x4 : (⟨Cert.ReferenceIdeal.S32x64, .f32⟩ : BufTy).Contents (Elt Ideal))
    (hs : V c main_v43 = Cert.ReferenceIdeal.ReadP.val_main_v44 (F := Ideal) x0 x1 x2) (hb : V c main_v44 = shapeCast _ x3 shapeCasts_S32_S1x32) (hw : V c main_arg4 = x4) :
    (dat1 V c).arrAt 3 cfg1.N = Cert.ReferenceIdeal.ReadP.val_main_v49 (F := Ideal) x0 x1 x2 x3 x4 :=
  (dat1 V c).arrAt_eq_of_cover 3 _ (fun t _ => written1 V c x0 x1 x2 x3 x4 hs hb hw t) (fun i => covered1 i)

end Cert.KernelIdeal.Bridge

end
-- ==== Proof.Region2.lean ====
/-
  The third kernel: h' = relu(s + b) · W, tiled by rows (s the 64-wide scatter-sum of the layer before, b its bias
  as a 1×64 row, W the next 64×128 weight).  Grid point t takes rows 10000·t … 10000·t + 9999 of s with the whole of
  b and W and writes back the same rows of the result.  Entry (i, j) of the array after the region is therefore
  the sum over k of max(s(i,k) + b(k), 0) · W(k,j), which is the reference's bias add, relu and matrix product
  read at the same index.
-/
import proofs.«118536_j17815524344480_1_alg».proof.Proof.Gen.KernelIdeal.Frame
import proofs.«118536_j17815524344480_1_alg».proof.Proof.RefRead
import proofs.«118536_j17815524344480_1_alg».proof.Proof.BlockProducts
import Idealize.ShloMosaic.Lib.Pipeline.Value

set_option maxRecDepth 16384

noncomputable section

namespace Cert.KernelIdeal.Bridge

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero_offsets2 : (![0, 0] : Fin 2 → Nat) = fun _ => 0 := funext fun a => by fin_cases a <;> rfl

/-- Entry `k` of the bias row. -/
abbrev biasRow2 (k : Fin 64) : S1x64.Idx := fun a => match a with
  | ⟨0, _⟩ => ⟨0, Nat.one_pos⟩
  | ⟨1, _⟩ => ⟨k.val, k.isLt⟩
/-- Entry `k` of the bias vector. -/
abbrev biasVec2 (k : Fin 64) : Cert.ReferenceIdeal.S64.Idx := fun a => match a with
  | ⟨0, _⟩ => ⟨k.val, k.isLt⟩

/-- The body's stored value, entry by entry: the sum over k of max(s(r,k) + b(0,k), 0) · w(k,j). -/
theorem body2_apply (s : Vec Ideal S10000x64 .f32) (b : Vec Ideal S1x64 .f32) (w : Vec Ideal S64x128 .f32) (y : S10000x128.Idx) :
    k2_pay1 s b w y = ∑ k : Fin 64, max (s (rowAt64x128 y k) + b (biasRow2 k)) (Ideal.ofBits .f32 0x00000000#32) * w (colAt64x128 y k) := by
  unfold k2_pay1
  refine (matmul64x128_apply _ _ y).trans (Finset.sum_congr rfl fun k _ => ?_)
  refine congrArg (· * w (colAt64x128 y k)) ?_
  show max ((shapeCast S10000x64 s shapeCasts_S10000x64_S10000x64) (rowAt64x128 y k)
      + (broadcastTo S10000x64 (shapeCast S1x64 b shapeCasts_S1x64_S1x64) broadcasts_S1x64_S10000x64) (rowAt64x128 y k))
    (Ideal.ofBits .f32 0x00000000#32) = _
  rw [shapeCast_self, shapeCast_self,
    broadcastTo_apply b broadcasts_S1x64_S10000x64 (rowAt64x128 y k) (biasRow2 k) (fun a => match a with
      | ⟨0, _⟩ => by show 0 = if (1 : Nat) = 1 then 0 else (y 0).val; rw [if_pos rfl]
      | ⟨1, _⟩ => by show k.val = if (64 : Nat) = 1 then 0 else k.val; rw [if_neg (by decide)])]

/-- The reference's bias add, relu and product, entry by entry, in the same form. -/
theorem layer2_apply (x0 : (⟨Cert.ReferenceIdeal.S50000x16, .f32⟩ : BufTy).Contents (Elt Ideal)) (x1 : (⟨Cert.ReferenceIdeal.S2x800000, .i32⟩ : BufTy).Contents (Elt Ideal)) (x2 : (⟨Cert.ReferenceIdeal.S16x32, .f32⟩ : BufTy).Contents (Elt Ideal)) (x3 : (⟨Cert.ReferenceIdeal.S32, .f32⟩ : BufTy).Contents (Elt Ideal)) (x4 : (⟨Cert.ReferenceIdeal.S32x64, .f32⟩ : BufTy).Contents (Elt Ideal)) (x5 : (⟨Cert.ReferenceIdeal.S64, .f32⟩ : BufTy).Contents (Elt Ideal)) (x6 : (⟨Cert.ReferenceIdeal.S64x128, .f32⟩ : BufTy).Contents (Elt Ideal)) (i : Cert.ReferenceIdeal.S50000x128.Idx) :
    Cert.ReferenceIdeal.ReadP.val_main_v98 (F := Ideal) x0 x1 x2 x3 x4 x5 x6 i = ∑ k : Fin 64, max (Cert.ReferenceIdeal.ReadP.val_main_v93 (F := Ideal) x0 x1 x2 x3 x4 (Cert.ReferenceIdeal.ReadP.lidx_main_v98 i k) + x5 (biasVec2 k)) (Ideal.ofBits .f32 0x00000000#32) * x6 (Cert.ReferenceIdeal.ReadP.ridx_main_v98 i k) := by
  rw [Cert.ReferenceIdeal.ReadP.val_main_v98_apply]
  refine Finset.sum_congr rfl fun k _ => ?_
  refine congrArg (· * x6 (Cert.ReferenceIdeal.ReadP.ridx_main_v98 i k)) ?_
  have e : Cert.ReferenceIdeal.ReadP.idx_main_v94 (Cert.ReferenceIdeal.ReadP.idx_main_v95 (Cert.ReferenceIdeal.ReadP.lidx_main_v98 i k)) = biasVec2 k :=
    funext fun a => Fin.ext (by match a with | ⟨0, _⟩ => rfl)
  rw [Cert.ReferenceIdeal.ReadP.val_main_v97_apply, Cert.ReferenceIdeal.ReadP.val_main_v96_apply, Cert.ReferenceIdeal.ReadP.val_main_v95_apply, Cert.ReferenceIdeal.ReadP.val_main_v94_apply, Cert.ReferenceIdeal.ReadP.val_main_call3_v0_apply, Cert.ReferenceIdeal.ReadP.val_main_call3_cst_apply, e]
  rfl

/-- Where the four windows sit at grid point `t`: the row block of s moves with the row block of the result, b and W
    are whole at every point, and there are five row blocks. -/
theorem blocks2 : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (1 : Fin 2) = 0
    ∧ win2_3.index t (0 : Fin 2) ≤ 4 :=
  (by decide +kernel : ∀ t : Fin grid2.N, _)

/-- Every one of the five row blocks is some grid point's. -/
theorem blocks2_onto : ∀ q0 : Fin 5, ∃ t : Fin cfg2.N, win2_3.index t = ![q0.val, 0] :=
  (by decide +kernel : ∀ q0 : Fin 5, ∃ t : Fin grid2.N, win2_3.index t = ![q0.val, 0])

/-- What grid point `t` writes back is block `t` of the reference's stage.  (Shown for any input array `S` and any
    result array `G` that is, entry by entry, the sum over k of max(S(i,k) + b(k), 0) · W(k,j); the reference's two
    stages are such a pair.) -/
theorem written2 (c : Dev nD) (x0 : (⟨Cert.ReferenceIdeal.S50000x16, .f32⟩ : BufTy).Contents (Elt Ideal)) (x1 : (⟨Cert.ReferenceIdeal.S2x800000, .i32⟩ : BufTy).Contents (Elt Ideal)) (x2 : (⟨Cert.ReferenceIdeal.S16x32, .f32⟩ : BufTy).Contents (Elt Ideal)) (x3 : (⟨Cert.ReferenceIdeal.S32, .f32⟩ : BufTy).Contents (Elt Ideal)) (x4 : (⟨Cert.ReferenceIdeal.S32x64, .f32⟩ : BufTy).Contents (Elt Ideal)) (x5 : (⟨Cert.ReferenceIdeal.S64, .f32⟩ : BufTy).Contents (Elt Ideal)) (x6 : (⟨Cert.ReferenceIdeal.S64x128, .f32⟩ : BufTy).Contents (Elt Ideal))
    (hs : V c main_v58 = Cert.ReferenceIdeal.ReadP.val_main_v93 (F := Ideal) x0 x1 x2 x3 x4) (hb : V c main_v59 = shapeCast _ x5 shapeCasts_S64_S1x64) (hw : V c main_arg6 = x6) (t : Fin cfg2.N) :
    (dat2 V c).flushed 3 t = ((cfg2.win 3).blk t).view.read (Elt Ideal) (Cert.ReferenceIdeal.ReadP.val_main_v98 (F := Ideal) x0 x1 x2 x3 x4 x5 x6) := by
  have key : ∀ (S : (⟨Cert.ReferenceIdeal.S50000x64, .f32⟩ : BufTy).Contents (Elt Ideal)) (G : (⟨Cert.ReferenceIdeal.S50000x128, .f32⟩ : BufTy).Contents (Elt Ideal)),
      V c main_v58 = S →
      (∀ i, G i = ∑ k : Fin 64, max (S (Cert.ReferenceIdeal.ReadP.lidx_main_v98 i k) + x5 (biasVec2 k)) (Ideal.ofBits .f32 0x00000000#32) * x6 (Cert.ReferenceIdeal.ReadP.ridx_main_v98 i k)) →
      (dat2 V c).flushed 3 t = ((cfg2.win 3).blk t).view.read (Elt Ideal) G := by
    intro S G hS hG
    show (cfg2.win 3).cut (grid2.coords t) ((dat2 V c).after 3 t) = _
    rw [after2_3]
    unfold out2_3
    rw [View.canon_unit_zero zero_offsets2]
    simp only [View.ld_unit_zero (S := S10000x64) zero_offsets2, View.ld_unit_zero (S := S1x64) zero_offsets2, View.ld_unit_zero (S := S64x128) zero_offsets2]
    obtain ⟨e0, e1, e2, e3, e4, e5, e6, e7⟩ := blocks2 t
    refine funext fun (j : S10000x128.Idx) => ?_
    show k2_pay1 (iblk2 V c 0 t) (iblk2 V c 1 t) (iblk2 V c 2 t) j = G (((cfg2.win 3).blk t).view.emb j)
    rw [hG]
    refine (body2_apply (iblk2 V c 0 t) (iblk2 V c 1 t) (iblk2 V c 2 t) j).trans (Finset.sum_congr rfl fun k _ => ?_)
    have h1 : iblk2 V c 0 t (rowAt64x128 j k) = S (Cert.ReferenceIdeal.ReadP.lidx_main_v98 (((cfg2.win 3).blk t).view.emb j) k) := by
      show V c main_v58 (((cfg2.win 0).blk t).view.emb (rowAt64x128 j k)) = _
      rw [hS]
      refine congrArg S (funext fun a => Fin.ext ?_)
      match a with
      | ⟨0, _⟩ => show win2_0.index t (0 : Fin 2) * 10000 + 1 * (j 0).val = win2_3.index t (0 : Fin 2) * 10000 + 1 * (j 0).val; omega
      | ⟨1, _⟩ => show win2_0.index t (1 : Fin 2) * 64 + 1 * k.val = k.val; omega
    have h2 : iblk2 V c 1 t (biasRow2 k) = x5 (biasVec2 k) := by
      show V c main_v59 (((cfg2.win 1).blk t).view.emb (biasRow2 k)) = _
      rw [hb]
      refine shapeCast_apply x5 shapeCasts_S64_S1x64 _ (biasVec2 k) ?_
      rewrite [Shape.rowMajor_val_one, Shape.rowMajor_val_two]
      show k.val = (win2_1.index t (0 : Fin 2) * 1 + 1 * 0) * 64 + (win2_1.index t (1 : Fin 2) * 64 + 1 * k.val)
      omega
    have h3 : iblk2 V c 2 t (colAt64x128 j k) = x6 (Cert.ReferenceIdeal.ReadP.ridx_main_v98 (((cfg2.win 3).blk t).view.emb j) k) := by
      show V c main_arg6 (((cfg2.win 2).blk t).view.emb (colAt64x128 j k)) = _
      rw [hw]
      refine congrArg x6 (funext fun a => Fin.ext ?_)
      match a with
      | ⟨0, _⟩ => show win2_2.index t (0 : Fin 2) * 64 + 1 * k.val = k.val; omega
      | ⟨1, _⟩ => show win2_2.index t (1 : Fin 2) * 128 + 1 * (j 1).val = win2_3.index t (1 : Fin 2) * 128 + 1 * (j 1).val; omega
    rw [h1, h2, h3]
  exact key _ _ hs (fun i => layer2_apply x0 x1 x2 x3 x4 x5 x6 i)

/-- An index of the result array is in grid point `t`'s block iff each coordinate is in the block's range. -/
theorem in_block2 (t : Fin cfg2.N) (i : S50000x128.Idx) :
    i ∈ ((cfg2.win 3).blk t).view.set ↔ ∀ a : Fin 2, win2_3.index t a * S10000x128.size a ≤ (i a).val ∧ (i a).val < win2_3.index t a * S10000x128.size a + S10000x128.size a := by
  show i ∈ ((View.whole main_v60).slice (win2_3.rect t)).set ↔ _
  rw [View.set_slice_whole, Rect.mem_set_unit]
  exact Iff.rfl

/-- Row r lies in the block of grid point r / 10000: the five write-backs cover the array. -/
theorem covered2 (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  obtain ⟨t, ht⟩ := blocks2_onto ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  rw [in_block2]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 128 ≤ (i 1).val ∧ (i 1).val < win2_3.index t (1 : Fin 2) * 128 + 128; omega

/-- THE ARRAY after the third kernel: the reference's stage relu(s + b) · W. -/
theorem region2_value (c : Dev nD) (x0 : (⟨Cert.ReferenceIdeal.S50000x16, .f32⟩ : BufTy).Contents (Elt Ideal)) (x1 : (⟨Cert.ReferenceIdeal.S2x800000, .i32⟩ : BufTy).Contents (Elt Ideal)) (x2 : (⟨Cert.ReferenceIdeal.S16x32, .f32⟩ : BufTy).Contents (Elt Ideal)) (x3 : (⟨Cert.ReferenceIdeal.S32, .f32⟩ : BufTy).Contents (Elt Ideal)) (x4 : (⟨Cert.ReferenceIdeal.S32x64, .f32⟩ : BufTy).Contents (Elt Ideal)) (x5 : (⟨Cert.ReferenceIdeal.S64, .f32⟩ : BufTy).Contents (Elt Ideal)) (x6 : (⟨Cert.ReferenceIdeal.S64x128, .f32⟩ : BufTy).Contents (Elt Ideal))
    (hs : V c main_v58 = Cert.ReferenceIdeal.ReadP.val_main_v93 (F := Ideal) x0 x1 x2 x3 x4) (hb : V c main_v59 = shapeCast _ x5 shapeCasts_S64_S1x64) (hw : V c main_arg6 = x6) :
    (dat2 V c).arrAt 3 cfg2.N = Cert.ReferenceIdeal.ReadP.val_main_v98 (F := Ideal) x0 x1 x2 x3 x4 x5 x6 :=
  (dat2 V c).arrAt_eq_of_cover 3 _ (fun t _ => written2 V c x0 x1 x2 x3 x4 x5 x6 hs hb hw t) (fun i => covered2 i)

end Cert.KernelIdeal.Bridge

end
-- ==== Proof.Region3.lean ====
/-
  The fourth kernel: the head.  On a block of 10000 rows it takes y = relu(s + b3) and then three times
  relu(y · W + b), with the widths 128 → 64 → 32 → 16.  Every step works row by row, so a block vector that agrees with
  the reference's stage on the rows of block q still agrees after the step: max(· + bias, 0) against the reference's
  bias add and relu, a block product against the reference's matrix product.  Seven steps lead from the scatter-sum
  to the result; grid point t writes back the rows of block t, and the five write-backs cover the 50000 rows.
-/
import proofs.«118536_j17815524344480_1_alg».proof.Proof.Gen.KernelIdeal.Frame
import proofs.«118536_j17815524344480_1_alg».proof.Proof.RefRead
import proofs.«118536_j17815524344480_1_alg».proof.Proof.BlockProducts
import Idealize.ShloMosaic.Lib.Pipeline.Value

set_option maxRecDepth 16384

noncomputable section

namespace Cert.KernelIdeal.Bridge

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero_offsets3 : (![0, 0] : Fin 2 → Nat) = fun _ => 0 := funext fun a => by fin_cases a <;> rfl

/-- Row `p 0` of block `q` is row `10000·q + p 0` of the whole 128-wide array. -/
abbrev liftRow128 (q : Nat) (hq : q ≤ 4) (p : S10000x128.Idx) : Cert.ReferenceIdeal.S50000x128.Idx := fun a => match a with
  | ⟨0, _⟩ => ⟨q * 10000 + (p 0).val, by have h : (p 0).val < 10000 := (p 0).isLt; show q * 10000 + (p 0).val < 50000; omega⟩
  | ⟨1, _⟩ => ⟨(p 1).val, (p 1).isLt⟩
/-- Entry `k` of a 1×128 bias row, and of the 128-vector it was reshaped from. -/
abbrev headRow128 (k : Fin 128) : S1x128.Idx := fun a => match a with
  | ⟨0, _⟩ => ⟨0, Nat.one_pos⟩
  | ⟨1, _⟩ => ⟨k.val, k.isLt⟩
abbrev headVec128 (k : Fin 128) : Cert.ReferenceIdeal.S128.Idx := fun a => match a with
  | ⟨0, _⟩ => ⟨k.val, k.isLt⟩

/-- Row `p 0` of block `q` is row `10000·q + p 0` of the whole 64-wide array. -/
abbrev liftRow64 (q : Nat) (hq : q ≤ 4) (p : S10000x64.Idx) : Cert.ReferenceIdeal.S50000x64.Idx := fun a => match a with
  | ⟨0, _⟩ => ⟨q * 10000 + (p 0).val, by have h : (p 0).val < 10000 := (p 0).isLt; show q * 10000 + (p 0).val < 50000; omega⟩
  | ⟨1, _⟩ => ⟨(p 1).val, (p 1).isLt⟩
/-- Entry `k` of a 1×64 bias row, and of the 64-vector it was reshaped from. -/
abbrev headRow64 (k : Fin 64) : S1x64.Idx := fun a => match a with
  | ⟨0, _⟩ => ⟨0, Nat.one_pos⟩
  | ⟨1, _⟩ => ⟨k.val, k.isLt⟩
abbrev headVec64 (k : Fin 64) : Cert.ReferenceIdeal.S64.Idx := fun a => match a with
  | ⟨0, _⟩ => ⟨k.val, k.isLt⟩

/-- Row `p 0` of block `q` is row `10000·q + p 0` of the whole 32-wide array. -/
abbrev liftRow32 (q : Nat) (hq : q ≤ 4) (p : S10000x32.Idx) : Cert.ReferenceIdeal.S50000x32.Idx := fun a => match a with
  | ⟨0, _⟩ => ⟨q * 10000 + (p 0).val, by have h : (p 0).val < 10000 := (p 0).isLt; show q * 10000 + (p 0).val < 50000; omega⟩
  | ⟨1, _⟩ => ⟨(p 1).val, (p 1).isLt⟩
/-- Entry `k` of a 1×32 bias row, and of the 32-vector it was reshaped from. -/
abbrev headRow32 (k : Fin 32) : S1x32.Idx := fun a => match a with
  | ⟨0, _⟩ => ⟨0, Nat.one_pos⟩
  | ⟨1, _⟩ => ⟨k.val, k.isLt⟩
abbrev headVec32 (k : Fin 32) : Cert.ReferenceIdeal.S32.Idx := fun a => match a with
  | ⟨0, _⟩ => ⟨k.val, k.isLt⟩

/-- Row `p 0` of block `q` is row `10000·q + p 0` of the whole 16-wide array. -/
abbrev liftRow16 (q : Nat) (hq : q ≤ 4) (p : S10000x16.Idx) : Cert.ReferenceIdeal.S50000x16.Idx := fun a => match a with
  | ⟨0, _⟩ => ⟨q * 10000 + (p 0).val, by have h : (p 0).val < 10000 := (p 0).isLt; show q * 10000 + (p 0).val < 50000; omega⟩
  | ⟨1, _⟩ => ⟨(p 1).val, (p 1).isLt⟩
/-- Entry `k` of a 1×16 bias row, and of the 16-vector it was reshaped from. -/
abbrev headRow16 (k : Fin 16) : S1x16.Idx := fun a => match a with
  | ⟨0, _⟩ => ⟨0, Nat.one_pos⟩
  | ⟨1, _⟩ => ⟨k.val, k.isLt⟩
abbrev headVec16 (k : Fin 16) : Cert.ReferenceIdeal.S16.Idx := fun a => match a with
  | ⟨0, _⟩ => ⟨k.val, k.isLt⟩

/-! ## The seven steps -/

/-- The third layer's bias and relu: if a block vector agrees with the reference's stage on the rows of block `q`, and the block's bias row is
    the bias vector, then max(u + bias, 0) agrees with the reference's bias add and relu on those rows. -/
theorem step_v146 (x0 : (⟨Cert.ReferenceIdeal.S50000x16, .f32⟩ : BufTy).Contents (Elt Ideal)) (x1 : (⟨Cert.ReferenceIdeal.S2x800000, .i32⟩ : BufTy).Contents (Elt Ideal)) (x2 : (⟨Cert.ReferenceIdeal.S16x32, .f32⟩ : BufTy).Contents (Elt Ideal)) (x3 : (⟨Cert.ReferenceIdeal.S32, .f32⟩ : BufTy).Contents (Elt Ideal)) (x4 : (⟨Cert.ReferenceIdeal.S32x64, .f32⟩ : BufTy).Contents (Elt Ideal)) (x5 : (⟨Cert.ReferenceIdeal.S64, .f32⟩ : BufTy).Contents (Elt Ideal)) (x6 : (⟨Cert.ReferenceIdeal.S64x128, .f32⟩ : BufTy).Contents (Elt Ideal)) (x7 : (⟨Cert.ReferenceIdeal.S128, .f32⟩ : BufTy).Contents (Elt Ideal)) (q : Nat) (hq : q ≤ 4)
    (u : FVec Ideal S10000x128 .f32) (b : Vec Ideal S1x128 .f32)
    (hu : ∀ p : S10000x128.Idx, u p = Cert.ReferenceIdeal.ReadP.val_main_v142 (F := Ideal) x0 x1 x2 x3 x4 x5 x6 (liftRow128 q hq p))
    (hb : ∀ k : Fin 128, b (headRow128 k) = x7 (headVec128 k)) (p : S10000x128.Idx) :
    (maximumf (addf u (broadcastTo S10000x128 (shapeCast S1x128 b shapeCasts_S1x128_S1x128) broadcasts_S1x128_S10000x128))
      (broadcast S10000x128 (Scalar.ofBits .f32 0x00000000#32))) p
    = Cert.ReferenceIdeal.ReadP.val_main_v146 (F := Ideal) x0 x1 x2 x3 x4 x5 x6 x7 (liftRow128 q hq p) := by
  show max (u p + (broadcastTo S10000x128 (shapeCast S1x128 b shapeCasts_S1x128_S1x128) broadcasts_S1x128_S10000x128) p) (Ideal.ofBits .f32 0x00000000#32) = _
  have e : Cert.ReferenceIdeal.ReadP.idx_main_v143 (Cert.ReferenceIdeal.ReadP.idx_main_v144 (liftRow128 q hq p)) = headVec128 ⟨(p 1).val, (p 1).isLt⟩ :=
    funext fun a => Fin.ext (by match a with | ⟨0, _⟩ => rfl)
  rw [Cert.ReferenceIdeal.ReadP.val_main_v146_apply, Cert.ReferenceIdeal.ReadP.val_main_v145_apply, Cert.ReferenceIdeal.ReadP.val_main_v144_apply, Cert.ReferenceIdeal.ReadP.val_main_v143_apply,
    Cert.ReferenceIdeal.ReadP.val_main_call5_v0_apply, Cert.ReferenceIdeal.ReadP.val_main_call5_cst_apply, e,
    shapeCast_self, broadcastTo_apply b broadcasts_S1x128_S10000x128 p (headRow128 ⟨(p 1).val, (p 1).isLt⟩) (fun a => match a with
      | ⟨0, _⟩ => by show 0 = if (1 : Nat) = 1 then 0 else (p 0).val; rw [if_pos rfl]
      | ⟨1, _⟩ => by show (p 1).val = if (128 : Nat) = 1 then 0 else (p 1).val; rw [if_neg (by decide)]),
    hu, hb]
  rfl

/-- The head's first product: if a block vector agrees with the reference's stage on the rows of block `q` and the weight block is the
    whole weight, their block product agrees with the reference's matrix product on those rows. -/
theorem step_v147 (x0 : (⟨Cert.ReferenceIdeal.S50000x16, .f32⟩ : BufTy).Contents (Elt Ideal)) (x1 : (⟨Cert.ReferenceIdeal.S2x800000, .i32⟩ : BufTy).Contents (Elt Ideal)) (x2 : (⟨Cert.ReferenceIdeal.S16x32, .f32⟩ : BufTy).Contents (Elt Ideal)) (x3 : (⟨Cert.ReferenceIdeal.S32, .f32⟩ : BufTy).Contents (Elt Ideal)) (x4 : (⟨Cert.ReferenceIdeal.S32x64, .f32⟩ : BufTy).Contents (Elt Ideal)) (x5 : (⟨Cert.ReferenceIdeal.S64, .f32⟩ : BufTy).Contents (Elt Ideal)) (x6 : (⟨Cert.ReferenceIdeal.S64x128, .f32⟩ : BufTy).Contents (Elt Ideal)) (x7 : (⟨Cert.ReferenceIdeal.S128, .f32⟩ : BufTy).Contents (Elt Ideal)) (x8 : (⟨Cert.ReferenceIdeal.S128x64, .f32⟩ : BufTy).Contents (Elt Ideal)) (q : Nat) (hq : q ≤ 4)
    (y : FVec Ideal S10000x128 .f32) (w : Vec Ideal S128x64 .f32)
    (hy : ∀ p : S10000x128.Idx, y p = Cert.ReferenceIdeal.ReadP.val_main_v146 (F := Ideal) x0 x1 x2 x3 x4 x5 x6 x7 (liftRow128 q hq p))
    (hw : ∀ p : S128x64.Idx, w p = x8 p) (j : S10000x64.Idx) :
    matmul dot_S10000x128_S128x64_S10000x64_1_0_0_1_n_n none (truncf .bf16 y bitsLt_bf16_f32) (truncf .bf16 w bitsLt_bf16_f32)
      (constant S10000x64 .f32 0x00000000#32) j
    = Cert.ReferenceIdeal.ReadP.val_main_v147 (F := Ideal) x0 x1 x2 x3 x4 x5 x6 x7 x8 (liftRow64 q hq j) := by
  rw [Cert.ReferenceIdeal.ReadP.val_main_v147_apply]
  refine (matmul128x64_apply _ _ j).trans (Finset.sum_congr rfl fun k _ => ?_)
  show y (rowAt128x64 j k) * w (colAt128x64 j k) = _
  rw [hy, hw]
  have e1 : liftRow128 q hq (rowAt128x64 j k) = Cert.ReferenceIdeal.ReadP.lidx_main_v147 (liftRow64 q hq j) k :=
    funext fun a => Fin.ext (by match a with | ⟨0, _⟩ => rfl | ⟨1, _⟩ => rfl)
  have e2 : colAt128x64 j k = Cert.ReferenceIdeal.ReadP.ridx_main_v147 (liftRow64 q hq j) k :=
    funext fun a => Fin.ext (by match a with | ⟨0, _⟩ => rfl | ⟨1, _⟩ => rfl)
  rw [e1, e2]

/-- The head's first bias and relu: if a block vector agrees with the reference's stage on the rows of block `q`, and the block's bias row is
    the bias vector, then max(u + bias, 0) agrees with the reference's bias add and relu on those rows. -/
theorem step_v151 (x0 : (⟨Cert.ReferenceIdeal.S50000x16, .f32⟩ : BufTy).Contents (Elt Ideal)) (x1 : (⟨Cert.ReferenceIdeal.S2x800000, .i32⟩ : BufTy).Contents (Elt Ideal)) (x2 : (⟨Cert.ReferenceIdeal.S16x32, .f32⟩ : BufTy).Contents (Elt Ideal)) (x3 : (⟨Cert.ReferenceIdeal.S32, .f32⟩ : BufTy).Contents (Elt Ideal)) (x4 : (⟨Cert.ReferenceIdeal.S32x64, .f32⟩ : BufTy).Contents (Elt Ideal)) (x5 : (⟨Cert.ReferenceIdeal.S64, .f32⟩ : BufTy).Contents (Elt Ideal)) (x6 : (⟨Cert.ReferenceIdeal.S64x128, .f32⟩ : BufTy).Contents (Elt Ideal)) (x7 : (⟨Cert.ReferenceIdeal.S128, .f32⟩ : BufTy).Contents (Elt Ideal)) (x8 : (⟨Cert.ReferenceIdeal.S128x64, .f32⟩ : BufTy).Contents (Elt Ideal)) (x9 : (⟨Cert.ReferenceIdeal.S64, .f32⟩ : BufTy).Contents (Elt Ideal)) (q : Nat) (hq : q ≤ 4)
    (u : FVec Ideal S10000x64 .f32) (b : Vec Ideal S1x64 .f32)
    (hu : ∀ p : S10000x64.Idx, u p = Cert.ReferenceIdeal.ReadP.val_main_v147 (F := Ideal) x0 x1 x2 x3 x4 x5 x6 x7 x8 (liftRow64 q hq p))
    (hb : ∀ k : Fin 64, b (headRow64 k) = x9 (headVec64 k)) (p : S10000x64.Idx) :
    (maximumf (addf u (broadcastTo S10000x64 (shapeCast S1x64 b shapeCasts_S1x64_S1x64) broadcasts_S1x64_S10000x64))
      (broadcast S10000x64 (Scalar.ofBits .f32 0x00000000#32))) p
    = Cert.ReferenceIdeal.ReadP.val_main_v151 (F := Ideal) x0 x1 x2 x3 x4 x5 x6 x7 x8 x9 (liftRow64 q hq p) := by
  show max (u p + (broadcastTo S10000x64 (shapeCast S1x64 b shapeCasts_S1x64_S1x64) broadcasts_S1x64_S10000x64) p) (Ideal.ofBits .f32 0x00000000#32) = _
  have e : Cert.ReferenceIdeal.ReadP.idx_main_v148 (Cert.ReferenceIdeal.ReadP.idx_main_v149 (liftRow64 q hq p)) = headVec64 ⟨(p 1).val, (p 1).isLt⟩ :=
    funext fun a => Fin.ext (by match a with | ⟨0, _⟩ => rfl)
  rw [Cert.ReferenceIdeal.ReadP.val_main_v151_apply, Cert.ReferenceIdeal.ReadP.val_main_v150_apply, Cert.ReferenceIdeal.ReadP.val_main_v149_apply, Cert.ReferenceIdeal.ReadP.val_main_v148_apply,
    Cert.ReferenceIdeal.ReadP.val_main_call6_v0_apply, Cert.ReferenceIdeal.ReadP.val_main_call6_cst_apply, e,
    shapeCast_self, broadcastTo_apply b broadcasts_S1x64_S10000x64 p (headRow64 ⟨(p 1).val, (p 1).isLt⟩) (fun a => match a with
      | ⟨0, _⟩ => by show 0 = if (1 : Nat) = 1 then 0 else (p 0).val; rw [if_pos rfl]
      | ⟨1, _⟩ => by show (p 1).val = if (64 : Nat) = 1 then 0 else (p 1).val; rw [if_neg (by decide)]),
    hu, hb]
  rfl

/-- The head's second product: if a block vector agrees with the reference's stage on the rows of block `q` and the weight block is the
    whole weight, their block product agrees with the reference's matrix product on those rows. -/
theorem step_v152 (x0 : (⟨Cert.ReferenceIdeal.S50000x16, .f32⟩ : BufTy).Contents (Elt Ideal)) (x1 : (⟨Cert.ReferenceIdeal.S2x800000, .i32⟩ : BufTy).Contents (Elt Ideal)) (x2 : (⟨Cert.ReferenceIdeal.S16x32, .f32⟩ : BufTy).Contents (Elt Ideal)) (x3 : (⟨Cert.ReferenceIdeal.S32, .f32⟩ : BufTy).Contents (Elt Ideal)) (x4 : (⟨Cert.ReferenceIdeal.S32x64, .f32⟩ : BufTy).Contents (Elt Ideal)) (x5 : (⟨Cert.ReferenceIdeal.S64, .f32⟩ : BufTy).Contents (Elt Ideal)) (x6 : (⟨Cert.ReferenceIdeal.S64x128, .f32⟩ : BufTy).Contents (Elt Ideal)) (x7 : (⟨Cert.ReferenceIdeal.S128, .f32⟩ : BufTy).Contents (Elt Ideal)) (x8 : (⟨Cert.ReferenceIdeal.S128x64, .f32⟩ : BufTy).Contents (Elt Ideal)) (x9 : (⟨Cert.ReferenceIdeal.S64, .f32⟩ : BufTy).Contents (Elt Ideal)) (x10 : (⟨Cert.ReferenceIdeal.S64x32, .f32⟩ : BufTy).Contents (Elt Ideal)) (q : Nat) (hq : q ≤ 4)
    (y : FVec Ideal S10000x64 .f32) (w : Vec Ideal S64x32 .f32)
    (hy : ∀ p : S10000x64.Idx, y p = Cert.ReferenceIdeal.ReadP.val_main_v151 (F := Ideal) x0 x1 x2 x3 x4 x5 x6 x7 x8 x9 (liftRow64 q hq p))
    (hw : ∀ p : S64x32.Idx, w p = x10 p) (j : S10000x32.Idx) :
    matmul dot_S10000x64_S64x32_S10000x32_1_0_0_1_n_n none (truncf .bf16 y bitsLt_bf16_f32) (truncf .bf16 w bitsLt_bf16_f32)
      (constant S10000x32 .f32 0x00000000#32) j
    = Cert.ReferenceIdeal.ReadP.val_main_v152 (F := Ideal) x0 x1 x2 x3 x4 x5 x6 x7 x8 x9 x10 (liftRow32 q hq j) := by
  rw [Cert.ReferenceIdeal.ReadP.val_main_v152_apply]
  refine (matmul64x32_apply _ _ j).trans (Finset.sum_congr rfl fun k _ => ?_)
  show y (rowAt64x32 j k) * w (colAt64x32 j k) = _
  rw [hy, hw]
  have e1 : liftRow64 q hq (rowAt64x32 j k) = Cert.ReferenceIdeal.ReadP.lidx_main_v152 (liftRow32 q hq j) k :=
    funext fun a => Fin.ext (by match a with | ⟨0, _⟩ => rfl | ⟨1, _⟩ => rfl)
  have e2 : colAt64x32 j k = Cert.ReferenceIdeal.ReadP.ridx_main_v152 (liftRow32 q hq j) k :=
    funext fun a => Fin.ext (by match a with | ⟨0, _⟩ => rfl | ⟨1, _⟩ => rfl)
  rw [e1, e2]

/-- The head's second bias and relu: if a block vector agrees with the reference's stage on the rows of block `q`, and the block's bias row is
    the bias vector, then max(u + bias, 0) agrees with the reference's bias add and relu on those rows. -/
theorem step_v156 (x0 : (⟨Cert.ReferenceIdeal.S50000x16, .f32⟩ : BufTy).Contents (Elt Ideal)) (x1 : (⟨Cert.ReferenceIdeal.S2x800000, .i32⟩ : BufTy).Contents (Elt Ideal)) (x2 : (⟨Cert.ReferenceIdeal.S16x32, .f32⟩ : BufTy).Contents (Elt Ideal)) (x3 : (⟨Cert.ReferenceIdeal.S32, .f32⟩ : BufTy).Contents (Elt Ideal)) (x4 : (⟨Cert.ReferenceIdeal.S32x64, .f32⟩ : BufTy).Contents (Elt Ideal)) (x5 : (⟨Cert.ReferenceIdeal.S64, .f32⟩ : BufTy).Contents (Elt Ideal)) (x6 : (⟨Cert.ReferenceIdeal.S64x128, .f32⟩ : BufTy).Contents (Elt Ideal)) (x7 : (⟨Cert.ReferenceIdeal.S128, .f32⟩ : BufTy).Contents (Elt Ideal)) (x8 : (⟨Cert.ReferenceIdeal.S128x64, .f32⟩ : BufTy).Contents (Elt Ideal)) (x9 : (⟨Cert.ReferenceIdeal.S64, .f32⟩ : BufTy).Contents (Elt Ideal)) (x10 : (⟨Cert.ReferenceIdeal.S64x32, .f32⟩ : BufTy).Contents (Elt Ideal)) (x11 : (⟨Cert.ReferenceIdeal.S32, .f32⟩ : BufTy).Contents (Elt Ideal)) (q : Nat) (hq : q ≤ 4)
    (u : FVec Ideal S10000x32 .f32) (b : Vec Ideal S1x32 .f32)
    (hu : ∀ p : S10000x32.Idx, u p = Cert.ReferenceIdeal.ReadP.val_main_v152 (F := Ideal) x0 x1 x2 x3 x4 x5 x6 x7 x8 x9 x10 (liftRow32 q hq p))
    (hb : ∀ k : Fin 32, b (headRow32 k) = x11 (headVec32 k)) (p : S10000x32.Idx) :
    (maximumf (addf u (broadcastTo S10000x32 (shapeCast S1x32 b shapeCasts_S1x32_S1x32) broadcasts_S1x32_S10000x32))
      (broadcast S10000x32 (Scalar.ofBits .f32 0x00000000#32))) p
    = Cert.ReferenceIdeal.ReadP.val_main_v156 (F := Ideal) x0 x1 x2 x3 x4 x5 x6 x7 x8 x9 x10 x11 (liftRow32 q hq p) := by
  show max (u p + (broadcastTo S10000x32 (shapeCast S1x32 b shapeCasts_S1x32_S1x32) broadcasts_S1x32_S10000x32) p) (Ideal.ofBits .f32 0x00000000#32) = _
  have e : Cert.ReferenceIdeal.ReadP.idx_main_v153 (Cert.ReferenceIdeal.ReadP.idx_main_v154 (liftRow32 q hq p)) = headVec32 ⟨(p 1).val, (p 1).isLt⟩ :=
    funext fun a => Fin.ext (by match a with | ⟨0, _⟩ => rfl)
  rw [Cert.ReferenceIdeal.ReadP.val_main_v156_apply, Cert.ReferenceIdeal.ReadP.val_main_v155_apply, Cert.ReferenceIdeal.ReadP.val_main_v154_apply, Cert.ReferenceIdeal.ReadP.val_main_v153_apply,
    Cert.ReferenceIdeal.ReadP.val_main_call7_v0_apply, Cert.ReferenceIdeal.ReadP.val_main_call7_cst_apply, e,
    shapeCast_self, broadcastTo_apply b broadcasts_S1x32_S10000x32 p (headRow32 ⟨(p 1).val, (p 1).isLt⟩) (fun a => match a with
      | ⟨0, _⟩ => by show 0 = if (1 : Nat) = 1 then 0 else (p 0).val; rw [if_pos rfl]
      | ⟨1, _⟩ => by show (p 1).val = if (32 : Nat) = 1 then 0 else (p 1).val; rw [if_neg (by decide)]),
    hu, hb]
  rfl

/-- The head's third product: if a block vector agrees with the reference's stage on the rows of block `q` and the weight block is the
    whole weight, their block product agrees with the reference's matrix product on those rows. -/
theorem step_v157 (x0 : (⟨Cert.ReferenceIdeal.S50000x16, .f32⟩ : BufTy).Contents (Elt Ideal)) (x1 : (⟨Cert.ReferenceIdeal.S2x800000, .i32⟩ : BufTy).Contents (Elt Ideal)) (x2 : (⟨Cert.ReferenceIdeal.S16x32, .f32⟩ : BufTy).Contents (Elt Ideal)) (x3 : (⟨Cert.ReferenceIdeal.S32, .f32⟩ : BufTy).Contents (Elt Ideal)) (x4 : (⟨Cert.ReferenceIdeal.S32x64, .f32⟩ : BufTy).Contents (Elt Ideal)) (x5 : (⟨Cert.ReferenceIdeal.S64, .f32⟩ : BufTy).Contents (Elt Ideal)) (x6 : (⟨Cert.ReferenceIdeal.S64x128, .f32⟩ : BufTy).Contents (Elt Ideal)) (x7 : (⟨Cert.ReferenceIdeal.S128, .f32⟩ : BufTy).Contents (Elt Ideal)) (x8 : (⟨Cert.ReferenceIdeal.S128x64, .f32⟩ : BufTy).Contents (Elt Ideal)) (x9 : (⟨Cert.ReferenceIdeal.S64, .f32⟩ : BufTy).Contents (Elt Ideal)) (x10 : (⟨Cert.ReferenceIdeal.S64x32, .f32⟩ : BufTy).Contents (Elt Ideal)) (x11 : (⟨Cert.ReferenceIdeal.S32, .f32⟩ : BufTy).Contents (Elt Ideal)) (x12 : (⟨Cert.ReferenceIdeal.S32x16, .f32⟩ : BufTy).Contents (Elt Ideal)) (q : Nat) (hq : q ≤ 4)
    (y : FVec Ideal S10000x32 .f32) (w : Vec Ideal S32x16 .f32)
    (hy : ∀ p : S10000x32.Idx, y p = Cert.ReferenceIdeal.ReadP.val_main_v156 (F := Ideal) x0 x1 x2 x3 x4 x5 x6 x7 x8 x9 x10 x11 (liftRow32 q hq p))
    (hw : ∀ p : S32x16.Idx, w p = x12 p) (j : S10000x16.Idx) :
    matmul dot_S10000x32_S32x16_S10000x16_1_0_0_1_n_n none (truncf .bf16 y bitsLt_bf16_f32) (truncf .bf16 w bitsLt_bf16_f32)
      (constant S10000x16 .f32 0x00000000#32) j
    = Cert.ReferenceIdeal.ReadP.val_main_v157 (F := Ideal) x0 x1 x2 x3 x4 x5 x6 x7 x8 x9 x10 x11 x12 (liftRow16 q hq j) := by
  rw [Cert.ReferenceIdeal.ReadP.val_main_v157_apply]
  refine (matmul32x16_apply _ _ j).trans (Finset.sum_congr rfl fun k _ => ?_)
  show y (rowAt32x16 j k) * w (colAt32x16 j k) = _
  rw [hy, hw]
  have e1 : liftRow32 q hq (rowAt32x16 j k) = Cert.ReferenceIdeal.ReadP.lidx_main_v157 (liftRow16 q hq j) k :=
    funext fun a => Fin.ext (by match a with | ⟨0, _⟩ => rfl | ⟨1, _⟩ => rfl)
  have e2 : colAt32x16 j k = Cert.ReferenceIdeal.ReadP.ridx_main_v157 (liftRow16 q hq j) k :=
    funext fun a => Fin.ext (by match a with | ⟨0, _⟩ => rfl | ⟨1, _⟩ => rfl)
  rw [e1, e2]

/-- The head's last bias and relu: if a block vector agrees with the reference's stage on the rows of block `q`, and the block's bias row is
    the bias vector, then max(u + bias, 0) agrees with the reference's bias add and relu on those rows. -/
theorem step_v161 (x0 : (⟨Cert.ReferenceIdeal.S50000x16, .f32⟩ : BufTy).Contents (Elt Ideal)) (x1 : (⟨Cert.ReferenceIdeal.S2x800000, .i32⟩ : BufTy).Contents (Elt Ideal)) (x2 : (⟨Cert.ReferenceIdeal.S16x32, .f32⟩ : BufTy).Contents (Elt Ideal)) (x3 : (⟨Cert.ReferenceIdeal.S32, .f32⟩ : BufTy).Contents (Elt Ideal)) (x4 : (⟨Cert.ReferenceIdeal.S32x64, .f32⟩ : BufTy).Contents (Elt Ideal)) (x5 : (⟨Cert.ReferenceIdeal.S64, .f32⟩ : BufTy).Contents (Elt Ideal)) (x6 : (⟨Cert.ReferenceIdeal.S64x128, .f32⟩ : BufTy).Contents (Elt Ideal)) (x7 : (⟨Cert.ReferenceIdeal.S128, .f32⟩ : BufTy).Contents (Elt Ideal)) (x8 : (⟨Cert.ReferenceIdeal.S128x64, .f32⟩ : BufTy).Contents (Elt Ideal)) (x9 : (⟨Cert.ReferenceIdeal.S64, .f32⟩ : BufTy).Contents (Elt Ideal)) (x10 : (⟨Cert.ReferenceIdeal.S64x32, .f32⟩ : BufTy).Contents (Elt Ideal)) (x11 : (⟨Cert.ReferenceIdeal.S32, .f32⟩ : BufTy).Contents (Elt Ideal)) (x12 : (⟨Cert.ReferenceIdeal.S32x16, .f32⟩ : BufTy).Contents (Elt Ideal)) (x13 : (⟨Cert.ReferenceIdeal.S16, .f32⟩ : BufTy).Contents (Elt Ideal)) (q : Nat) (hq : q ≤ 4)
    (u : FVec Ideal S10000x16 .f32) (b : Vec Ideal S1x16 .f32)
    (hu : ∀ p : S10000x16.Idx, u p = Cert.ReferenceIdeal.ReadP.val_main_v157 (F := Ideal) x0 x1 x2 x3 x4 x5 x6 x7 x8 x9 x10 x11 x12 (liftRow16 q hq p))
    (hb : ∀ k : Fin 16, b (headRow16 k) = x13 (headVec16 k)) (p : S10000x16.Idx) :
    (maximumf (addf u (broadcastTo S10000x16 (shapeCast S1x16 b shapeCasts_S1x16_S1x16) broadcasts_S1x16_S10000x16))
      (broadcast S10000x16 (Scalar.ofBits .f32 0x00000000#32))) p
    = Cert.ReferenceIdeal.ReadP.val_main_v161 (F := Ideal) x0 x1 x2 x3 x4 x5 x6 x7 x8 x9 x10 x11 x12 x13 (liftRow16 q hq p) := by
  show max (u p + (broadcastTo S10000x16 (shapeCast S1x16 b shapeCasts_S1x16_S1x16) broadcasts_S1x16_S10000x16) p) (Ideal.ofBits .f32 0x00000000#32) = _
  have e : Cert.ReferenceIdeal.ReadP.idx_main_v158 (Cert.ReferenceIdeal.ReadP.idx_main_v159 (liftRow16 q hq p)) = headVec16 ⟨(p 1).val, (p 1).isLt⟩ :=
    funext fun a => Fin.ext (by match a with | ⟨0, _⟩ => rfl)
  rw [Cert.ReferenceIdeal.ReadP.val_main_v161_apply, Cert.ReferenceIdeal.ReadP.val_main_v160_apply, Cert.ReferenceIdeal.ReadP.val_main_v159_apply, Cert.ReferenceIdeal.ReadP.val_main_v158_apply,
    Cert.ReferenceIdeal.ReadP.val_main_call8_v0_apply, Cert.ReferenceIdeal.ReadP.val_main_call8_cst_apply, e,
    shapeCast_self, broadcastTo_apply b broadcasts_S1x16_S10000x16 p (headRow16 ⟨(p 1).val, (p 1).isLt⟩) (fun a => match a with
      | ⟨0, _⟩ => by show 0 = if (1 : Nat) = 1 then 0 else (p 0).val; rw [if_pos rfl]
      | ⟨1, _⟩ => by show (p 1).val = if (16 : Nat) = 1 then 0 else (p 1).val; rw [if_neg (by decide)]),
    hu, hb]
  rfl

/-! ## The body, the write-backs, the array -/

/-- The body's stored value on block `q`: the seven steps in a row. -/
theorem body3_apply (x0 : (⟨Cert.ReferenceIdeal.S50000x16, .f32⟩ : BufTy).Contents (Elt Ideal)) (x1 : (⟨Cert.ReferenceIdeal.S2x800000, .i32⟩ : BufTy).Contents (Elt Ideal)) (x2 : (⟨Cert.ReferenceIdeal.S16x32, .f32⟩ : BufTy).Contents (Elt Ideal)) (x3 : (⟨Cert.ReferenceIdeal.S32, .f32⟩ : BufTy).Contents (Elt Ideal)) (x4 : (⟨Cert.ReferenceIdeal.S32x64, .f32⟩ : BufTy).Contents (Elt Ideal)) (x5 : (⟨Cert.ReferenceIdeal.S64, .f32⟩ : BufTy).Contents (Elt Ideal)) (x6 : (⟨Cert.ReferenceIdeal.S64x128, .f32⟩ : BufTy).Contents (Elt Ideal)) (x7 : (⟨Cert.ReferenceIdeal.S128, .f32⟩ : BufTy).Contents (Elt Ideal)) (x8 : (⟨Cert.ReferenceIdeal.S128x64, .f32⟩ : BufTy).Contents (Elt Ideal)) (x9 : (⟨Cert.ReferenceIdeal.S64, .f32⟩ : BufTy).Contents (Elt Ideal)) (x10 : (⟨Cert.ReferenceIdeal.S64x32, .f32⟩ : BufTy).Contents (Elt Ideal)) (x11 : (⟨Cert.ReferenceIdeal.S32, .f32⟩ : BufTy).Contents (Elt Ideal)) (x12 : (⟨Cert.ReferenceIdeal.S32x16, .f32⟩ : BufTy).Contents (Elt Ideal)) (x13 : (⟨Cert.ReferenceIdeal.S16, .f32⟩ : BufTy).Contents (Elt Ideal)) (q : Nat) (hq : q ≤ 4)
    (s : Vec Ideal S10000x128 .f32) (b3 : Vec Ideal S1x128 .f32) (w1 : Vec Ideal S128x64 .f32) (b1 : Vec Ideal S1x64 .f32)
    (w2 : Vec Ideal S64x32 .f32) (b2 : Vec Ideal S1x32 .f32) (w3 : Vec Ideal S32x16 .f32) (b4 : Vec Ideal S1x16 .f32)
    (hs : ∀ p : S10000x128.Idx, s p = Cert.ReferenceIdeal.ReadP.val_main_v142 (F := Ideal) x0 x1 x2 x3 x4 x5 x6 (liftRow128 q hq p))
    (hb3 : ∀ k : Fin 128, b3 (headRow128 k) = x7 (headVec128 k)) (hw1 : ∀ p : S128x64.Idx, w1 p = x8 p)
    (hb1 : ∀ k : Fin 64, b1 (headRow64 k) = x9 (headVec64 k)) (hw2 : ∀ p : S64x32.Idx, w2 p = x10 p)
    (hb2 : ∀ k : Fin 32, b2 (headRow32 k) = x11 (headVec32 k)) (hw3 : ∀ p : S32x16.Idx, w3 p = x12 p)
    (hb4 : ∀ k : Fin 16, b4 (headRow16 k) = x13 (headVec16 k)) (j : S10000x16.Idx) :
    k3_pay1 (k3_pay2 s b3 w1 b1 w2 b2 w3 b4) (Scalar.ofBits .f32 0x00000000#32) j
      = Cert.ReferenceIdeal.ReadP.val_main_v161 (F := Ideal) x0 x1 x2 x3 x4 x5 x6 x7 x8 x9 x10 x11 x12 x13 (liftRow16 q hq j) := by
  unfold k3_pay1 k3_pay2
  have h1 : ∀ p : S10000x128.Idx, (maximumf (addf (shapeCast S10000x128 s shapeCasts_S10000x128_S10000x128 : FVec Ideal S10000x128 .f32) (broadcastTo S10000x128 (shapeCast S1x128 b3 shapeCasts_S1x128_S1x128) broadcasts_S1x128_S10000x128)) (broadcast S10000x128 (Scalar.ofBits .f32 0x00000000#32)) : FVec Ideal S10000x128 .f32) p = Cert.ReferenceIdeal.ReadP.val_main_v146 (F := Ideal) x0 x1 x2 x3 x4 x5 x6 x7 (liftRow128 q hq p) := fun p =>
    step_v146 x0 x1 x2 x3 x4 x5 x6 x7 q hq (shapeCast S10000x128 s shapeCasts_S10000x128_S10000x128 : FVec Ideal S10000x128 .f32) b3 (fun p => by rw [shapeCast_self]; exact hs p) hb3 p
  have h2 : ∀ p : S10000x64.Idx, (matmul dot_S10000x128_S128x64_S10000x64_1_0_0_1_n_n none (truncf .bf16 (maximumf (addf (shapeCast S10000x128 s shapeCasts_S10000x128_S10000x128 : FVec Ideal S10000x128 .f32) (broadcastTo S10000x128 (shapeCast S1x128 b3 shapeCasts_S1x128_S1x128) broadcasts_S1x128_S10000x128)) (broadcast S10000x128 (Scalar.ofBits .f32 0x00000000#32)) : FVec Ideal S10000x128 .f32) bitsLt_bf16_f32) (truncf .bf16 w1 bitsLt_bf16_f32) (constant S10000x64 .f32 0x00000000#32) : FVec Ideal S10000x64 .f32) p = Cert.ReferenceIdeal.ReadP.val_main_v147 (F := Ideal) x0 x1 x2 x3 x4 x5 x6 x7 x8 (liftRow64 q hq p) := fun p =>
    step_v147 x0 x1 x2 x3 x4 x5 x6 x7 x8 q hq (maximumf (addf (shapeCast S10000x128 s shapeCasts_S10000x128_S10000x128 : FVec Ideal S10000x128 .f32) (broadcastTo S10000x128 (shapeCast S1x128 b3 shapeCasts_S1x128_S1x128) broadcasts_S1x128_S10000x128)) (broadcast S10000x128 (Scalar.ofBits .f32 0x00000000#32)) : FVec Ideal S10000x128 .f32) w1 h1 hw1 p
  have h3 : ∀ p : S10000x64.Idx, (maximumf (addf (matmul dot_S10000x128_S128x64_S10000x64_1_0_0_1_n_n none (truncf .bf16 (maximumf (addf (shapeCast S10000x128 s shapeCasts_S10000x128_S10000x128 : FVec Ideal S10000x128 .f32) (broadcastTo S10000x128 (shapeCast S1x128 b3 shapeCasts_S1x128_S1x128) broadcasts_S1x128_S10000x128)) (broadcast S10000x128 (Scalar.ofBits .f32 0x00000000#32)) : FVec Ideal S10000x128 .f32) bitsLt_bf16_f32) (truncf .bf16 w1 bitsLt_bf16_f32) (constant S10000x64 .f32 0x00000000#32) : FVec Ideal S10000x64 .f32) (broadcastTo S10000x64 (shapeCast S1x64 b1 shapeCasts_S1x64_S1x64) broadcasts_S1x64_S10000x64)) (broadcast S10000x64 (Scalar.ofBits .f32 0x00000000#32)) : FVec Ideal S10000x64 .f32) p = Cert.ReferenceIdeal.ReadP.val_main_v151 (F := Ideal) x0 x1 x2 x3 x4 x5 x6 x7 x8 x9 (liftRow64 q hq p) := fun p =>
    step_v151 x0 x1 x2 x3 x4 x5 x6 x7 x8 x9 q hq (matmul dot_S10000x128_S128x64_S10000x64_1_0_0_1_n_n none (truncf .bf16 (maximumf (addf (shapeCast S10000x128 s shapeCasts_S10000x128_S10000x128 : FVec Ideal S10000x128 .f32) (broadcastTo S10000x128 (shapeCast S1x128 b3 shapeCasts_S1x128_S1x128) broadcasts_S1x128_S10000x128)) (broadcast S10000x128 (Scalar.ofBits .f32 0x00000000#32)) : FVec Ideal S10000x128 .f32) bitsLt_bf16_f32) (truncf .bf16 w1 bitsLt_bf16_f32) (constant S10000x64 .f32 0x00000000#32) : FVec Ideal S10000x64 .f32) b1 h2 hb1 p
  have h4 : ∀ p : S10000x32.Idx, (matmul dot_S10000x64_S64x32_S10000x32_1_0_0_1_n_n none (truncf .bf16 (maximumf (addf (matmul dot_S10000x128_S128x64_S10000x64_1_0_0_1_n_n none (truncf .bf16 (maximumf (addf (shapeCast S10000x128 s shapeCasts_S10000x128_S10000x128 : FVec Ideal S10000x128 .f32) (broadcastTo S10000x128 (shapeCast S1x128 b3 shapeCasts_S1x128_S1x128) broadcasts_S1x128_S10000x128)) (broadcast S10000x128 (Scalar.ofBits .f32 0x00000000#32)) : FVec Ideal S10000x128 .f32) bitsLt_bf16_f32) (truncf .bf16 w1 bitsLt_bf16_f32) (constant S10000x64 .f32 0x00000000#32) : FVec Ideal S10000x64 .f32) (broadcastTo S10000x64 (shapeCast S1x64 b1 shapeCasts_S1x64_S1x64) broadcasts_S1x64_S10000x64)) (broadcast S10000x64 (Scalar.ofBits .f32 0x00000000#32)) : FVec Ideal S10000x64 .f32) bitsLt_bf16_f32) (truncf .bf16 w2 bitsLt_bf16_f32) (constant S10000x32 .f32 0x00000000#32) : FVec Ideal S10000x32 .f32) p = Cert.ReferenceIdeal.ReadP.val_main_v152 (F := Ideal) x0 x1 x2 x3 x4 x5 x6 x7 x8 x9 x10 (liftRow32 q hq p) := fun p =>
    step_v152 x0 x1 x2 x3 x4 x5 x6 x7 x8 x9 x10 q hq (maximumf (addf (matmul dot_S10000x128_S128x64_S10000x64_1_0_0_1_n_n none (truncf .bf16 (maximumf (addf (shapeCast S10000x128 s shapeCasts_S10000x128_S10000x128 : FVec Ideal S10000x128 .f32) (broadcastTo S10000x128 (shapeCast S1x128 b3 shapeCasts_S1x128_S1x128) broadcasts_S1x128_S10000x128)) (broadcast S10000x128 (Scalar.ofBits .f32 0x00000000#32)) : FVec Ideal S10000x128 .f32) bitsLt_bf16_f32) (truncf .bf16 w1 bitsLt_bf16_f32) (constant S10000x64 .f32 0x00000000#32) : FVec Ideal S10000x64 .f32) (broadcastTo S10000x64 (shapeCast S1x64 b1 shapeCasts_S1x64_S1x64) broadcasts_S1x64_S10000x64)) (broadcast S10000x64 (Scalar.ofBits .f32 0x00000000#32)) : FVec Ideal S10000x64 .f32) w2 h3 hw2 p
  have h5 : ∀ p : S10000x32.Idx, (maximumf (addf (matmul dot_S10000x64_S64x32_S10000x32_1_0_0_1_n_n none (truncf .bf16 (maximumf (addf (matmul dot_S10000x128_S128x64_S10000x64_1_0_0_1_n_n none (truncf .bf16 (maximumf (addf (shapeCast S10000x128 s shapeCasts_S10000x128_S10000x128 : FVec Ideal S10000x128 .f32) (broadcastTo S10000x128 (shapeCast S1x128 b3 shapeCasts_S1x128_S1x128) broadcasts_S1x128_S10000x128)) (broadcast S10000x128 (Scalar.ofBits .f32 0x00000000#32)) : FVec Ideal S10000x128 .f32) bitsLt_bf16_f32) (truncf .bf16 w1 bitsLt_bf16_f32) (constant S10000x64 .f32 0x00000000#32) : FVec Ideal S10000x64 .f32) (broadcastTo S10000x64 (shapeCast S1x64 b1 shapeCasts_S1x64_S1x64) broadcasts_S1x64_S10000x64)) (broadcast S10000x64 (Scalar.ofBits .f32 0x00000000#32)) : FVec Ideal S10000x64 .f32) bitsLt_bf16_f32) (truncf .bf16 w2 bitsLt_bf16_f32) (constant S10000x32 .f32 0x00000000#32) : FVec Ideal S10000x32 .f32) (broadcastTo S10000x32 (shapeCast S1x32 b2 shapeCasts_S1x32_S1x32) broadcasts_S1x32_S10000x32)) (broadcast S10000x32 (Scalar.ofBits .f32 0x00000000#32)) : FVec Ideal S10000x32 .f32) p = Cert.ReferenceIdeal.ReadP.val_main_v156 (F := Ideal) x0 x1 x2 x3 x4 x5 x6 x7 x8 x9 x10 x11 (liftRow32 q hq p) := fun p =>
    step_v156 x0 x1 x2 x3 x4 x5 x6 x7 x8 x9 x10 x11 q hq (matmul dot_S10000x64_S64x32_S10000x32_1_0_0_1_n_n none (truncf .bf16 (maximumf (addf (matmul dot_S10000x128_S128x64_S10000x64_1_0_0_1_n_n none (truncf .bf16 (maximumf (addf (shapeCast S10000x128 s shapeCasts_S10000x128_S10000x128 : FVec Ideal S10000x128 .f32) (broadcastTo S10000x128 (shapeCast S1x128 b3 shapeCasts_S1x128_S1x128) broadcasts_S1x128_S10000x128)) (broadcast S10000x128 (Scalar.ofBits .f32 0x00000000#32)) : FVec Ideal S10000x128 .f32) bitsLt_bf16_f32) (truncf .bf16 w1 bitsLt_bf16_f32) (constant S10000x64 .f32 0x00000000#32) : FVec Ideal S10000x64 .f32) (broadcastTo S10000x64 (shapeCast S1x64 b1 shapeCasts_S1x64_S1x64) broadcasts_S1x64_S10000x64)) (broadcast S10000x64 (Scalar.ofBits .f32 0x00000000#32)) : FVec Ideal S10000x64 .f32) bitsLt_bf16_f32) (truncf .bf16 w2 bitsLt_bf16_f32) (constant S10000x32 .f32 0x00000000#32) : FVec Ideal S10000x32 .f32) b2 h4 hb2 p
  have h6 : ∀ p : S10000x16.Idx, (matmul dot_S10000x32_S32x16_S10000x16_1_0_0_1_n_n none (truncf .bf16 (maximumf (addf (matmul dot_S10000x64_S64x32_S10000x32_1_0_0_1_n_n none (truncf .bf16 (maximumf (addf (matmul dot_S10000x128_S128x64_S10000x64_1_0_0_1_n_n none (truncf .bf16 (maximumf (addf (shapeCast S10000x128 s shapeCasts_S10000x128_S10000x128 : FVec Ideal S10000x128 .f32) (broadcastTo S10000x128 (shapeCast S1x128 b3 shapeCasts_S1x128_S1x128) broadcasts_S1x128_S10000x128)) (broadcast S10000x128 (Scalar.ofBits .f32 0x00000000#32)) : FVec Ideal S10000x128 .f32) bitsLt_bf16_f32) (truncf .bf16 w1 bitsLt_bf16_f32) (constant S10000x64 .f32 0x00000000#32) : FVec Ideal S10000x64 .f32) (broadcastTo S10000x64 (shapeCast S1x64 b1 shapeCasts_S1x64_S1x64) broadcasts_S1x64_S10000x64)) (broadcast S10000x64 (Scalar.ofBits .f32 0x00000000#32)) : FVec Ideal S10000x64 .f32) bitsLt_bf16_f32) (truncf .bf16 w2 bitsLt_bf16_f32) (constant S10000x32 .f32 0x00000000#32) : FVec Ideal S10000x32 .f32) (broadcastTo S10000x32 (shapeCast S1x32 b2 shapeCasts_S1x32_S1x32) broadcasts_S1x32_S10000x32)) (broadcast S10000x32 (Scalar.ofBits .f32 0x00000000#32)) : FVec Ideal S10000x32 .f32) bitsLt_bf16_f32) (truncf .bf16 w3 bitsLt_bf16_f32) (constant S10000x16 .f32 0x00000000#32) : FVec Ideal S10000x16 .f32) p = Cert.ReferenceIdeal.ReadP.val_main_v157 (F := Ideal) x0 x1 x2 x3 x4 x5 x6 x7 x8 x9 x10 x11 x12 (liftRow16 q hq p) := fun p =>
    step_v157 x0 x1 x2 x3 x4 x5 x6 x7 x8 x9 x10 x11 x12 q hq (maximumf (addf (matmul dot_S10000x64_S64x32_S10000x32_1_0_0_1_n_n none (truncf .bf16 (maximumf (addf (matmul dot_S10000x128_S128x64_S10000x64_1_0_0_1_n_n none (truncf .bf16 (maximumf (addf (shapeCast S10000x128 s shapeCasts_S10000x128_S10000x128 : FVec Ideal S10000x128 .f32) (broadcastTo S10000x128 (shapeCast S1x128 b3 shapeCasts_S1x128_S1x128) broadcasts_S1x128_S10000x128)) (broadcast S10000x128 (Scalar.ofBits .f32 0x00000000#32)) : FVec Ideal S10000x128 .f32) bitsLt_bf16_f32) (truncf .bf16 w1 bitsLt_bf16_f32) (constant S10000x64 .f32 0x00000000#32) : FVec Ideal S10000x64 .f32) (broadcastTo S10000x64 (shapeCast S1x64 b1 shapeCasts_S1x64_S1x64) broadcasts_S1x64_S10000x64)) (broadcast S10000x64 (Scalar.ofBits .f32 0x00000000#32)) : FVec Ideal S10000x64 .f32) bitsLt_bf16_f32) (truncf .bf16 w2 bitsLt_bf16_f32) (constant S10000x32 .f32 0x00000000#32) : FVec Ideal S10000x32 .f32) (broadcastTo S10000x32 (shapeCast S1x32 b2 shapeCasts_S1x32_S1x32) broadcasts_S1x32_S10000x32)) (broadcast S10000x32 (Scalar.ofBits .f32 0x00000000#32)) : FVec Ideal S10000x32 .f32) w3 h5 hw3 p
  exact step_v161 x0 x1 x2 x3 x4 x5 x6 x7 x8 x9 x10 x11 x12 x13 q hq (matmul dot_S10000x32_S32x16_S10000x16_1_0_0_1_n_n none (truncf .bf16 (maximumf (addf (matmul dot_S10000x64_S64x32_S10000x32_1_0_0_1_n_n none (truncf .bf16 (maximumf (addf (matmul dot_S10000x128_S128x64_S10000x64_1_0_0_1_n_n none (truncf .bf16 (maximumf (addf (shapeCast S10000x128 s shapeCasts_S10000x128_S10000x128 : FVec Ideal S10000x128 .f32) (broadcastTo S10000x128 (shapeCast S1x128 b3 shapeCasts_S1x128_S1x128) broadcasts_S1x128_S10000x128)) (broadcast S10000x128 (Scalar.ofBits .f32 0x00000000#32)) : FVec Ideal S10000x128 .f32) bitsLt_bf16_f32) (truncf .bf16 w1 bitsLt_bf16_f32) (constant S10000x64 .f32 0x00000000#32) : FVec Ideal S10000x64 .f32) (broadcastTo S10000x64 (shapeCast S1x64 b1 shapeCasts_S1x64_S1x64) broadcasts_S1x64_S10000x64)) (broadcast S10000x64 (Scalar.ofBits .f32 0x00000000#32)) : FVec Ideal S10000x64 .f32) bitsLt_bf16_f32) (truncf .bf16 w2 bitsLt_bf16_f32) (constant S10000x32 .f32 0x00000000#32) : FVec Ideal S10000x32 .f32) (broadcastTo S10000x32 (shapeCast S1x32 b2 shapeCasts_S1x32_S1x32) broadcasts_S1x32_S10000x32)) (broadcast S10000x32 (Scalar.ofBits .f32 0x00000000#32)) : FVec Ideal S10000x32 .f32) bitsLt_bf16_f32) (truncf .bf16 w3 bitsLt_bf16_f32) (constant S10000x16 .f32 0x00000000#32) : FVec Ideal S10000x16 .f32) b4 h6 hb4 j

/-- Where the nine windows sit at grid point `t`: the row block of s moves with the row block of the result, every
    bias and weight is whole at every point, and there are five row blocks. -/
theorem blocks3 : ∀ t : Fin cfg3.N, win3_0.index t (0 : Fin 2) = win3_8.index t (0 : Fin 2)
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0
    ∧ win3_8.index t (1 : Fin 2) = 0
    ∧ win3_8.index t (0 : Fin 2) ≤ 4 :=
  (by decide +kernel : ∀ t : Fin grid3.N, _)

/-- Every one of the five row blocks is some grid point's. -/
theorem blocks3_onto : ∀ q0 : Fin 5, ∃ t : Fin cfg3.N, win3_8.index t = ![q0.val, 0] :=
  (by decide +kernel : ∀ q0 : Fin 5, ∃ t : Fin grid3.N, win3_8.index t = ![q0.val, 0])

set_option maxHeartbeats 1600000 in
/-- What grid point `t` writes back is block `t` of the reference's result. -/
theorem written3 (c : Dev nD) (x0 : (⟨Cert.ReferenceIdeal.S50000x16, .f32⟩ : BufTy).Contents (Elt Ideal)) (x1 : (⟨Cert.ReferenceIdeal.S2x800000, .i32⟩ : BufTy).Contents (Elt Ideal)) (x2 : (⟨Cert.ReferenceIdeal.S16x32, .f32⟩ : BufTy).Contents (Elt Ideal)) (x3 : (⟨Cert.ReferenceIdeal.S32, .f32⟩ : BufTy).Contents (Elt Ideal)) (x4 : (⟨Cert.ReferenceIdeal.S32x64, .f32⟩ : BufTy).Contents (Elt Ideal)) (x5 : (⟨Cert.ReferenceIdeal.S64, .f32⟩ : BufTy).Contents (Elt Ideal)) (x6 : (⟨Cert.ReferenceIdeal.S64x128, .f32⟩ : BufTy).Contents (Elt Ideal)) (x7 : (⟨Cert.ReferenceIdeal.S128, .f32⟩ : BufTy).Contents (Elt Ideal)) (x8 : (⟨Cert.ReferenceIdeal.S128x64, .f32⟩ : BufTy).Contents (Elt Ideal)) (x9 : (⟨Cert.ReferenceIdeal.S64, .f32⟩ : BufTy).Contents (Elt Ideal)) (x10 : (⟨Cert.ReferenceIdeal.S64x32, .f32⟩ : BufTy).Contents (Elt Ideal)) (x11 : (⟨Cert.ReferenceIdeal.S32, .f32⟩ : BufTy).Contents (Elt Ideal)) (x12 : (⟨Cert.ReferenceIdeal.S32x16, .f32⟩ : BufTy).Contents (Elt Ideal)) (x13 : (⟨Cert.ReferenceIdeal.S16, .f32⟩ : BufTy).Contents (Elt Ideal))
    (hv73 : V c main_v73 = Cert.ReferenceIdeal.ReadP.val_main_v142 (F := Ideal) x0 x1 x2 x3 x4 x5 x6)
    (hv74 : V c main_v74 = shapeCast _ x7 shapeCasts_S128_S1x128) (harg8 : V c main_arg8 = x8)
    (hv75 : V c main_v75 = shapeCast _ x9 shapeCasts_S64_S1x64) (harg10 : V c main_arg10 = x10)
    (hv76 : V c main_v76 = shapeCast _ x11 shapeCasts_S32_S1x32) (harg12 : V c main_arg12 = x12)
    (hv77 : V c main_v77 = shapeCast _ x13 shapeCasts_S16_S1x16) (t : Fin cfg3.N) :
    (dat3 V c).flushed 8 t = ((cfg3.win 8).blk t).view.read (Elt Ideal) (Cert.ReferenceIdeal.ReadP.val_main_v161 (F := Ideal) x0 x1 x2 x3 x4 x5 x6 x7 x8 x9 x10 x11 x12 x13) := by
  have key : ∀ (G : (⟨Cert.ReferenceIdeal.S50000x16, .f32⟩ : BufTy).Contents (Elt Ideal)),
      (∀ i, G i = Cert.ReferenceIdeal.ReadP.val_main_v161 (F := Ideal) x0 x1 x2 x3 x4 x5 x6 x7 x8 x9 x10 x11 x12 x13 i) →
      (dat3 V c).flushed 8 t = ((cfg3.win 8).blk t).view.read (Elt Ideal) G := by
    intro G hG
    show (cfg3.win 8).cut (grid3.coords t) ((dat3 V c).after 8 t) = _
    rw [after3_8]
    unfold out3_8
    rw [View.canon_unit_zero zero_offsets3]
    simp only [View.ld_unit_zero (S := S10000x128) zero_offsets3, View.ld_unit_zero (S := S1x128) zero_offsets3, View.ld_unit_zero (S := S128x64) zero_offsets3,
      View.ld_unit_zero (S := S1x64) zero_offsets3, View.ld_unit_zero (S := S64x32) zero_offsets3, View.ld_unit_zero (S := S1x32) zero_offsets3,
      View.ld_unit_zero (S := S32x16) zero_offsets3, View.ld_unit_zero (S := S1x16) zero_offsets3]
    obtain ⟨e0, e1, e2, e3, e4, e5, e6, e7, e8, e9, e10, e11, e12, e13, e14, e15, e16, e17⟩ := blocks3 t
    have hs : ∀ p : S10000x128.Idx, iblk3 V c 0 t p = Cert.ReferenceIdeal.ReadP.val_main_v142 (F := Ideal) x0 x1 x2 x3 x4 x5 x6 (liftRow128 (win3_8.index t (0 : Fin 2)) e17 p) := fun p => by
      show V c main_v73 (((cfg3.win 0).blk t).view.emb p) = _
      rw [hv73]
      refine congrArg (Cert.ReferenceIdeal.ReadP.val_main_v142 (F := Ideal) x0 x1 x2 x3 x4 x5 x6) (funext fun a => Fin.ext ?_)
      match a with
      | ⟨0, _⟩ => show win3_0.index t (0 : Fin 2) * 10000 + 1 * (p 0).val = win3_8.index t (0 : Fin 2) * 10000 + (p 0).val; omega
      | ⟨1, _⟩ => show win3_0.index t (1 : Fin 2) * 128 + 1 * (p 1).val = (p 1).val; omega

    have hb1 : ∀ k : Fin 128, iblk3 V c 1 t (headRow128 k) = x7 (headVec128 k) := fun k => by
      show V c main_v74 (((cfg3.win 1).blk t).view.emb (headRow128 k)) = _
      rw [hv74]
      refine shapeCast_apply x7 shapeCasts_S128_S1x128 _ (headVec128 k) ?_
      rewrite [Shape.rowMajor_val_one, Shape.rowMajor_val_two]
      show k.val = (win3_1.index t (0 : Fin 2) * 1 + 1 * 0) * 128 + (win3_1.index t (1 : Fin 2) * 128 + 1 * k.val)
      omega

    have hw2 : ∀ p : S128x64.Idx, iblk3 V c 2 t p = x8 p := fun p => by
      show V c main_arg8 (((cfg3.win 2).blk t).view.emb p) = _
      rw [harg8]
      refine congrArg x8 (funext fun a => Fin.ext ?_)
      match a with
      | ⟨0, _⟩ => show win3_2.index t (0 : Fin 2) * 128 + 1 * (p 0).val = (p 0).val; omega
      | ⟨1, _⟩ => show win3_2.index t (1 : Fin 2) * 64 + 1 * (p 1).val = (p 1).val; omega

    have hb3 : ∀ k : Fin 64, iblk3 V c 3 t (headRow64 k) = x9 (headVec64 k) := fun k => by
      show V c main_v75 (((cfg3.win 3).blk t).view.emb (headRow64 k)) = _
      rw [hv75]
      refine shapeCast_apply x9 shapeCasts_S64_S1x64 _ (headVec64 k) ?_
      rewrite [Shape.rowMajor_val_one, Shape.rowMajor_val_two]
      show k.val = (win3_3.index t (0 : Fin 2) * 1 + 1 * 0) * 64 + (win3_3.index t (1 : Fin 2) * 64 + 1 * k.val)
      omega

    have hw4 : ∀ p : S64x32.Idx, iblk3 V c 4 t p = x10 p := fun p => by
      show V c main_arg10 (((cfg3.win 4).blk t).view.emb p) = _
      rw [harg10]
      refine congrArg x10 (funext fun a => Fin.ext ?_)
      match a with
      | ⟨0, _⟩ => show win3_4.index t (0 : Fin 2) * 64 + 1 * (p 0).val = (p 0).val; omega
      | ⟨1, _⟩ => show win3_4.index t (1 : Fin 2) * 32 + 1 * (p 1).val = (p 1).val; omega

    have hb5 : ∀ k : Fin 32, iblk3 V c 5 t (headRow32 k) = x11 (headVec32 k) := fun k => by
      show V c main_v76 (((cfg3.win 5).blk t).view.emb (headRow32 k)) = _
      rw [hv76]
      refine shapeCast_apply x11 shapeCasts_S32_S1x32 _ (headVec32 k) ?_
      rewrite [Shape.rowMajor_val_one, Shape.rowMajor_val_two]
      show k.val = (win3_5.index t (0 : Fin 2) * 1 + 1 * 0) * 32 + (win3_5.index t (1 : Fin 2) * 32 + 1 * k.val)
      omega

    have hw6 : ∀ p : S32x16.Idx, iblk3 V c 6 t p = x12 p := fun p => by
      show V c main_arg12 (((cfg3.win 6).blk t).view.emb p) = _
      rw [harg12]
      refine congrArg x12 (funext fun a => Fin.ext ?_)
      match a with
      | ⟨0, _⟩ => show win3_6.index t (0 : Fin 2) * 32 + 1 * (p 0).val = (p 0).val; omega
      | ⟨1, _⟩ => show win3_6.index t (1 : Fin 2) * 16 + 1 * (p 1).val = (p 1).val; omega

    have hb7 : ∀ k : Fin 16, iblk3 V c 7 t (headRow16 k) = x13 (headVec16 k) := fun k => by
      show V c main_v77 (((cfg3.win 7).blk t).view.emb (headRow16 k)) = _
      rw [hv77]
      refine shapeCast_apply x13 shapeCasts_S16_S1x16 _ (headVec16 k) ?_
      rewrite [Shape.rowMajor_val_one, Shape.rowMajor_val_two]
      show k.val = (win3_7.index t (0 : Fin 2) * 1 + 1 * 0) * 16 + (win3_7.index t (1 : Fin 2) * 16 + 1 * k.val)
      omega
    refine funext fun (j : S10000x16.Idx) => ?_
    show k3_pay1 (k3_pay2 (iblk3 V c 0 t) (iblk3 V c 1 t) (iblk3 V c 2 t) (iblk3 V c 3 t) (iblk3 V c 4 t) (iblk3 V c 5 t) (iblk3 V c 6 t) (iblk3 V c 7 t)) (Scalar.ofBits .f32 0x00000000#32) j
      = G (((cfg3.win 8).blk t).view.emb j)
    have ej : ((cfg3.win 8).blk t).view.emb j = liftRow16 (win3_8.index t (0 : Fin 2)) e17 j := by
      funext a; apply Fin.ext
      match a with
      | ⟨0, _⟩ => show win3_8.index t (0 : Fin 2) * 10000 + 1 * (j 0).val = win3_8.index t (0 : Fin 2) * 10000 + (j 0).val; omega
      | ⟨1, _⟩ => show win3_8.index t (1 : Fin 2) * 16 + 1 * (j 1).val = (j 1).val; omega
    rw [hG, ej]
    exact body3_apply x0 x1 x2 x3 x4 x5 x6 x7 x8 x9 x10 x11 x12 x13 (win3_8.index t (0 : Fin 2)) e17 (iblk3 V c 0 t) (iblk3 V c 1 t) (iblk3 V c 2 t) (iblk3 V c 3 t)
      (iblk3 V c 4 t) (iblk3 V c 5 t) (iblk3 V c 6 t) (iblk3 V c 7 t) hs hb1 hw2 hb3 hw4 hb5 hw6 hb7 j
  exact key _ (fun _ => rfl)

/-- An index of the result array is in grid point `t`'s block iff each coordinate is in the block's range. -/
theorem in_block3 (t : Fin cfg3.N) (i : S50000x16.Idx) :
    i ∈ ((cfg3.win 8).blk t).view.set ↔ ∀ a : Fin 2, win3_8.index t a * S10000x16.size a ≤ (i a).val ∧ (i a).val < win3_8.index t a * S10000x16.size a + S10000x16.size a := by
  show i ∈ ((View.whole main_v78).slice (win3_8.rect t)).set ↔ _
  rw [View.set_slice_whole, Rect.mem_set_unit]
  exact Iff.rfl

/-- Row r lies in the block of grid point r / 10000: the five write-backs cover the array. -/
theorem covered3 (i : S50000x16.Idx) : ∃ t : Fin cfg3.N, (cfg3.win 8).flush t = true ∧ i ∈ ((cfg3.win 8).blk t).view.set := by
  have hi0 : (i 0).val < 50000 := (i 0).isLt
  have hi1 : (i 1).val < 16 := (i 1).isLt
  obtain ⟨t, ht⟩ := blocks3_onto ⟨(i 0).val / 10000, by omega⟩
  have q0 : win3_8.index t (0 : Fin 2) = (i 0).val / 10000 := congrFun ht 0
  have q1 : win3_8.index t (1 : Fin 2) = 0 := congrFun ht 1
  refine ⟨t, flush3_8 t, ?_⟩
  rw [in_block3]
  intro a
  match a with
  | ⟨0, _⟩ => show win3_8.index t (0 : Fin 2) * 10000 ≤ (i 0).val ∧ (i 0).val < win3_8.index t (0 : Fin 2) * 10000 + 10000; omega
  | ⟨1, _⟩ => show win3_8.index t (1 : Fin 2) * 16 ≤ (i 1).val ∧ (i 1).val < win3_8.index t (1 : Fin 2) * 16 + 16; omega

/-- THE ARRAY after the fourth kernel: the reference's result. -/
theorem region3_value (c : Dev nD) (x0 : (⟨Cert.ReferenceIdeal.S50000x16, .f32⟩ : BufTy).Contents (Elt Ideal)) (x1 : (⟨Cert.ReferenceIdeal.S2x800000, .i32⟩ : BufTy).Contents (Elt Ideal)) (x2 : (⟨Cert.ReferenceIdeal.S16x32, .f32⟩ : BufTy).Contents (Elt Ideal)) (x3 : (⟨Cert.ReferenceIdeal.S32, .f32⟩ : BufTy).Contents (Elt Ideal)) (x4 : (⟨Cert.ReferenceIdeal.S32x64, .f32⟩ : BufTy).Contents (Elt Ideal)) (x5 : (⟨Cert.ReferenceIdeal.S64, .f32⟩ : BufTy).Contents (Elt Ideal)) (x6 : (⟨Cert.ReferenceIdeal.S64x128, .f32⟩ : BufTy).Contents (Elt Ideal)) (x7 : (⟨Cert.ReferenceIdeal.S128, .f32⟩ : BufTy).Contents (Elt Ideal)) (x8 : (⟨Cert.ReferenceIdeal.S128x64, .f32⟩ : BufTy).Contents (Elt Ideal)) (x9 : (⟨Cert.ReferenceIdeal.S64, .f32⟩ : BufTy).Contents (Elt Ideal)) (x10 : (⟨Cert.ReferenceIdeal.S64x32, .f32⟩ : BufTy).Contents (Elt Ideal)) (x11 : (⟨Cert.ReferenceIdeal.S32, .f32⟩ : BufTy).Contents (Elt Ideal)) (x12 : (⟨Cert.ReferenceIdeal.S32x16, .f32⟩ : BufTy).Contents (Elt Ideal)) (x13 : (⟨Cert.ReferenceIdeal.S16, .f32⟩ : BufTy).Contents (Elt Ideal))
    (hv73 : V c main_v73 = Cert.ReferenceIdeal.ReadP.val_main_v142 (F := Ideal) x0 x1 x2 x3 x4 x5 x6)
    (hv74 : V c main_v74 = shapeCast _ x7 shapeCasts_S128_S1x128) (harg8 : V c main_arg8 = x8)
    (hv75 : V c main_v75 = shapeCast _ x9 shapeCasts_S64_S1x64) (harg10 : V c main_arg10 = x10)
    (hv76 : V c main_v76 = shapeCast _ x11 shapeCasts_S32_S1x32) (harg12 : V c main_arg12 = x12)
    (hv77 : V c main_v77 = shapeCast _ x13 shapeCasts_S16_S1x16) :
    (dat3 V c).arrAt 8 cfg3.N = Cert.ReferenceIdeal.ReadP.val_main_v161 (F := Ideal) x0 x1 x2 x3 x4 x5 x6 x7 x8 x9 x10 x11 x12 x13 :=
  (dat3 V c).arrAt_eq_of_cover 8 _ (fun t _ => written3 V c x0 x1 x2 x3 x4 x5 x6 x7 x8 x9 x10 x11 x12 x13 hv73 hv74 harg8 hv75 harg10 hv76 harg12 hv77 t) (fun i => covered3 i)

end Cert.KernelIdeal.Bridge

end
-- ==== Proof.LibTypedRef.lean ====
/-
  An inlined call's operations are the plain ones, no program in sight.

  A called function's host operations name their buffers by references that CARRY the tensor type of the value they hold,
  and move the operation's function to the buffers' own types along the equation "the buffer's type is the carried
  type". When that equation is the identity — which it is at every literal reference — the typed operation IS the plain
  builder's at the same buffers with the same function. The proof destructures each typed reference so that the carried
  type becomes, literally, the buffer's type: the transports are then along reflexivity and disappear. The function is
  given twice, at the two spellings of its type (over the carried types, over the buffers' types), and the two are
  related by heterogeneous equality; at literal references that relation is reflexivity, because the two types compute
  to the same one.

  Why bother: a fold of many operations read at a buffer contains one transport per typed operand, and comparing such a
  term with a transport-free one makes the checker recompute a buffer's type from the signature's tables at every
  transport, nested. Entry by entry the same facts cost one such computation per operand. So a list of operations is
  first rewritten, entry by entry, to its plain spelling (the tactic at the end), and only then folded.
-/
import Idealize.ShloMosaic.Lib.StableHlo

namespace Cert.LibTypedRef

open Idealize.ShloMosaic Idealize.ShloMosaic.StableHlo

variable {τ : Topo} {sig : RefSig} {Val : EltTy → Type} {Tx Ta Tb Tc Ty : BufTy}

/-- A typed constant-like operation is the plain one at its buffer, for the same value. -/
theorem tnullary_eq (y : TRef sig Ty) (v : Ty.Contents Val) (w : y.ref.ty.Contents Val) (h : HEq v w) :
    (TRef.nullary y v : HloOp τ sig Val) = StableHlo.nullary y.ref w y.dev := by
  obtain ⟨y, rfl, _, _⟩ := y
  cases h; rfl

/-- A typed one-operand operation is the plain one at its buffers, for the same function. -/
theorem tunary_eq (x : TRef sig Tx) (y : TRef sig Ty) (f : Tx.Contents Val → Ty.Contents Val)
    (g : x.ref.ty.Contents Val → y.ref.ty.Contents Val) (h : HEq f g) :
    (TRef.unary x y f : HloOp τ sig Val) = StableHlo.unary x.ref y.ref g x.dev y.dev := by
  obtain ⟨x, rfl, _, _⟩ := x
  obtain ⟨y, rfl, _, _⟩ := y
  cases h; rfl

/-- A typed two-operand operation is the plain one at its buffers, for the same function. -/
theorem tbinary_eq (a : TRef sig Ta) (b : TRef sig Tb) (y : TRef sig Ty)
    (f : Ta.Contents Val → Tb.Contents Val → Ty.Contents Val)
    (g : a.ref.ty.Contents Val → b.ref.ty.Contents Val → y.ref.ty.Contents Val) (h : HEq f g) :
    (TRef.binary a b y f : HloOp τ sig Val) = StableHlo.binary a.ref b.ref y.ref g a.dev b.dev y.dev := by
  obtain ⟨a, rfl, _, _⟩ := a
  obtain ⟨b, rfl, _, _⟩ := b
  obtain ⟨y, rfl, _, _⟩ := y
  cases h; rfl

/-- A typed three-operand operation is the plain one at its buffers, for the same function. -/
theorem tternary_eq (c : TRef sig Tc) (a : TRef sig Ta) (b : TRef sig Tb) (y : TRef sig Ty)
    (f : Tc.Contents Val → Ta.Contents Val → Tb.Contents Val → Ty.Contents Val)
    (g : c.ref.ty.Contents Val → a.ref.ty.Contents Val → b.ref.ty.Contents Val → y.ref.ty.Contents Val) (h : HEq f g) :
    (TRef.ternary c a b y f : HloOp τ sig Val)
      = StableHlo.ternary c.ref a.ref b.ref y.ref g c.dev a.dev b.dev y.dev := by
  obtain ⟨c, rfl, _, _⟩ := c
  obtain ⟨a, rfl, _, _⟩ := a
  obtain ⟨b, rfl, _, _⟩ := b
  obtain ⟨y, rfl, _, _⟩ := y
  cases h; rfl

/-- Two literal lists of operations are equal entry by entry: an entry spelt the same on both sides by reflexivity
    (at reducible transparency, so that a typed entry is never compared with a plain one by computation), a typed
    operation against its plain spelling by the four lemmas above. Closes `[e₁, …, eₙ] = [p₁, …, pₙ]`. -/
macro "ops_entries" : tactic =>
  `(tactic| repeat (first
      | refine congrArg₂ List.cons (by first
          | with_reducible rfl
          | exact Cert.LibTypedRef.tnullary_eq _ _ _ HEq.rfl
          | exact Cert.LibTypedRef.tunary_eq _ _ _ _ HEq.rfl
          | exact Cert.LibTypedRef.tbinary_eq _ _ _ _ _ HEq.rfl
          | exact Cert.LibTypedRef.tternary_eq _ _ _ _ _ _ HEq.rfl) ?_
      | exact rfl))

end Cert.LibTypedRef
-- ==== Proof.KernelValue.lean ====
/-
  The idealized kernel's result, boundary by boundary.  Writing x for the node features, (src, dst) for the edge
  indices with the self loops appended and nrm for the per-edge normalisation, every layer is: a kernel that
  multiplies by the layer's weight (after the bias and relu of the layer before), then a host stretch that gathers
  the product at src, scales it by nrm and scatter-adds it at dst.  The reference does the same operations in the
  same order (and recomputes src, dst and nrm in every layer, as the same terms), so at each boundary the buffer
  just produced holds the reference's corresponding stage: a kernel's array by its region lemma, a host stretch's
  result by unfolding both terms.  The last boundary's result buffer holds the reference's result.
-/
import proofs.«118536_j17815524344480_1_alg».proof.Proof.Boundaries
import proofs.«118536_j17815524344480_1_alg».proof.Proof.Region0
import proofs.«118536_j17815524344480_1_alg».proof.Proof.Region1
import proofs.«118536_j17815524344480_1_alg».proof.Proof.Region2
import proofs.«118536_j17815524344480_1_alg».proof.Proof.Region3
import proofs.«118536_j17815524344480_1_alg».proof.Proof.LibTypedRef
import Idealize.ShloMosaic.Lib.StableHlo.Run

set_option maxRecDepth 16384

noncomputable section

namespace Cert.KernelIdeal.Bridge

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The edge vectors, once -/

/-- src: the first row of the edge index with the self loops appended. -/
theorem src_at1 (c : Dev nD) : W1 m ρ c (Proc.devRef .tc main_v5) = Cert.ReferenceIdeal.ReadP.val_main_v4 (F := Ideal) (m ((c : Thread nD τ).loc main_arg1)) := by
  show StableHlo.after hostOps0 (W0 m ρ c) (Proc.devRef .tc main_v5) = _
  after_results_simp
  rfl
/-- dst: the second row of the edge index with the self loops appended. -/
theorem dst_at1 (c : Dev nD) : W1 m ρ c (Proc.devRef .tc main_v6) = Cert.ReferenceIdeal.ReadP.val_main_v8 (F := Ideal) (m ((c : Thread nD τ).loc main_arg1)) := by
  show StableHlo.after hostOps0 (W0 m ρ c) (Proc.devRef .tc main_v6) = _
  after_results_simp
  rfl
/-- The in-degree mask (degree positive), the inverse square root of the degree, and the scalar zero the `where`
    falls back to, as the first host stretch leaves them. -/
theorem mask_at1 (c : Dev nD) : W1 m ρ c (Proc.devRef .tc main_v12) = Cert.ReferenceIdeal.ReadP.val_main_v14 (F := Ideal) (m ((c : Thread nD τ).loc main_arg1)) := by
  show StableHlo.after hostOps0 (W0 m ρ c) (Proc.devRef .tc main_v12) = _
  after_results_simp
  rfl
theorem rsqrt_at1 (c : Dev nD) : W1 m ρ c (Proc.devRef .tc main_v13) = Cert.ReferenceIdeal.ReadP.val_main_v15 (F := Ideal) (m ((c : Thread nD τ).loc main_arg1)) := by
  show StableHlo.after hostOps0 (W0 m ρ c) (Proc.devRef .tc main_v13) = _
  after_results_simp
  rfl
theorem zero_at1 (c : Dev nD) : W1 m ρ c (Proc.devRef .tc main_cst_2) = Cert.ReferenceIdeal.ReadP.val_main_cst_2 (F := Ideal) := by
  show StableHlo.after hostOps0 (W0 m ρ c) (Proc.devRef .tc main_cst_2) = _
  after_results_simp
  rfl
/-- The inlined `where` (convert the zero, broadcast it, select) in the plain spelling of its three operations. -/
theorem where_ops : (hostOps0_1 : List (HloOp τ sig (Elt Ideal))) =
    [ StableHlo.unary main_cst_2 main_call0_v0 (id : (⟨S_, .f32⟩ : BufTy).Contents (Elt Ideal) → (⟨S_, .f32⟩ : BufTy).Contents (Elt Ideal)),
      StableHlo.unary main_call0_v0 main_call0_v1 (broadcastInDim S50000 ![] bcast_S_S50000 : (⟨S_, .f32⟩ : BufTy).Contents (Elt Ideal) → (⟨S50000, .f32⟩ : BufTy).Contents (Elt Ideal)),
      StableHlo.ternary main_v12 main_v13 main_call0_v1 main_v14 (select : (⟨S50000, .i1⟩ : BufTy).Contents (Elt Ideal) → (⟨S50000, .f32⟩ : BufTy).Contents (Elt Ideal) → (⟨S50000, .f32⟩ : BufTy).Contents (Elt Ideal) → (⟨S50000, .f32⟩ : BufTy).Contents (Elt Ideal)) ] := by
  unfold hostOps0_1
  ops_entries

/-- deg^(-1/2), zero where the degree is not positive: the second stretch (the inlined `where`), from any contents
    that hold the mask, the inverse root and the zero. -/
theorem invsqrt_step (Wv : Valuation τ sig (Elt Ideal)) (x1 : (⟨Cert.ReferenceIdeal.S2x800000, .i32⟩ : BufTy).Contents (Elt Ideal))
    (h12 : Wv (Proc.devRef .tc main_v12) = Cert.ReferenceIdeal.ReadP.val_main_v14 (F := Ideal) x1) (h13 : Wv (Proc.devRef .tc main_v13) = Cert.ReferenceIdeal.ReadP.val_main_v15 (F := Ideal) x1)
    (hz : Wv (Proc.devRef .tc main_cst_2) = Cert.ReferenceIdeal.ReadP.val_main_cst_2 (F := Ideal)) :
    StableHlo.after hostOps0_1 Wv (Proc.devRef .tc main_v14) = Cert.ReferenceIdeal.ReadP.val_main_v16 (F := Ideal) x1 := by
  rw [where_ops]
  after_results_simp
  rw [h12, h13, hz]
  rfl
theorem invsqrt_at2 (c : Dev nD) : W2 m ρ c (Proc.devRef .tc main_v14) = Cert.ReferenceIdeal.ReadP.val_main_v16 (F := Ideal) (m ((c : Thread nD τ).loc main_arg1)) :=
  invsqrt_step (W1 m ρ c) _ (mask_at1 m ρ c) (rsqrt_at1 m ρ c) (zero_at1 m ρ c)
/-- nrm: the product of the inverse square roots of the in-degrees (zero where the degree is not positive) at the two
    ends of each edge: the third stretch, from any contents that hold deg^(-1/2), src and dst. -/
theorem nrm_step (Wv : Valuation τ sig (Elt Ideal)) (x1 : (⟨Cert.ReferenceIdeal.S2x800000, .i32⟩ : BufTy).Contents (Elt Ideal))
    (h14 : Wv (Proc.devRef .tc main_v14) = Cert.ReferenceIdeal.ReadP.val_main_v16 (F := Ideal) x1) (h5 : Wv (Proc.devRef .tc main_v5) = Cert.ReferenceIdeal.ReadP.val_main_v4 (F := Ideal) x1)
    (h6 : Wv (Proc.devRef .tc main_v6) = Cert.ReferenceIdeal.ReadP.val_main_v8 (F := Ideal) x1) :
    StableHlo.after hostOps0_2 Wv (Proc.devRef .tc main_v29) = Cert.ReferenceIdeal.ReadP.val_main_v31 (F := Ideal) x1 := by
  after_results_simp
  rw [h14, h5, h6]
  rfl
theorem nrm_at3 (c : Dev nD) : W3 m ρ c (Proc.devRef .tc main_v29) = Cert.ReferenceIdeal.ReadP.val_main_v31 (F := Ideal) (m ((c : Thread nD τ).loc main_arg1)) :=
  nrm_step (W2 m ρ c) _ (invsqrt_at2 m ρ c) ((keep2_v5 m ρ c).trans (src_at1 m ρ c)) ((keep2_v6 m ρ c).trans (dst_at1 m ρ c))

/-! ## First layer -/

theorem product0 (c : Dev nD) : W4 m ρ c (Proc.devRef .tc main_v30) = Cert.ReferenceIdeal.ReadP.val_main_v0 (F := Ideal) (m ((c : Thread nD τ).loc main_arg0)) (m ((c : Thread nD τ).loc main_arg2)) :=
  (W4_arr m ρ c 2).trans (region0_value (V3 m ρ) c _ _ (at3_arg0 m ρ c) (at3_arg2 m ρ c))

theorem spread1 (c : Dev nD) : W5 m ρ c (Proc.devRef .tc main_v43) = Cert.ReferenceIdeal.ReadP.val_main_v44 (F := Ideal) (m ((c : Thread nD τ).loc main_arg0)) (m ((c : Thread nD τ).loc main_arg1)) (m ((c : Thread nD τ).loc main_arg2)) := by
  show StableHlo.after hostOps1 (W4 m ρ c) (Proc.devRef .tc main_v43) = _
  after_results_simp
  rw [product0, at4_v5, at4_v6, at4_v29, src_at1, dst_at1, nrm_at3]
  rfl
theorem bias1 (c : Dev nD) : W5 m ρ c (Proc.devRef .tc main_v44) = shapeCast _ (m ((c : Thread nD τ).loc main_arg3)) shapeCasts_S32_S1x32 := by
  show StableHlo.after hostOps1 (W4 m ρ c) (Proc.devRef .tc main_v44) = _
  after_results_simp
  rw [at4_arg3]
  rfl

/-! ## Second layer -/

theorem product1 (c : Dev nD) : W6 m ρ c (Proc.devRef .tc main_v45) = Cert.ReferenceIdeal.ReadP.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W6_arr m ρ c 3).trans (region1_value (V5 m ρ) c _ _ _ _ _ (spread1 m ρ c) (bias1 m ρ c) (at5_arg4 m ρ c))

theorem spread2 (c : Dev nD) : W7 m ρ c (Proc.devRef .tc main_v58) = Cert.ReferenceIdeal.ReadP.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps2 (W6 m ρ c) (Proc.devRef .tc main_v58) = _
  after_results_simp
  rw [product1, at6_v5, at6_v6, at6_v29, src_at1, dst_at1, nrm_at3]
  rfl
theorem bias2 (c : Dev nD) : W7 m ρ c (Proc.devRef .tc main_v59) = shapeCast _ (m ((c : Thread nD τ).loc main_arg5)) shapeCasts_S64_S1x64 := by
  show StableHlo.after hostOps2 (W6 m ρ c) (Proc.devRef .tc main_v59) = _
  after_results_simp
  rw [at6_arg5]
  rfl

/-! ## Third layer -/

theorem product2 (c : Dev nD) : W8 m ρ c (Proc.devRef .tc main_v60) = Cert.ReferenceIdeal.ReadP.val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W8_arr m ρ c 3).trans (region2_value (V7 m ρ) c _ _ _ _ _ _ _ (spread2 m ρ c) (bias2 m ρ c) (at7_arg6 m ρ c))

theorem spread3 (c : Dev nD) : W9 m ρ c (Proc.devRef .tc main_v73) = Cert.ReferenceIdeal.ReadP.val_main_v142 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps3 (W8 m ρ c) (Proc.devRef .tc main_v73) = _
  after_results_simp
  rw [product2, at8_v5, at8_v6, at8_v29, src_at1, dst_at1, nrm_at3]
  rfl
theorem bias3_128 (c : Dev nD) : W9 m ρ c (Proc.devRef .tc main_v74) = shapeCast _ (m ((c : Thread nD τ).loc main_arg7)) shapeCasts_S128_S1x128 := by
  show StableHlo.after hostOps3 (W8 m ρ c) (Proc.devRef .tc main_v74) = _
  after_results_simp
  rw [at8_arg7]
  rfl
theorem bias3_64 (c : Dev nD) : W9 m ρ c (Proc.devRef .tc main_v75) = shapeCast _ (m ((c : Thread nD τ).loc main_arg9)) shapeCasts_S64_S1x64 := by
  show StableHlo.after hostOps3 (W8 m ρ c) (Proc.devRef .tc main_v75) = _
  after_results_simp
  rw [at8_arg9]
  rfl
theorem bias3_32 (c : Dev nD) : W9 m ρ c (Proc.devRef .tc main_v76) = shapeCast _ (m ((c : Thread nD τ).loc main_arg11)) shapeCasts_S32_S1x32 := by
  show StableHlo.after hostOps3 (W8 m ρ c) (Proc.devRef .tc main_v76) = _
  after_results_simp
  rw [at8_arg11]
  rfl
theorem bias3_16 (c : Dev nD) : W9 m ρ c (Proc.devRef .tc main_v77) = shapeCast _ (m ((c : Thread nD τ).loc main_arg13)) shapeCasts_S16_S1x16 := by
  show StableHlo.after hostOps3 (W8 m ρ c) (Proc.devRef .tc main_v77) = _
  after_results_simp
  rw [at8_arg13]
  rfl

/-! ## The head -/

/-- THE RESULT: the last boundary's contents at the result buffer are the reference's result stage of the launch
    contents of the fourteen arguments. -/
theorem kernel_value (c : Dev nD) : W10 m ρ c (Proc.devRef .tc main_v78) = Cert.ReferenceIdeal.ReadP.val_main_v161 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  (W10_arr m ρ c 8).trans (region3_value (V9 m ρ) c _ _ _ _ _ _ _ _ _ _ _ _ _ _ (spread3 m ρ c) (bias3_128 m ρ c) (at9_arg8 m ρ c)
    (bias3_64 m ρ c) (at9_arg10 m ρ c) (bias3_32 m ρ c) (at9_arg12 m ρ c) (bias3_16 m ρ c))

end Cert.KernelIdeal.Bridge

end
-- ==== Proof.lean ====
/-
  The kernel against its reference: three graph-convolution layers and a three-layer head on 50000 nodes.

  Both programs compute, with (src, dst) the 800000 edges followed by the 50000 self loops and
  nrm = deg^(-1/2)[src] · deg^(-1/2)[dst] (deg the in-degree counted by a scatter-add of ones, the inverse square root
  replaced by 0 where the degree is not positive),

      h1 = x · W1            s1 = scatter-add at dst of h1[src] · nrm
      h2 = relu(s1 + b1) · W2    s2 = scatter-add at dst of h2[src] · nrm
      h3 = relu(s2 + b2) · W3    s3 = scatter-add at dst of h3[src] · nrm
      out = relu(relu(relu(relu(s3 + b3) · Wl1 + bl1) · Wl2 + bl2) · Wl3 + bl3).

  The kernel computes the four matrix stages in row-tiled kernels (five blocks of 10000 rows; the operands cast to
  bf16 and accumulated in f32 from zero) and the gathers and scatter-adds on the host; the reference computes
  everything on the host and recomputes src, dst and nrm in every layer.  On the extended reals a format change is the
  identity and a product into a zero accumulator is the plain sum over the contracted axis, a row of a product depends
  on the same row of the left operand only, and the two programs apply the same operations in the same order: no
  algebraic law beyond the reading of a tiled product as the whole product is used, and the precondition (finite
  inputs) is never opened.

  Proof/KernelRun.lean names the idealized kernel's result at the end of its run; Proof/Region0..3.lean read each
  kernel region's array as the reference's stage; Proof/KernelValue.lean walks the boundaries between host stretches and
  regions; here the five claims are assembled.  The kernel's idealization rewrote nothing, so that claim is trivial.
-/
import proofs.«118536_j17815524344480_1_alg».proof.Defs
import proofs.«118536_j17815524344480_1_alg».proof.Proof.Gen.Kernel
import proofs.«118536_j17815524344480_1_alg».proof.Proof.Gen.Kernel.Skeleton
import proofs.«118536_j17815524344480_1_alg».proof.Proof.Gen.Kernel.Launch
import proofs.«118536_j17815524344480_1_alg».proof.Proof.Gen.Kernel.Points
import proofs.«118536_j17815524344480_1_alg».proof.Proof.Gen.Kernel.Frame
import proofs.«118536_j17815524344480_1_alg».proof.Proof.Gen.KernelIdeal
import proofs.«118536_j17815524344480_1_alg».proof.Proof.Gen.KernelIdeal.Skeleton
import proofs.«118536_j17815524344480_1_alg».proof.Proof.Gen.KernelIdeal.Launch
import proofs.«118536_j17815524344480_1_alg».proof.Proof.Gen.KernelIdeal.Points
import proofs.«118536_j17815524344480_1_alg».proof.Proof.Gen.KernelIdeal.Frame
import proofs.«118536_j17815524344480_1_alg».proof.Proof.Gen.ReferenceIdeal
import proofs.«118536_j17815524344480_1_alg».proof.Proof.Gen.Pre_finite_inputs
import proofs.«118536_j17815524344480_1_alg».proof.Proof.RefRun
import proofs.«118536_j17815524344480_1_alg».proof.Proof.RefRead
import proofs.«118536_j17815524344480_1_alg».proof.Proof.KernelRun
import proofs.«118536_j17815524344480_1_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame m ρ
/-- So does its idealization. -/
theorem frame_kernel_ideal : Cert.frame_KernelIdeal := fun m ρ _ => Cert.KernelIdeal.Gen.frame m ρ
/-- The reference is host operations only: its run, the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- On the extended reals both programs end with the same result: the reference's last stage of the arguments. -/
theorem algebraic : Cert.algebraic_KernelIdeal_ReferenceIdeal := by
  intro m ρ m' ρ' _ hagree
  refine ⟨fun c => Cert.ReferenceIdeal.ReadP.val_main_v161 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.Bridge.kernel_value m ρ c), (h c).2⟩)
      (Cert.KernelIdeal.Bridge.run_result (F := Ideal) m ρ)
  · refine (θ_run Cert.ReferenceIdeal.defs _ _).mono (fun r h c => ⟨(h c).1.trans ?_, (h c).2⟩)
      (Cert.ReferenceIdeal.ValueP.run (F := Ideal) m' ρ')
    obtain ⟨a0, a1, a2, a3, a4, a5, a6, a7, a8, a9, a10, a11, a12, a13⟩ := hagree c
    rw [Cert.ReferenceIdeal.ReadP.val_main_v161_eq, a0, a1, a2, a3, a4, a5, a6, a7, a8, a9, a10, a11, a12, a13]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
